-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S850000x128 : Shape := ⟨2, ![850000, 128]⟩

abbrev nBuf : Space → Nat
  | .hbm => 67
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000x128, .f32⟩
  | .hbm, ⟨37, _⟩ => ⟨S_, .f32⟩
  | .hbm, ⟨38, _⟩ => ⟨S50000x128, .f32⟩
  | .hbm, ⟨39, _⟩ => ⟨S850000x1, .i32⟩
  | .hbm, ⟨40, _⟩ => ⟨S50000x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S5000x1, .f32⟩
  | .local _ .vmem, ⟨34, _⟩ => ⟨S5000x1, .f32⟩
  | .local _ .vmem, ⟨35, _⟩ => ⟨S5000x128, .f32⟩
  | .local _ .vmem, ⟨36, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem6_1 : DmaSem sig := 22
abbrev cc2_sem7_0 : DmaSem sig := 23
abbrev cc2_sem8_0 : DmaSem sig := 24
abbrev cc2_sem8_1 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34
abbrev cc3_sem4_0 : DmaSem sig := 35
abbrev cc3_sem4_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S50000x1.size a
  hwx2_6 : ∀ i : grid2.Coords, EltTy.bits .f32 = 32 ∨ (Rect.block (s := S50000x1) S5000x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S50000x128.size a
  hwx2_9 : ∀ i : grid2.Coords, EltTy.bits .f32 = 32 ∨ (Rect.block (s := S50000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v12) S5000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg4) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v35_0) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v35_1) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v35_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v12) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S850000x1, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .i32⟩
  | .hbm, ⟨67, _⟩ => ⟨S_, .f32⟩
  | .hbm, ⟨68, _⟩ => ⟨S128, .f32⟩
  | .hbm, ⟨69, _⟩ => ⟨S1x128, .f32⟩
  | .hbm, ⟨70, _⟩ => ⟨S_, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S_, .i1⟩
  | .hbm, ⟨85, _⟩ => ⟨S_, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S_, .i32⟩
  | .hbm, ⟨110, _⟩ => ⟨S850000, .i32⟩
  | .hbm, ⟨111, _⟩ => ⟨S850000, .i1⟩
  | .hbm, ⟨112, _⟩ => ⟨S_, .i32⟩
  | .hbm, ⟨113, _⟩ => ⟨S850000, .i32⟩
  | .hbm, ⟨114, _⟩ => ⟨S850000, .i32⟩
  | .hbm, ⟨115, _⟩ => ⟨S850000, .i32⟩
  | .hbm, ⟨116, _⟩ => ⟨S850000x1, .i32⟩
  | .hbm, ⟨117, _⟩ => ⟨S850000x128, .f32⟩
  | .hbm, ⟨118, _⟩ => ⟨S850000x128, .f32⟩
  | .hbm, ⟨119, _⟩ => ⟨S850000x128, .f32⟩
  | .hbm, ⟨120, _⟩ => ⟨S_, .f32⟩
  | .hbm, ⟨121, _⟩ => ⟨S50000x128, .f32⟩
  | .hbm, ⟨122, _⟩ => ⟨S850000x1, .i32⟩
  | .hbm, ⟨123, _⟩ => ⟨S50000x128, .f32⟩
  | .hbm, ⟨124, _⟩ => ⟨S1x128, .f32⟩
  | .hbm, ⟨125, _⟩ => ⟨S50000x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result array named: every weakly fair execution of @main terminates, nothing
  faulting, and the final state holds in the result buffer what the last segment boundary's contents hold there, the
  argument arrays as launched. The segments, their boundary contents and the launch are the frame's; only the
  final reading differs: the result buffer is read as well as the arguments.
-/
import proofs.«139979_j60576218742837_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents. -/
theorem run_result : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Gen

end
-- ==== Proof.Hops.lean ====
/-
  Buffers that no segment between two boundaries writes keep their contents: a host stretch that does not write the
  buffer leaves it, a region leaves every buffer that is not one of its arrays, and an input window's array ends a
  region as it entered it.
-/
import proofs.«139979_j60576218742837_2_alg».proof.Proof.Gen.KernelIdeal.Frame

set_option maxRecDepth 16384

noncomputable section

namespace Cert.KernelIdeal.Gen

open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem keep_arg0_1_0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_arg2_1_0 (c : Dev nD) : W1 m ρ c (Proc.devRef .tc main_arg2) = W0 m ρ c (Proc.devRef .tc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem keep_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem keep_v13_3_1 (c : Dev nD) : W3 m ρ c (Proc.devRef .tc main_v13) = W1 m ρ c (Proc.devRef .tc main_v13) :=
  calc W3 m ρ c (Proc.devRef .tc main_v13)
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v13) := W2_of_ne m ρ c main_v13 (by decide)

theorem keep_v12_3_1 (c : Dev nD) : W3 m ρ c (Proc.devRef .tc main_v12) = W1 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem keep_v27_5_3 (c : Dev nD) : W5 m ρ c (Proc.devRef .tc main_v27) = W3 m ρ c (Proc.devRef .tc main_v27) :=
  calc W5 m ρ c (Proc.devRef .tc main_v27)
    _ = W4 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v27) := (W4_arr m ρ c 0).trans (((dat1 (V3 m ρ) c).arrAt_in 0 rfl _).trans (A_eq1 (V3 m ρ) c 0))

theorem keep_v13_5_1 (c : Dev nD) : W5 m ρ c (Proc.devRef .tc main_v13) = W1 m ρ c (Proc.devRef .tc main_v13) :=
  calc W5 m ρ c (Proc.devRef .tc main_v13)
    _ = W4 m ρ c (Proc.devRef .tc main_v13) := StableHlo.after_of_forall_not_mem (b := Proc.devRef .tc main_v13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v13) := (W4_arr m ρ c 1).trans (((dat1 (V3 m ρ) c).arrAt_in 1 rfl _).trans (A_eq1 (V3 m ρ) c 1))
    _ = W2 m ρ c (Proc.devRef .tc main_v13) := StableHlo.after_of_forall_not_mem (b := Proc.devRef .tc main_v13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v13) := W2_of_ne m ρ c main_v13 (by decide)

theorem keep_v15_5_1 (c : Dev nD) : W5 m ρ c (Proc.devRef .tc main_v15) = W1 m ρ c (Proc.devRef .tc main_v15) :=
  calc W5 m ρ c (Proc.devRef .tc main_v15)
    _ = W4 m ρ c (Proc.devRef .tc main_v15) := StableHlo.after_of_forall_not_mem (b := Proc.devRef .tc main_v15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v15) := W4_of_ne m ρ c main_v15 (by decide)
    _ = W2 m ρ c (Proc.devRef .tc main_v15) := StableHlo.after_of_forall_not_mem (b := Proc.devRef .tc main_v15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v15) := W2_of_ne m ρ c main_v15 (by decide)

theorem keep_v16_5_1 (c : Dev nD) : W5 m ρ c (Proc.devRef .tc main_v16) = W1 m ρ c (Proc.devRef .tc main_v16) :=
  calc W5 m ρ c (Proc.devRef .tc main_v16)
    _ = W4 m ρ c (Proc.devRef .tc main_v16) := StableHlo.after_of_forall_not_mem (b := Proc.devRef .tc main_v16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v16) := W4_of_ne m ρ c main_v16 (by decide)
    _ = W2 m ρ c (Proc.devRef .tc main_v16) := StableHlo.after_of_forall_not_mem (b := Proc.devRef .tc main_v16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v16) := W2_of_ne m ρ c main_v16 (by decide)

theorem keep_v12_5_1 (c : Dev nD) : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem keep_arg4_5_0 (c : Dev nD) : W5 m ρ c (Proc.devRef .tc main_arg4) = W0 m ρ c (Proc.devRef .tc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem keep_v6_6_1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem keep_v35_0_7_6 (c : Dev nD) : W7 m ρ c (Proc.devRef .tc main_v35_0) = W6 m ρ c (Proc.devRef .tc main_v35_0) :=
  calc W7 m ρ c (Proc.devRef .tc main_v35_0)
    _ = W6 m ρ c (Proc.devRef .tc main_v35_0) := StableHlo.after_of_forall_not_mem (b := Proc.devRef .tc main_v35_0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_v14_7_1 (c : Dev nD) : W7 m ρ c (Proc.devRef .tc main_v14) = W1 m ρ c (Proc.devRef .tc main_v14) :=
  calc W7 m ρ c (Proc.devRef .tc main_v14)
    _ = W6 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v14) := W6_of_ne m ρ c main_v14 (by decide)
    _ = W4 m ρ c (Proc.devRef .tc main_v14) := StableHlo.after_of_forall_not_mem (b := Proc.devRef .tc main_v14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v14) := W4_of_ne m ρ c main_v14 (by decide)
    _ = W2 m ρ c (Proc.devRef .tc main_v14) := StableHlo.after_of_forall_not_mem (b := Proc.devRef .tc main_v14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v14) := W2_of_ne m ρ c main_v14 (by decide)

theorem keep_v12_7_1 (c : Dev nD) : W7 m ρ c (Proc.devRef .tc main_v12) = W1 m ρ c (Proc.devRef .tc main_v12) :=
  calc W7 m ρ c (Proc.devRef .tc main_v12)
    _ = W6 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v12) := (W6_arr m ρ c 6).trans (((dat2 (V5 m ρ) c).arrAt_in 6 rfl _).trans (A_eq2 (V5 m ρ) c 6))
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := (W4_arr m ρ c 2).trans (((dat1 (V3 m ρ) c).arrAt_in 2 rfl _).trans (A_eq1 (V3 m ρ) c 2))
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

end Cert.KernelIdeal.Gen

end
-- ==== Proof.LibSegmentSum.lean ====
import Idealize.ShloMosaic.PureOps.Ideal.Laws
import Idealize.ShloMosaic.Lib.ValueIdx

/-!
# Segment sums: scatter-add and gather of rows read at an index, and the linear law

General facts about a "segment sum" (a scatter-add of rows into a table by an integer row index)
and the matching row gather, each read at one index, together with the linear law on the extended
reals that lets a nonnegative finite per-row weight be moved across a product with an arbitrary
vector.
-/

noncomputable section

open scoped BigOperators

namespace Cert.SegmentSum

open Idealize.ShloMosaic Idealize.ShloMosaic.ValueIdx

/-! ## The linear law on the extended reals -/

/-- A finite sum of extended reals times a nonnegative finite factor distributes:
`(∑ k ∈ T, a k) * n = ∑ k ∈ T, a k * n` when `0 ≤ n` and `n ≠ ⊤`
(no sign or finiteness condition on the summands). -/
theorem sum_mul_of_nonneg_of_ne_top {K : Type*} [DecidableEq K] (T : Finset K) (a : K → EReal)
    {n : EReal} (hn : 0 ≤ n) (hn' : n ≠ ⊤) :
    (∑ k ∈ T, a k) * n = ∑ k ∈ T, a k * n := by
  induction T using Finset.induction_on with
  | empty => simp
  | insert k T hk ih =>
    rw [Finset.sum_insert hk, Finset.sum_insert hk,
      EReal.right_distrib_of_nonneg_of_ne_top hn hn', ih]

/-- A finite sum of nonnegative extended reals times an arbitrary factor distributes:
`(∑ e ∈ S, b e) * w = ∑ e ∈ S, b e * w` when every `b e ≥ 0`
(`w` may have any sign and may be infinite). -/
theorem sum_mul_of_nonneg {E : Type*} [DecidableEq E] (S : Finset E) (b : E → EReal)
    (hb : ∀ e ∈ S, 0 ≤ b e) (w : EReal) :
    (∑ e ∈ S, b e) * w = ∑ e ∈ S, b e * w := by
  induction S using Finset.induction_on with
  | empty => simp
  | insert e S he ih =>
    have hS : ∀ e' ∈ S, 0 ≤ b e' := fun e' h' => hb e' (Finset.mem_insert_of_mem h')
    rw [Finset.sum_insert he, Finset.sum_insert he,
      EReal.right_distrib_of_nonneg (hb e (Finset.mem_insert_self e S)) (Finset.sum_nonneg hS),
      ih hS]

/-- The linear law on the extended reals: weighting each row `e` of `h` by a nonnegative
finite factor `n e` commutes with the product against an arbitrary (any sign, possibly
infinite) vector `w`, summed over any set `S` of rows:
`∑ e ∈ S, (∑ k, h e k * w k) * n e = ∑ k, (∑ e ∈ S, h e k * n e) * w k`,
for `h ≥ 0`, `0 ≤ n e ≠ ⊤`. -/
theorem sum_mul_weight_comm {E K : Type*} [DecidableEq E] [Fintype K] [DecidableEq K]
    (S : Finset E) (h : E → K → EReal) (hh : ∀ e k, 0 ≤ h e k)
    (n : E → EReal) (hn : ∀ e, 0 ≤ n e) (hn' : ∀ e, n e ≠ ⊤) (w : K → EReal) :
    ∑ e ∈ S, (∑ k, h e k * w k) * n e = ∑ k, (∑ e ∈ S, h e k * n e) * w k := by
  have h1 : ∀ e ∈ S, (∑ k, h e k * w k) * n e = ∑ k, (h e k * n e) * w k := by
    intro e _
    rw [sum_mul_of_nonneg_of_ne_top Finset.univ _ (hn e) (hn' e)]
    refine Finset.sum_congr rfl fun k _ => ?_
    rw [mul_assoc, mul_comm (w k) (n e), ← mul_assoc]
  rw [Finset.sum_congr rfl h1, Finset.sum_comm]
  refine Finset.sum_congr rfl fun k _ => ?_
  rw [sum_mul_of_nonneg S (fun e => h e k * n e) (fun e _ => EReal.mul_nonneg (hh e k) (hn e)) (w k)]

/-! ## Gather of rows read at an index -/

section Gather
variable {α : Type}

/-- The dimension numbers of a row gather `x[idx]` of a table `[N, D]` at start indices `[E, 1]`, result `[E, D]`:
offset axis `1`, collapsed axis `0`, start index map `[0]`, index vector axis `1`, slice sizes `[1, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather read at `(e, c)`: the table at row `idx[e, 0]`, read signed and clamped into `[0, N − 1]`,
column `c`. -/
theorem gather_rowsDims_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N E D wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowsDims N E D wf).start (ix2 e c) idx 0 + (rowsDims N E D wf).batchCoord (ix2 e c) 0
      + (rowsDims N E D wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e c) ⟨List.idxOf (0 : Fin 2) (rowsDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E D wf).start (ix2 e c) idx 1 + (rowsDims N E D wf).batchCoord (ix2 e c) 1
      + (rowsDims N E D wf).offCoord (ix2 e c) 1 = c.val
    rw [GatherDims.batchCoord_eq_zero _ _ _ List.not_mem_nil]
    have hs : (rowsDims N E D wf).start (ix2 e c) idx 1 = 0 := by
      unfold GatherDims.start
      rw [dif_neg (show (1 : Fin 2) ∉ (rowsDims N E D wf).startIndexMap from (by decide : (1 : Fin 2) ∉ ([0] : List (Fin 2))))]
    rw [hs]
    simp only [Nat.add_zero, Nat.zero_add]
    unfold GatherDims.offCoord
    rw [dif_pos ((GatherDims.mem_sKept _ _).mpr ⟨(by decide : (1 : Fin 2) ∉ ([0] : List (Fin 2))), List.not_mem_nil⟩)]
    rfl

/-- GATHER OF ROWS READ AT AN INDEX, for any record with the row gather's dimension numbers: element `(e, c)` of
`x[idx]` is the table at row `idx[e, 0]`, read signed and clamped into `[0, N − 1]`, column `c`. -/
theorem gather_rows_apply {N E D w : Nat} (hN : 0 < N)
    (g : GatherDims ⟨2, ![N, D]⟩ ⟨2, ![E, 1]⟩ ⟨2, ![E, D]⟩)
    (ho : g.offsetDims = [1]) (hc : g.collapsedSliceDims = [0]) (hob : g.operandBatchingDims = [])
    (hsb : g.startIndicesBatchingDims = []) (hm : g.startIndexMap = [0]) (hv : g.indexVectorDim = 1)
    (hss : g.sliceSizes = ![1, D])
    (x : (⟨2, ![N, D]⟩ : Shape).Idx → α) (idx : IVec ⟨2, ![E, 1]⟩ w) (e : Fin E) (c : Fin D) :
    Host.gather g x idx (ix2 e c)
      = x (ix2 ⟨min (idx (ix2 e 0)).toInt.toNat (N - 1), by omega⟩ c) := by
  obtain ⟨od, cd, ob, sb, sm, iv, ss, wf⟩ := g
  dsimp only at ho hc hob hsb hm hv hss
  subst ho hc hob hsb hm hv hss
  exact gather_rowsDims_apply hN wf x idx e c

/-- The dimension numbers of a gather `x[idx]` of a flat table `[N]` at start indices `[E, 1]`, result `[E]`:
no offset axis, collapsed axis `0`, start index map `[0]`, index vector axis `1`, slice sizes `[1]`. -/
abbrev tableDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat-table gather read at `e`: the table at `idx[e, 0]`, read signed and clamped into `[0, N − 1]`. -/
theorem gather_tableDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (tableDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (tableDims N E wf).start (ix1 e) idx 0 + (tableDims N E wf).batchCoord (ix1 e) 0
    + (tableDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (tableDims N E wf).startIndexMap from List.mem_singleton.mpr rfl)]
  have hsi : (tableDims N E wf).siIdx (ix1 e) ⟨List.idxOf (0 : Fin 1) (tableDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- GATHER FROM A FLAT TABLE READ AT AN INDEX, for any record with those dimension numbers: element `e` of `x[idx]`
is the table at `idx[e, 0]`, read signed and clamped into `[0, N − 1]`. -/
theorem gather_table_apply {N E w : Nat} (hN : 0 < N)
    (g : GatherDims ⟨1, ![N]⟩ ⟨2, ![E, 1]⟩ ⟨1, ![E]⟩)
    (ho : g.offsetDims = []) (hc : g.collapsedSliceDims = [0]) (hob : g.operandBatchingDims = [])
    (hsb : g.startIndicesBatchingDims = []) (hm : g.startIndexMap = [0]) (hv : g.indexVectorDim = 1)
    (hss : g.sliceSizes = ![1])
    (x : (⟨1, ![N]⟩ : Shape).Idx → α) (idx : IVec ⟨2, ![E, 1]⟩ w) (e : Fin E) :
    Host.gather g x idx (ix1 e)
      = x (ix1 ⟨min (idx (ix2 e 0)).toInt.toNat (N - 1), by omega⟩) := by
  obtain ⟨od, cd, ob, sb, sm, iv, ss, wf⟩ := g
  dsimp only at ho hc hob hsb hm hv hss
  subst ho hc hob hsb hm hv hss
  exact gather_tableDims_apply hN wf x idx e

end Gather

/-! ## Scatter-add of rows read at an index -/

section Scatter

/-- The row a scatter index word addresses in a table of `N` rows: the word read as a signed integer when that is in
`[0, N)`, no row otherwise (an update whose index leaves the table is dropped). -/
def rowTarget (N : Nat) (w : BitVec 32) : Option (Fin N) :=
  if h : 0 ≤ w.toInt ∧ w.toInt < N then some ⟨w.toInt.toNat, by omega⟩ else none

/-- The dimension numbers of a row scatter into a table `[N, D]` at scatter indices `[E, 1]` with updates `[E, D]`:
update window axis `1`, inserted window axis `0`, scatter-dims-to-operand-dims `[0]`, index vector axis `1`. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D : Nat} (wf : ScatterDims.WF ⟨2, ![N, D]⟩ ⟨2, ![E, 1]⟩ ⟨2, ![E, D]⟩ [1] [0] [0] 1)
  (idx : IVec ⟨2, ![E, 1]⟩ 32) (e : Fin E) (c : Fin D)

/-- On the row axis the window of update `(e, c)` starts at the index word `idx[e, 0]` read signed. -/
theorem rowsScatter_start0 :
    (rowsScatter N E D wf).start (ix2 e c) idx 0 = (idx (ix2 e 0)).toInt := by
  unfold ScatterDims.start
  rw [dif_pos (show (0 : Fin 2) ∈ (rowsScatter N E D wf).scatterDimsToOperandDims from List.mem_singleton.mpr rfl)]
  have hsi : (rowsScatter N E D wf).siIdx (ix2 e c)
      ⟨List.idxOf (0 : Fin 2) (rowsScatter N E D wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`. -/
theorem rowsScatter_start1 : (rowsScatter N E D wf).start (ix2 e c) idx 1 = 0 := by
  unfold ScatterDims.start
  rw [dif_neg (show (1 : Fin 2) ∉ (rowsScatter N E D wf).scatterDimsToOperandDims from
    (by decide : (1 : Fin 2) ∉ ([0] : List (Fin 2))))]

/-- The row axis is inserted: no window coordinate there. -/
theorem rowsScatter_window0 : (rowsScatter N E D wf).window (ix2 e c) 0 = 0 := by
  unfold ScatterDims.window
  rw [dif_neg (show (0 : Fin 2) ∉ (rowsScatter N E D wf).sKept from
    (by decide : (0 : Fin 2) ∉ (List.finRange 2).filter (· ∉ ([0] : List (Fin 2)))))]

/-- The window coordinate on the column axis is the update's column. -/
theorem rowsScatter_window1 : (rowsScatter N E D wf).window (ix2 e c) 1 = c.val := by
  unfold ScatterDims.window
  rw [dif_pos (show (1 : Fin 2) ∈ (rowsScatter N E D wf).sKept from
    (by decide : (1 : Fin 2) ∈ (List.finRange 2).filter (· ∉ ([0] : List (Fin 2)))))]
  rfl

/-- ROW TARGET (literal dimension numbers): update `(e, c)` of a row scatter lands at `(i, c)` where `i` is the row
its index word `idx[e, 0]` addresses, and nowhere when that word leaves `[0, N)`. -/
theorem rowsScatter_resultIdx? :
    (rowsScatter N E D wf).resultIdx? (ix2 e c) idx
      = (rowTarget N (idx (ix2 e 0))).map (fun i => ix2 i c) := by
  have h0s := rowsScatter_start0 wf idx e c
  have h0w := rowsScatter_window0 wf e c
  have h1s := rowsScatter_start1 wf idx e c
  have h1w := rowsScatter_window1 wf e c
  unfold ScatterDims.resultIdx? rowTarget
  by_cases h : 0 ≤ (idx (ix2 e 0)).toInt ∧ (idx (ix2 e 0)).toInt < N
  · have hall : ∀ a : Fin 2, 0 ≤ (rowsScatter N E D wf).start (ix2 e c) idx a + (rowsScatter N E D wf).window (ix2 e c) a
        ∧ (rowsScatter N E D wf).start (ix2 e c) idx a + (rowsScatter N E D wf).window (ix2 e c) a
          < ((⟨2, ![N, D]⟩ : Shape).size a : Int) := by
      intro a
      match a with
      | ⟨0, _⟩ =>
        show 0 ≤ (rowsScatter N E D wf).start (ix2 e c) idx 0 + (rowsScatter N E D wf).window (ix2 e c) 0
          ∧ (rowsScatter N E D wf).start (ix2 e c) idx 0 + (rowsScatter N E D wf).window (ix2 e c) 0 < (N : Int)
        rw [h0s, h0w]; omega
      | ⟨1, _⟩ =>
        show 0 ≤ (rowsScatter N E D wf).start (ix2 e c) idx 1 + (rowsScatter N E D wf).window (ix2 e c) 1
          ∧ (rowsScatter N E D wf).start (ix2 e c) idx 1 + (rowsScatter N E D wf).window (ix2 e c) 1 < (D : Int)
        rw [h1s, h1w]; have := c.isLt; omega
    rw [dif_pos hall, dif_pos h, Option.map_some]
    congr 1
    funext a
    refine Fin.ext ?_
    match a with
    | ⟨0, _⟩ =>
      show ((rowsScatter N E D wf).start (ix2 e c) idx 0 + (rowsScatter N E D wf).window (ix2 e c) 0).toNat
        = (idx (ix2 e 0)).toInt.toNat
      rw [h0s, h0w]; simp
    | ⟨1, _⟩ =>
      show ((rowsScatter N E D wf).start (ix2 e c) idx 1 + (rowsScatter N E D wf).window (ix2 e c) 1).toNat = c.val
      rw [h1s, h1w]; simp
  · rw [dif_neg h, dif_neg]
    · rfl
    · intro hall
      have h0 : 0 ≤ (rowsScatter N E D wf).start (ix2 e c) idx 0 + (rowsScatter N E D wf).window (ix2 e c) 0
          ∧ (rowsScatter N E D wf).start (ix2 e c) idx 0 + (rowsScatter N E D wf).window (ix2 e c) 0 < (N : Int) := hall 0
      rw [h0s, h0w] at h0
      exact h (by omega)

/-- ROW TARGET, for any record with the row scatter's dimension numbers: update `(e, c)` lands at `(i, c)` where `i`
is the row its index word `idx[e, 0]` addresses, and nowhere when that word leaves `[0, N)`. -/
theorem resultIdx?_rows (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1) :
    d.resultIdx? (ix2 e c) idx = (rowTarget N (idx (ix2 e 0))).map (fun i => ix2 i c) := by
  obtain ⟨uw, iw, sd, iv, wf'⟩ := d
  dsimp only at hu hi hs hv
  subst hu hi hs hv
  exact rowsScatter_resultIdx? wf' idx e c

/-- Two rank-2 indices agree exactly when both coordinates do. -/
theorem ix2_eq_ix2_iff {n0 n1 : Nat} (a a' : Fin n0) (b b' : Fin n1) : ix2 a b = ix2 a' b' ↔ a = a' ∧ b = b' := by
  constructor
  · intro h
    exact ⟨congrFun h 0, congrFun h 1⟩
  · rintro ⟨rfl, rfl⟩; rfl

/-- SCATTER-ADD OF ROWS READ AT AN INDEX (on the extended reals): element `(i, c)` of the result is the operand's plus
the sum of column `c` of every update row `e` whose index word addresses row `i`. -/
theorem hostScatterAdd_rows_apply (d : ScatterDims ⟨2, ![N, D]⟩ ⟨2, ![E, 1]⟩ ⟨2, ![E, D]⟩)
    (hu : d.updateWindowDims = [1]) (hi : d.insertedWindowDims = [0]) (hs : d.scatterDimsToOperandDims = [0])
    (hv : d.indexVectorDim = 1)
    (x : (⟨2, ![N, D]⟩ : Shape).Idx → EReal) (upd : (⟨2, ![E, D]⟩ : Shape).Idx → EReal) (i : Fin N) :
    Ideal.hostScatterAdd d x idx upd (ix2 i c)
      = x (ix2 i c) + ∑ e ∈ Finset.univ.filter (fun e : Fin E => rowTarget N (idx (ix2 e 0)) = some i),
          upd (ix2 e c) := by
  unfold Ideal.hostScatterAdd
  congr 1
  rw [Finset.sum_filter, Finset.sum_filter, sum_idx2]
  refine Finset.sum_congr rfl fun e _ => ?_
  simp only [resultIdx?_rows idx e _ d hu hi hs hv]
  cases hr : rowTarget N (idx (ix2 e 0)) with
  | none => simp
  | some i' =>
    simp only [Option.map_some, Option.some.injEq, ix2_eq_ix2_iff]
    by_cases hii : i' = i
    · subst hii
      simp
    · simp [hii]

end Scatter

/-! ## Scatter-add into a flat table read at an index -/

section ScatterTable

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Two rank-1 indices agree exactly when their coordinates do. -/
theorem ix1_eq_ix1_iff {n : Nat} (a a' : Fin n) : ix1 a = ix1 a' ↔ a = a' := by
  constructor
  · intro h
    exact congrFun h 0
  · rintro rfl; rfl

/-- The dimension numbers of a scatter into a flat table `[N]` at scatter indices `[E, 1]` with updates `[E]`:
no update window axis, inserted window axis `0`, scatter-dims-to-operand-dims `[0]`, index vector axis `1`. -/
abbrev tableScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E : Nat} (wf : ScatterDims.WF ⟨1, ![N]⟩ ⟨2, ![E, 1]⟩ ⟨1, ![E]⟩ [] [0] [0] 1)
  (idx : IVec ⟨2, ![E, 1]⟩ 32) (e : Fin E)

/-- The window of update `e` starts at the index word `idx[e, 0]` read signed. -/
theorem tableScatter_start0 :
    (tableScatter N E wf).start (ix1 e) idx 0 = (idx (ix2 e 0)).toInt := by
  unfold ScatterDims.start
  rw [dif_pos (show (0 : Fin 1) ∈ (tableScatter N E wf).scatterDimsToOperandDims from List.mem_singleton.mpr rfl)]
  have hsi : (tableScatter N E wf).siIdx (ix1 e)
      ⟨List.idxOf (0 : Fin 1) (tableScatter N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The table's one axis is inserted: no window coordinate there. -/
theorem tableScatter_window0 : (tableScatter N E wf).window (ix1 e) 0 = 0 := by
  unfold ScatterDims.window
  rw [dif_neg (show (0 : Fin 1) ∉ (tableScatter N E wf).sKept from
    (by decide : (0 : Fin 1) ∉ (List.finRange 1).filter (· ∉ ([0] : List (Fin 1)))))]

/-- TARGET (literal dimension numbers): update `e` of a flat-table scatter lands at the entry its index word
`idx[e, 0]` addresses, and nowhere when that word leaves `[0, N)`. -/
theorem tableScatter_resultIdx? :
    (tableScatter N E wf).resultIdx? (ix1 e) idx = (rowTarget N (idx (ix2 e 0))).map (fun i => ix1 i) := by
  have h0s := tableScatter_start0 wf idx e
  have h0w := tableScatter_window0 wf e
  unfold ScatterDims.resultIdx? rowTarget
  by_cases h : 0 ≤ (idx (ix2 e 0)).toInt ∧ (idx (ix2 e 0)).toInt < N
  · have hall : ∀ a : Fin 1, 0 ≤ (tableScatter N E wf).start (ix1 e) idx a + (tableScatter N E wf).window (ix1 e) a
        ∧ (tableScatter N E wf).start (ix1 e) idx a + (tableScatter N E wf).window (ix1 e) a
          < ((⟨1, ![N]⟩ : Shape).size a : Int) := by
      intro a
      obtain rfl : a = 0 := Subsingleton.elim _ _
      show 0 ≤ (tableScatter N E wf).start (ix1 e) idx 0 + (tableScatter N E wf).window (ix1 e) 0
        ∧ (tableScatter N E wf).start (ix1 e) idx 0 + (tableScatter N E wf).window (ix1 e) 0 < (N : Int)
      rw [h0s, h0w]; omega
    rw [dif_pos hall, dif_pos h, Option.map_some]
    congr 1
    funext a
    obtain rfl : a = 0 := Subsingleton.elim _ _
    refine Fin.ext ?_
    show ((tableScatter N E wf).start (ix1 e) idx 0 + (tableScatter N E wf).window (ix1 e) 0).toNat
      = (idx (ix2 e 0)).toInt.toNat
    rw [h0s, h0w]; simp
  · rw [dif_neg h, dif_neg]
    · rfl
    · intro hall
      have h0 : 0 ≤ (tableScatter N E wf).start (ix1 e) idx 0 + (tableScatter N E wf).window (ix1 e) 0
          ∧ (tableScatter N E wf).start (ix1 e) idx 0 + (tableScatter N E wf).window (ix1 e) 0 < (N : Int) := hall 0
      rw [h0s, h0w] at h0
      exact h (by omega)

/-- TARGET, for any record with the flat-table scatter's dimension numbers. -/
theorem resultIdx?_table (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) :
    d.resultIdx? (ix1 e) idx = (rowTarget N (idx (ix2 e 0))).map (fun i => ix1 i) := by
  obtain ⟨uw, iw, sd, iv, wf'⟩ := d
  dsimp only at hu hi hs hv
  subst hu hi hs hv
  exact tableScatter_resultIdx? wf' idx e

/-- SCATTER-ADD INTO A FLAT TABLE READ AT AN INDEX (on the extended reals): entry `i` of the result is the operand's
plus the sum of every update `e` whose index word addresses `i`. -/
theorem hostScatterAdd_table_apply (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (upd : (⟨1, ![E]⟩ : Shape).Idx → EReal) (i : Fin N) :
    Ideal.hostScatterAdd d x idx upd (ix1 i)
      = x (ix1 i) + ∑ e ∈ Finset.univ.filter (fun e : Fin E => rowTarget N (idx (ix2 e 0)) = some i),
          upd (ix1 e) := by
  unfold Ideal.hostScatterAdd
  congr 1
  rw [Finset.sum_filter, Finset.sum_filter, sum_idx1]
  refine Finset.sum_congr rfl fun e _ => ?_
  rw [resultIdx?_table idx e d hu hi hs hv]
  cases hr : rowTarget N (idx (ix2 e 0)) with
  | none => simp
  | some i' => simp only [Option.map_some, Option.some.injEq, ix1_eq_ix1_iff]

end ScatterTable

end Cert.SegmentSum

end
-- ==== Proof.LibKeepdimsLayout.lean ====
/-
  Layout operations read at an index given by coordinates, for the shapes a row-wise reduction with a kept axis and a
  block with two leading unit axes produce: a vector `[a]` cast to a column `[a, 1]`, a column `[a, 1]` broadcast
  along its rows to `[a, b]`, and the casts between `[1, 1, a, b]` and `[a, b]`. A cast keeps the row-major position,
  and a unit axis contributes nothing to it; a broadcast re-reads the column's one entry of the row at every column.
  Each lemma is the general read-at-an-index lemma of the operation with both indices written by coordinates, so that
  it applies to a printed operation by unification.
-/
import Idealize.ShloMosaic.Lib.Pipeline.Value
import Idealize.ShloMosaic.Lib.ValueIdx

namespace Cert.LayoutKeepdims

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add])

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LayoutKeepdims
-- ==== Proof.Edges.lean ====
/-
  How an edge's index word picks a node: a gather clamps the word, read signed, into the table; a scatter drops the
  update when the word, read signed, leaves the table.
-/
import Idealize.ShloMosaic.Lib.ValueIdx
import proofs.«139979_j60576218742837_2_alg».proof.Proof.LibSegmentSum

noncomputable section

namespace Cert.Gcn

open Idealize.ShloMosaic Idealize.ShloMosaic.ValueIdx Cert.SegmentSum

/-- The node whose row a gather by the index column `idx` reads for edge `e`: the word read signed and clamped into
    `[0, 50000)`. -/
def rowOf (idx : IVec ⟨2, ![850000, 1]⟩ 32) (e : Fin 850000) : Fin 50000 :=
  ⟨min (idx (ix2 e 0)).toInt.toNat (50000 - 1), by omega⟩

/-- The node a scatter by the index column `idx` adds edge `e`'s update into: the word read signed when that is in
    `[0, 50000)`, none otherwise. -/
def tgtOf (idx : IVec ⟨2, ![850000, 1]⟩ 32) (e : Fin 850000) : Option (Fin 50000) :=
  rowTarget 50000 (idx (ix2 e 0))

end Cert.Gcn

end
-- ==== Proof.Spec.lean ====
/-
  The mathematics of the two programs, as plain functions over `Fin` indices on the extended reals.

  A two-layer graph convolution with symmetric normalisation over the graph with a self-loop at every node:
  nodes `v < 50000`, edges `e < 850000` (the last 50000 are the self-loops), features `k < 128`.
  For an edge `e`: `sRow e` is the node whose row a gather by the edge's source reads, `dRow e` the same for its
  destination, and `dTgt e` the node a scatter by its destination adds into (none when the destination word is
  out of range). `seg v` is the set of edges added into node `v`; `deg v` its size; `dis v = deg v ^ (-1/2)`.

  The KERNEL'S arrangement scales each projected row by `dis` of its own node before the edges gather it, sums over
  the incoming edges, scales by `dis` of the receiving node, and adds the bias; its batch variance is
  E[h²] − E[h]². The REFERENCE'S arrangement multiplies each gathered row by the edge weight
  `dis (sRow e) * dis (dRow e)` before summing, and its batch variance is the mean of the squared deviations.
-/
import Idealize.ShloMosaic.PureOps.Ideal

noncomputable section

open scoped BigOperators

namespace Cert.Gcn

open Idealize.ShloMosaic

/-- The number of nodes, as both programs spell it in f32. -/
def cN : EReal := Ideal.ofBits .f32 0x47435000#32
/-- The batch-normalisation epsilon, as both programs spell it in f32. -/
def cEps : EReal := Ideal.ofBits .f32 0x3727C5AC#32
/-- The weight of one edge in a degree count, as both programs spell it in f32. -/
def cOne : EReal := Ideal.ofBits .f32 0x3F800000#32

section
variable (x : Fin 50000 → Fin 128 → EReal) (W1 W2 : Fin 128 → Fin 128 → EReal) (b1 b2 gam bet : Fin 128 → EReal)
  (sRow dRow : Fin 850000 → Fin 50000) (dTgt : Fin 850000 → Option (Fin 50000))

/-- The edges whose destination adds into node `v`. -/
def seg (v : Fin 50000) : Finset (Fin 850000) := Finset.univ.filter (fun e => dTgt e = some v)

/-- The degree of node `v`: one per incoming edge. -/
def deg (v : Fin 50000) : EReal := ∑ _e ∈ seg dTgt v, cOne

/-- The normalisation weight of node `v`. -/
def dis (v : Fin 50000) : EReal := Ideal.rsqrt (deg dTgt v)

/-- Batch normalisation with the given statistics, then the rectifier. -/
def bn (h : Fin 50000 → Fin 128 → EReal) (mu var : Fin 128 → EReal) (v : Fin 50000) (k : Fin 128) : EReal :=
  max (gam k * (h v k - mu k) * Ideal.rsqrt (var k + cEps) + bet k) 0

/-! ## The kernel's arrangement -/

/-- A projected row, scaled by its own node's weight. -/
def projK (h : Fin 50000 → Fin 128 → EReal) (W : Fin 128 → Fin 128 → EReal) (u : Fin 50000) (k : Fin 128) : EReal :=
  (∑ j, h u j * W j k) * dis dTgt u

/-- The scaled rows summed over the incoming edges. -/
def aggK (h : Fin 50000 → Fin 128 → EReal) (W : Fin 128 → Fin 128 → EReal) (v : Fin 50000) (k : Fin 128) : EReal :=
  ∑ e ∈ seg dTgt v, projK dTgt h W (sRow e) k

/-- Layer 1 before normalisation. -/
def hK (v : Fin 50000) (k : Fin 128) : EReal := dis dTgt v * aggK sRow dTgt x W1 v k + b1 k

def muK (k : Fin 128) : EReal := Ideal.div (∑ v, hK x W1 b1 sRow dTgt v k) cN

def varK (k : Fin 128) : EReal :=
  Ideal.div (∑ v, hK x W1 b1 sRow dTgt v k * hK x W1 b1 sRow dTgt v k) cN
    - muK x W1 b1 sRow dTgt k * muK x W1 b1 sRow dTgt k

/-- Layer 1 after normalisation and the rectifier. -/
def h1K : Fin 50000 → Fin 128 → EReal :=
  bn gam bet (hK x W1 b1 sRow dTgt) (muK x W1 b1 sRow dTgt) (varK x W1 b1 sRow dTgt)

/-- The kernel's result. -/
def outK (v : Fin 50000) (k : Fin 128) : EReal :=
  h1K x W1 b1 gam bet sRow dTgt v k + dis dTgt v * aggK sRow dTgt (h1K x W1 b1 gam bet sRow dTgt) W2 v k + b2 k

/-! ## The reference's arrangement -/

/-- The weight of an edge. -/
def ew (e : Fin 850000) : EReal := dis dTgt (sRow e) * dis dTgt (dRow e)

/-- The projected rows, each times its edge's weight, summed over the incoming edges. -/
def aggR (h : Fin 50000 → Fin 128 → EReal) (W : Fin 128 → Fin 128 → EReal) (v : Fin 50000) (k : Fin 128) : EReal :=
  ∑ e ∈ seg dTgt v, (∑ j, h (sRow e) j * W j k) * ew sRow dRow dTgt e

def hR (v : Fin 50000) (k : Fin 128) : EReal := aggR sRow dRow dTgt x W1 v k + b1 k

def muR (k : Fin 128) : EReal := Ideal.div (∑ v, hR x W1 b1 sRow dRow dTgt v k) cN

def varR (k : Fin 128) : EReal :=
  Ideal.div (∑ v, (hR x W1 b1 sRow dRow dTgt v k - muR x W1 b1 sRow dRow dTgt k)
    * (hR x W1 b1 sRow dRow dTgt v k - muR x W1 b1 sRow dRow dTgt k)) cN

def h1R : Fin 50000 → Fin 128 → EReal :=
  bn gam bet (hR x W1 b1 sRow dRow dTgt) (muR x W1 b1 sRow dRow dTgt) (varR x W1 b1 sRow dRow dTgt)

/-- The reference's result. -/
def outR (v : Fin 50000) (k : Fin 128) : EReal :=
  h1R x W1 b1 gam bet sRow dRow dTgt v k + (aggR sRow dRow dTgt (h1R x W1 b1 gam bet sRow dRow dTgt) W2 v k + b2 k)

end

end Cert.Gcn

end
-- ==== Proof.Stretch0.lean ====
/-
  The first stretch of host operations of the idealized kernel: the edge lists with the self-loops appended, the
  degree count, the normalisation weights as a column, and the bias / scale rows as [1,128] arrays.
-/
import proofs.«139979_j60576218742837_2_alg».proof.Proof.Gen.KernelIdeal.Frame
import proofs.«139979_j60576218742837_2_alg».proof.Proof.LibSegmentSum
import proofs.«139979_j60576218742837_2_alg».proof.Proof.LibKeepdimsLayout
import proofs.«139979_j60576218742837_2_alg».proof.Proof.Edges
import proofs.«139979_j60576218742837_2_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo Idealize.ShloMosaic.ValueIdx

/-! ## The edge lists and the index columns, as functions of the edge array -/

/-- The source words: row 0 of the edge array, then the self-loops `0, 1, …, 49999`. -/
def srcW (ei : IVec S2x800000 32) : IVec S850000 32 :=
  concatenate S850000 0 [⟨S800000, shapeCast S800000 (extractStridedSlice S1x800000 ![0, 0] ei slices_S2x800000_S1x800000_0_0) shapeCasts_S1x800000_S800000⟩,
    ⟨S50000, iotaInDim S50000 32 0⟩] concatenates_S800000_S50000_S850000_d0

/-- The destination words: row 1 of the edge array, then the self-loops. -/
def dstW (ei : IVec S2x800000 32) : IVec S850000 32 :=
  concatenate S850000 0 [⟨S800000, shapeCast S800000 (extractStridedSlice S1x800000 ![1, 0] ei slices_S2x800000_S1x800000_1_0) shapeCasts_S1x800000_S800000⟩,
    ⟨S50000, iotaInDim S50000 32 0⟩] concatenates_S800000_S50000_S850000_d0

/-- The raw destination words as a column: what every scatter is indexed by. -/
def dstCol (ei : IVec S2x800000 32) : IVec S850000x1 32 :=
  broadcastInDim S850000x1 ![0] bcast_S850000_S850000x1_0 (dstW ei)

/-- A word column with the negative words wrapped by the table's height: what a gather is indexed by. -/
def wrapCol (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- The degree count's weights, then their inverse square roots. -/
def disV (ei : IVec S2x800000 32) : FVec Ideal S50000 .f32 :=
  Host.rsqrt (Host.scatterAdd scatter_S50000_S850000x1_S850000_n_0_0_1
    (broadcastInDim S50000 ![] bcast_S_S50000 (constant S_ .f32 0x00000000#32)) (dstCol ei)
    (broadcastInDim S850000 ![] bcast_S_S850000 (constant S_ .f32 0x3F800000#32)))

/-- The weights as a column. -/
def disCol (ei : IVec S2x800000 32) : FVec Ideal S50000x1 .f32 :=
  shapeCast S50000x1 (disV ei) shapeCasts_S50000_S50000x1

/-! ## What the first stretch leaves -/

variable (W : Valuation τ sig (Elt Ideal))

theorem v12_eq : (StableHlo.after (hostOps0 (F := Ideal)) W (Proc.devRef .tc main_v12) : S50000x1.Idx → EReal)
    = disCol (W (Proc.devRef .tc main_arg1)) := by
  after_results; rfl

theorem v3_eq : (StableHlo.after (hostOps0 (F := Ideal)) W (Proc.devRef .tc main_v3) : IVec S850000 32)
    = srcW (W (Proc.devRef .tc main_arg1)) := by
  after_results; rfl

theorem v6_eq : (StableHlo.after (hostOps0 (F := Ideal)) W (Proc.devRef .tc main_v6) : IVec S850000 32)
    = dstW (W (Proc.devRef .tc main_arg1)) := by
  after_results; rfl

theorem v13_eq : (StableHlo.after (hostOps0 (F := Ideal)) W (Proc.devRef .tc main_v13) : S1x128.Idx → EReal)
    = shapeCast S1x128 (W (Proc.devRef .tc main_arg3) : S128.Idx → EReal) shapeCasts_S128_S1x128 := by
  after_results; rfl

theorem v14_eq : (StableHlo.after (hostOps0 (F := Ideal)) W (Proc.devRef .tc main_v14) : S1x128.Idx → EReal)
    = shapeCast S1x128 (W (Proc.devRef .tc main_arg5) : S128.Idx → EReal) shapeCasts_S128_S1x128 := by
  after_results; rfl

theorem v15_eq : (StableHlo.after (hostOps0 (F := Ideal)) W (Proc.devRef .tc main_v15) : S1x128.Idx → EReal)
    = shapeCast S1x128 (W (Proc.devRef .tc main_arg6) : S128.Idx → EReal) shapeCasts_S128_S1x128 := by
  after_results; rfl

theorem v16_eq : (StableHlo.after (hostOps0 (F := Ideal)) W (Proc.devRef .tc main_v16) : S1x128.Idx → EReal)
    = shapeCast S1x128 (W (Proc.devRef .tc main_arg7) : S128.Idx → EReal) shapeCasts_S128_S1x128 := by
  after_results; rfl

/-! ## The host's pointwise and accumulating operations, read at Ideal -/

theorem hostRsqrt_apply {s : Shape} (x : FVec Ideal s .f32) (i : s.Idx) : Host.rsqrt x i = Ideal.rsqrt (x i) := rfl

theorem hostScatterAdd_eq {s si su : Shape} (d : ScatterDims s si su) {w : Nat} (x : FVec Ideal s .f32) (idx : IVec si w)
    (u : FVec Ideal su .f32) : Host.scatterAdd d x idx u = Ideal.hostScatterAdd d x idx u := rfl

theorem bcast_scalar_apply {t : Shape} (h : (⟨0, ![]⟩ : Shape).BroadcastsInDim t (![] : Fin 0 → Fin t.rank)) (b : BitVec 32) (j : t.Idx) :
    broadcastInDim t ![] h (constant (F := Ideal) ⟨0, ![]⟩ .f32 b) j = Ideal.ofBits .f32 b := rfl

/-! ## The weight column read at a node -/

/-- The weight column at node `v` is the specification's weight of `v`, the scatter's targets read off the raw
    destination column. -/
theorem disCol_apply (ei : IVec S2x800000 32) (v : Fin 50000) :
    disCol ei (ix2 v (0 : Fin 1)) = Cert.Gcn.dis (Cert.Gcn.tgtOf (dstCol ei)) v := by
  unfold disCol
  rw [Cert.LayoutKeepdims.shapeCast_a_a1_apply]
  unfold disV
  rw [hostRsqrt_apply, hostScatterAdd_eq, Cert.SegmentSum.hostScatterAdd_table_apply (dstCol ei) _ rfl rfl rfl rfl]
  unfold Cert.Gcn.dis Cert.Gcn.deg Cert.Gcn.seg Cert.Gcn.tgtOf Cert.Gcn.cOne
  refine congrArg Ideal.rsqrt ?_
  rw [bcast_scalar_apply, Ideal.ofBits_zero_f32, zero_add]
  exact Finset.sum_congr rfl fun e _ => bcast_scalar_apply _ _ _

end Cert.KernelIdeal.Stretch

end
-- ==== Proof.Stretch1.lean ====
/-
  The later stretches of host operations of the idealized kernel: the rows gathered by the edges' sources and summed
  into the edges' destinations (after region 0, and again after region 2), and the batch mean and variance rows from
  the two column sums (after region 1).
-/
import proofs.«139979_j60576218742837_2_alg».proof.Proof.Stretch0

set_option maxRecDepth 16384

noncomputable section

open scoped BigOperators

namespace Cert.KernelIdeal.Stretch

open Cert.KernelIdeal Cert.KernelIdeal.Gen Idealize.ShloMosaic Idealize.ShloMosaic.TcCoe Idealize.SL.Sem
open Idealize.ShloMosaic.StableHlo Idealize.ShloMosaic.ValueIdx

/-- The rows of a table gathered by the wrapped source words and summed into the raw destination words. -/
def segSum (tbl : FVec Ideal S50000x128 .f32) (sw dw : IVec S850000 32) : FVec Ideal S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dw)
    (Host.gather gather_S50000x128_S850000x1_S850000x128_1_0_n_n_0_1_1128 tbl (wrapCol sw))

/-- Entry `(v, k)` of the segment sum: the sum over the edges into `v` of the table's row picked by the edge's
    source, at column `k`. -/
theorem segSum_apply (tbl : FVec Ideal S50000x128 .f32) (sw dw : IVec S850000 32) (v : Fin 50000) (k : Fin 128) :
    segSum tbl sw dw (ix2 v k)
      = ∑ e ∈ Cert.Gcn.seg (Cert.Gcn.tgtOf (broadcastInDim S850000x1 ![0] bcast_S850000_S850000x1_0 dw)) v,
          tbl (ix2 (Cert.Gcn.rowOf (wrapCol sw) e) k) := by
  unfold segSum
  rw [hostScatterAdd_eq, Cert.SegmentSum.hostScatterAdd_rows_apply _ k _ rfl rfl rfl rfl, bcast_scalar_apply,
    Ideal.ofBits_zero_f32, zero_add]
  unfold Cert.Gcn.seg Cert.Gcn.tgtOf
  refine Finset.sum_congr rfl fun e _ => ?_
  exact Cert.SegmentSum.gather_rows_apply (by decide) _ rfl rfl rfl rfl rfl rfl rfl tbl (wrapCol sw) e k

variable (W : Valuation τ sig (Elt Ideal))

theorem v27_eq : (StableHlo.after (hostOps1 (F := Ideal)) W (Proc.devRef .tc main_v27) : S50000x128.Idx → EReal)
    = segSum (W (Proc.devRef .tc main_v17)) (W (Proc.devRef .tc main_v3)) (W (Proc.devRef .tc main_v6)) := by
  after_results; rfl

theorem v45_eq : (StableHlo.after (hostOps3 (F := Ideal)) W (Proc.devRef .tc main_v45) : S50000x128.Idx → EReal)
    = segSum (W (Proc.devRef .tc main_v35_1)) (W (Proc.devRef .tc main_v3)) (W (Proc.devRef .tc main_v6)) := by
  after_results; rfl

/-! ## The batch statistics rows -/

theorem hostDivf_apply {s : Shape} (a b : FVec Ideal s .f32) (i : s.Idx) : Host.divf a b i = Ideal.div (a i) (b i) := rfl

/-- The mean row: the column sums over the node count. -/
def meanRow (s : FVec Ideal S1x128 .f32) : FVec Ideal S1x128 .f32 :=
  Host.divf s (broadcastInDim S1x128 ![] bcast_S_S1x128 (constant S_ .f32 0x47435000#32))

/-- The variance row: the mean of the squares minus the square of the mean. -/
def varRow (s ss : FVec Ideal S1x128 .f32) : FVec Ideal S1x128 .f32 :=
  subf (Host.divf ss (broadcastInDim S1x128 ![] bcast_S_S1x128 (constant S_ .f32 0x47435000#32))) (mulf (meanRow s) (meanRow s))

theorem v30_eq : (StableHlo.after (hostOps2 (F := Ideal)) W (Proc.devRef .tc main_v30) : S1x128.Idx → EReal)
    = meanRow (W (Proc.devRef .tc main_v28_0)) := by
  after_results; rfl

theorem v34_eq : (StableHlo.after (hostOps2 (F := Ideal)) W (Proc.devRef .tc main_v34) : S1x128.Idx → EReal)
    = varRow (W (Proc.devRef .tc main_v28_0)) (W (Proc.devRef .tc main_v28_1)) := by
  after_results; rfl

theorem meanRow_apply (s : FVec Ideal S1x128 .f32) (i : S1x128.Idx) : meanRow s i = Ideal.div (s i) Cert.Gcn.cN := by
  unfold meanRow; rw [hostDivf_apply, bcast_scalar_apply]; rfl

theorem varRow_apply (s ss : FVec Ideal S1x128 .f32) (i : S1x128.Idx) :
    varRow s ss i = Ideal.div (ss i) Cert.Gcn.cN - Ideal.div (s i) Cert.Gcn.cN * Ideal.div (s i) Cert.Gcn.cN := by
  unfold varRow; rw [subf_apply, mulf_apply, meanRow_apply, hostDivf_apply, bcast_scalar_apply]; rfl

end Cert.KernelIdeal.Stretch

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotInnerHost.lean ====
/-
  The host's matrix product along the last axis of the first operand and the first axis of the second, read at an entry,
  and the six facts about a record of dimension numbers that both readings (the matrix unit's and the host's) ask for,
  bundled so that a caller proves them once per record.

  For a [M, K] matrix against a [K, N] matrix both products have at (p, f) the entry Σ_k x[p, k] · W[k, f] over the
  extended reals: the host's product carries no accumulator, the matrix unit's starts from the zero splat.
-/
import Idealize.ShloMosaic.PureOps.Ideal.Laws
import Idealize.ShloMosaic.Lib.ValueIdx
import proofs.«139979_j60576218742837_2_alg».proof.Proof.LibDotInner

noncomputable section

open scoped BigOperators

namespace Idealize.ShloMosaic.DotInner

open Idealize.ShloMosaic Idealize.ShloMosaic.ValueIdx

variable {M N K : ℕ} {φ₁ φ₂ : FTy}

/-- What a plain row-by-column product's dimension numbers say: one contracted axis of extent K; the left operand's
    coordinates are (result row, contraction index), the right operand's (contraction index, result column). -/
structure Plain (D : DotDims ⟨2, ![M, K]⟩ ⟨2, ![K, N]⟩ ⟨2, ![M, N]⟩) : Prop where
  rank : D.contr.rank = 1
  size : D.contr.size ⟨0, by omega⟩ = K
  l0 : ∀ j q, (D.lhsIdx j q 0).val = (j 0).val
  l1 : ∀ j q, (D.lhsIdx j q 1).val = (q ⟨0, by omega⟩).val
  r0 : ∀ j q, (D.rhsIdx j q 0).val = (q ⟨0, by omega⟩).val
  r1 : ∀ j q, (D.rhsIdx j q 1).val = (j 1).val

/-- The matrix unit from the zero splat, entry (p, f): Σ_k lhs[p, k] · rhs[k, f]. -/
theorem Plain.matmul_zero {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) :=
  matmul_zero_apply D h.rank h.size h.l0 h.l1 h.r0 h.r1 prec lhs rhs p f

/-- The host's product, entry (p, f): the same sum, with no accumulator. -/
theorem Plain.dotGeneral {D : DotDims ⟨2, ![M, K]⟩ ⟨2, ![K, N]⟩ ⟨2, ![M, N]⟩} (h : Plain D)
    (prec : Option ContractPrecision) (lhs : FVec Ideal ⟨2, ![M, K]⟩ φ₁) (rhs : FVec Ideal ⟨2, ![K, N]⟩ φ₂) (p : Fin M) (f : Fin N) :
    Host.dotGeneral (F := Ideal) D prec lhs rhs (ix2 p f) = ∑ k : Fin K, lhs (ix2 p k) * rhs (ix2 k f) := by
  show FloatOps.dotGeneral D prec .single lhs rhs (ix2 p f) = _
  rw [Ideal.dotGeneral_apply, ← Equiv.sum_comp (contrEquiv1 D K h.rank h.size).symm]
  refine Finset.sum_congr rfl fun k _ => ?_
  obtain ⟨el, er⟩ := operand_idx D h.rank h.size h.l0 h.l1 h.r0 h.r1 p f k
  rw [el, er]

/-- The six facts of a record D whose lists say rows-by-columns (left operand of shape sl contracted on its axis 1, right
    operand of shape sr on its axis 0, no batch axes): the contraction's rank and extent compute; the contracted
    coordinates are the library's single-axis lemmas; the kept coordinates are read off the index maps' own case split,
    whose two membership tests are decided on the record's lists. -/
macro "plain_record " D:term ", " sl:term ", " sr:term : term => `(
  { rank := rfl
    size := rfl
    l0 := fun j q => by
      unfold DotDims.lhsIdx
      rw [dif_neg (show ¬(0 : Fin ($sl).rank) ∈ ($D).lhsBatch by decide),
        dif_pos (show (0 : Fin ($sl).rank) ∈ ($D).lhsNonContracting by decide)]
      rfl
    l1 := fun j q => DotDims.lhsIdx_val_of_single $D rfl j q
    r0 := fun j q => DotDims.rhsIdx_val_of_single $D rfl j q
    r1 := fun j q => by
      unfold DotDims.rhsIdx
      rw [dif_neg (show ¬(1 : Fin ($sr).rank) ∈ ($D).rhsBatch by decide),
        dif_pos (show (1 : Fin ($sr).rank) ∈ ($D).rhsNonContracting by decide)]
      rfl })

end Idealize.ShloMosaic.DotInner

end
-- ==== Proof.Region0.lean ====
/-
  The first region multiplies each block of 5000 rows of x by the weight matrix on the matrix unit and scales row v of
  the product by the row's weight: its output array holds, at row v and column k,  (Σ_j x v j · W j k) · weight v.
  Narrowing the operands to bfloat16 is the identity over the extended reals. The body's arithmetic is read at an index
  of a block, each block of the output is identified with the rows 5000 t … 5000 t + 4999 of one whole-array function,
  and the ten blocks cover the array.
-/
import proofs.«139979_j60576218742837_2_alg».proof.Proof.Gen.KernelIdeal.Frame
import proofs.«139979_j60576218742837_2_alg».proof.Proof.LibKeepdimsLayout
import proofs.«139979_j60576218742837_2_alg».proof.Proof.LibDotInnerHost
import Idealize.ShloMosaic.Lib.Pipeline.Value
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.SL.Sem
open Idealize.ShloMosaic.Pipeline (Dat)
open Idealize.ShloMosaic.ValueIdx Idealize.ShloMosaic.DotInner

namespace Cert.KernelIdeal.RegionValue

open Cert.KernelIdeal Cert.KernelIdeal.Gen Cert.LayoutKeepdims

variable (V : (c : Dev nD) → (b : Ref sig .tc) → Buf (Elt Ideal) ((c : Thread nD τ).loc b))

/-- The two zero offsets of a whole-block access, as the constant function. -/
theorem zero_offsets0 : (![0, 0] : Fin 2 → Nat) = fun _ => 0 := funext fun a => by fin_cases a <;> rfl

/-- The matrix unit's dimension numbers say rows by columns. -/
theorem plain_dot : Plain dot_S5000x128_S128x128_S5000x128_1_0_0_1_n_n :=
  plain_record dot_S5000x128_S128x128_S5000x128_1_0_0_1_n_n, S5000x128, S128x128

/-- The body's arithmetic at row p and column q of a block: the row of x against the column of W, times the row's weight. -/
theorem scaled_payload_apply (x0 : Vec Ideal S5000x128 .f32) (x1 : Vec Ideal S128x128 .f32) (x2 : Vec Ideal S5000x1 .f32)
    (p : Fin 5000) (q : Fin 128) :
    k0_pay1 x0 x1 x2 (ix2 p q) = (∑ j : Fin 128, x0 (ix2 p j) * x1 (ix2 j q)) * x2 (ix2 p (0 : Fin 1)) := by
  unfold k0_pay1
  simp only [shapeCast_self]
  rw [mulf_apply, broadcastTo_a1_ab_apply]
  refine congrArg (· * x2 (ix2 p (0 : Fin 1))) ?_
  exact plain_dot.matmul_zero none (truncf .bf16 x0 bitsLt_bf16_f32) (truncf .bf16 x1 bitsLt_bf16_f32) p q

/-- The whole-array function the first region leaves in its output: at row v and column k, the row of x against the
    column of W, times the row's weight. -/
def scaledProduct (X : S50000x128.Idx → EReal) (W : S128x128.Idx → EReal) (w : S50000x1.Idx → EReal) : S50000x128.Idx → EReal :=
  fun i => (∑ j : Fin 128, X (ix2 (n0 := 50000) (i 0) j) * W (ix2 j (n1 := 128) (i 1))) * w (ix2 (n0 := 50000) (i 0) (0 : Fin 1))

theorem scaledProduct_apply (X : S50000x128.Idx → EReal) (W : S128x128.Idx → EReal) (w : S50000x1.Idx → EReal)
    (v : Fin 50000) (k : Fin 128) :
    scaledProduct X W w (ix2 v k) = (∑ j : Fin 128, X (ix2 v j) * W (ix2 j k)) * w (ix2 v (0 : Fin 1)) := rfl

/-- The index maps over the grid: every row-blocked window is at block (t, 0) at point t, the weight matrix at block (0, 0). -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed0_eq (c : Dev nD) (t : Fin cfg0.N) :
    (dat0 V c).flushed 3 t = ((cfg0.win 3).blk t).view.read (Elt Ideal)
      (scaledProduct (V c main_arg0) (V c main_arg2) (V c main_v12)) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S5000x1) zero_offsets0,
    View.ld_unit_zero (S := S128x128) zero_offsets0]
  obtain ⟨e00, e01, e10, e11, e20, e21, e30, e31⟩ := index_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = scaledProduct (V c main_arg0) (V c main_arg2) (V c main_v12) (((cfg0.win 3).blk t).view.emb (ix2 p q))
  refine (scaled_payload_apply (iblk0 V c 0 t) (iblk0 V c 1 t) (iblk0 V c 2 t) p q).trans ?_
  have h0 : ∀ j : Fin 128, iblk0 V c 0 t (ix2 p j)
      = V c main_arg0 (ix2 (n0 := 50000) ((((cfg0.win 3).blk t).view.emb (ix2 p q)) 0) j) := by
    intro j
    show V c main_arg0 (((cfg0.win 0).blk t).view.emb (ix2 p j)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * j.val = j.val; omega
  have h1 : ∀ j : Fin 128, iblk0 V c 1 t (ix2 j q)
      = V c main_arg2 (ix2 j (n1 := 128) ((((cfg0.win 3).blk t).view.emb (ix2 p q)) 1)) := by
    intro j
    show V c main_arg2 (((cfg0.win 1).blk t).view.emb (ix2 j q)) = _
    refine congrArg (V c main_arg2) (funext fun a => Fin.ext ?_)
    match a with
    | ⟨0, _⟩ => show win0_1.index t (0 : Fin 2) * 128 + 1 * j.val = j.val; omega
    | ⟨1, _⟩ => show win0_1.index t (1 : Fin 2) * 128 + 1 * q.val = win0_3.index t (1 : Fin 2) * 128 + 1 * q.val; omega
  have h2 : iblk0 V c 2 t (ix2 p (0 : Fin 1))
      = V c main_v12 (ix2 (n0 := 50000) ((((cfg0.win 3).blk t).view.emb (ix2 p q)) 0) (0 : Fin 1)) := by
    show V c main_v12 (((cfg0.win 2).blk t).view.emb (ix2 p (0 : Fin 1))) = _
    refine congrArg (V c main_v12) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2, Finset.sum_congr rfl fun j _ => by rw [h0 j, h1 j]]
  rfl

/-- An index of the output array is in point t's block iff each coordinate is in the block's range on its axis. -/
theorem mem_block0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v17).slice (win0_3.rect t)).set ↔ _
  rw [View.set_slice_whole, Rect.mem_set_unit]
  exact Iff.rfl

/-- Row r of the output array lies in the block of point r / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by omega⟩
  obtain ⟨-, -, -, -, -, -, e30, e31⟩ := index_facts0 t
  have ht : t.val = (i 0).val / 5000 := rfl
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the first region is the whole-array function of the arrays the region finds. -/
theorem region0_array (c : Dev nD) :
    (dat0 V c).arrAt 3 cfg0.N = scaledProduct (V c main_arg0) (V c main_arg2) (V c main_v12) :=
  (dat0 V c).arrAt_eq_of_cover 3 (scaledProduct (V c main_arg0) (V c main_arg2) (V c main_v12))
    (fun t _ => flushed0_eq V c t) cover0

/-- The output array of the first region at row v and column k, with the arrays the region finds named. -/
theorem region0_value (c : Dev nD) (X : S50000x128.Idx → EReal) (W : S128x128.Idx → EReal) (w : S50000x1.Idx → EReal)
    (hX : V c main_arg0 = X) (hW : V c main_arg2 = W) (hw : V c main_v12 = w) (v : Fin 50000) (k : Fin 128) :
    (dat0 V c).arrAt 3 cfg0.N (ix2 v k) = (∑ j : Fin 128, X (ix2 v j) * W (ix2 j k)) * w (ix2 v (0 : Fin 1)) := by
  rw [region0_array, hX, hW, hw]
  rfl

end Cert.KernelIdeal.RegionValue

end
-- ==== Proof.Region1a.lean ====
/-
  The batch-statistics region, point by point: what one grid point leaves in the two accumulator rows.

  The region walks the 50000 rows of the aggregated features in ten blocks of 5000. At every point it forms, from the
  block of rows, the block of the weight column and the bias row, the block of weighted rows plus bias, and adds the
  column sums of that block (and of its entrywise square) into two rows of 128 accumulators. At the first point the
  accumulators are zeroed first; at every later point they hold what the point before left. This file reads the
  stores each of the two control cases performs back as the payload terms of the body: the first point leaves the
  payload at the zero row, a later point the payload at the running contents.
-/
import proofs.«139979_j60576218742837_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.RegionValue.Region1

open Cert.KernelIdeal Cert.KernelIdeal.Gen

variable {F : FTy → Type} [FloatOps F]

/-- The zero offsets of a two-axis rectangle, as a constant function. -/
theorem zeroOffsets2 : (![0, 0] : Fin 2 → Nat) = fun _ => 0 := funext fun a => by fin_cases a <;> rfl

/-- A LATER POINT, the sums: over running contents `xo3` the point leaves the sum payload of its blocks at `xo3` —
    its one store covers the row, and its loads read the whole buffers. -/
theorem stats_later_sum (c : Dev nD) (i : grid1.Coords) (a1 : Memref sig .tc .vmem S5000x128 .f32) (h1 : a1.IsWhole)
    (a2 : Memref sig .tc .vmem S1x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (x2 : Vec F S5000x1 .f32)
    (xo3 xo4 : Vec F S1x128 .f32) :
    out1_B_3 c i a1 h1 a2 h2 a3 h3 a4 h4 a5 h5 hc x0 x1 x2 xo3 xo4 = k1_pay4 x2 x0 x1 xo3 := by
  unfold out1_B_3
  rw [View.read_writes_eq_canon _ _ _ (cover1_B_3 c i a1 h1 a2 h2 a3 h3 a4 h4 a5 h5 hc x0 x1 x2 xo3 xo4)]
  unfold kernelRun1_B
  dsimp only
  rw [View.canon_unit_zero (S := S1x128) zeroOffsets2]
  simp only [View.readAt_eq_ld, h1.read_unread, h2.read_unread, h3.read_unread, h4.read_unread,
    View.ld_unit_zero (S := S1x128) zeroOffsets2, View.ld_unit_zero (S := S5000x128) zeroOffsets2,
    View.ld_unit_zero (S := S5000x1) zeroOffsets2]

/-- A LATER POINT, the sums of squares: over running contents `xo4` the point leaves the square payload at `xo4`. -/
theorem stats_later_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S5000x128 .f32) (x1 : Vec F S1x128 .f32) (x2 : Vec F S5000x1 .f32)
    (xo3 xo4 : Vec F S1x128 .f32) :
    out1_B_4 c i a1 h1 a2 h2 a3 h3 a4 h4 a5 h5 hc x0 x1 x2 xo3 xo4 = k1_pay5 x2 x0 x1 xo4 := by
  unfold out1_B_4
  rw [View.read_writes_eq_canon _ _ _ (cover1_B_4 c i a1 h1 a2 h2 a3 h3 a4 h4 a5 h5 hc x0 x1 x2 xo3 xo4)]
  unfold kernelRun1_B
  dsimp only
  rw [View.canon_unit_zero (S := S1x128) zeroOffsets2]
  simp only [View.readAt_eq_ld, h1.read_unread, h2.read_unread, h3.read_unread, h5.read_unread,
    View.ld_unit_zero (S := S1x128) zeroOffsets2, View.ld_unit_zero (S := S5000x128) zeroOffsets2,
    View.ld_unit_zero (S := S5000x1) zeroOffsets2]

/-- THE FIRST POINT, the sums: the row is zeroed, read back, and the point leaves the sum payload at the zero row. -/
theorem stats_first_sum (c : Dev nD) (i : grid1.Coords) (a1 : Memref sig .tc .vmem S5000x128 .f32) (h1 : a1.IsWhole)
    (a2 : Memref sig .tc .vmem S1x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) (x2 : Vec F S5000x1 .f32) :
    out1_A_3 c i a1 h1 a2 h2 a3 h3 a4 h4 a5 h5 hc x0 x1 x2 = k1_pay4 x2 x0 x1 k1_pay1 := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1x128) zeroOffsets2, View.readCov_unit_zero (S := S1x128) _ zeroOffsets2]
  simp only [View.readAt_eq_ld, h1.read_unread, h2.read_unread, h3.read_unread,
    View.ld_unit_zero (S := S1x128) zeroOffsets2, View.ld_unit_zero (S := S5000x128) zeroOffsets2,
    View.ld_unit_zero (S := S5000x1) zeroOffsets2]

/-- THE FIRST POINT, the sums of squares: the square payload at the zero row. -/
theorem stats_first_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S5000x1 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S5000x128 .f32) (x1 : Vec F S1x128 .f32) (x2 : Vec F S5000x1 .f32) :
    out1_A_4 c i a1 h1 a2 h2 a3 h3 a4 h4 a5 h5 hc x0 x1 x2 = k1_pay5 x2 x0 x1 k1_pay2 := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1x128) zeroOffsets2, View.readCov_unit_zero (S := S1x128) _ zeroOffsets2]
  simp only [View.readAt_eq_ld, h1.read_unread, h2.read_unread, h3.read_unread,
    View.ld_unit_zero (S := S1x128) zeroOffsets2, View.ld_unit_zero (S := S5000x128) zeroOffsets2,
    View.ld_unit_zero (S := S5000x1) zeroOffsets2]

end Cert.KernelIdeal.RegionValue.Region1

end
-- ==== Proof.LibColSum.lean ====
/-
  A sum down the columns of a matrix, read at a column.

  Summing a [a, b] matrix over its FIRST axis gives a vector of length b whose entry j is Σ_k x[k, j]. Over the
  extended reals this holds of the vector unit's add-reduction whatever order it sums in: addition of extended
  reals is commutative and associative, so the reduction is the finite sum over the dropped axis's coordinates,
  and the source index lying over column j with row k put back is (k, j).
-/
import Idealize.ShloMosaic.PureOps.Ideal.Laws
import Idealize.ShloMosaic.Lib.ValueIdx

noncomputable section

open scoped BigOperators

namespace Idealize.ShloMosaic.ColSum

open Idealize.ShloMosaic Idealize.ShloMosaic.ValueIdx

variable {a b : ℕ}

/-- The source index over column `j` with row `k` inserted on the dropped axis is `(k, j)`. -/
theorem lift_col (h : (⟨2, ![a, b]⟩ : Shape).Reduces [0] ⟨1, ![b]⟩) (j : Fin b) (k : Fin a) :
    h.lift (ix1 j) k = ix2 k j :=
  funext fun c => Fin.ext (by match c with | ⟨0, _⟩ => rfl | ⟨1, _⟩ => rfl)

/-- THE COLUMN SUM: an f32 add-reduction of a [a, b] matrix over its rows, from the zero word, has at column `j`
    the entry Σ_k x[k, j]. The accumulator's side condition is taken as the equation between the two zero words
    that a printed reduction carries. -/
theorem colSum_apply (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) := by
  refine (Ideal.multiReduction_add_single src 0x00000000#32 h hφ hacc (ix1 j)).trans ?_
  exact Finset.sum_congr rfl fun k _ => congrArg src (lift_col h j k)

end Idealize.ShloMosaic.ColSum

end
-- ==== Proof.Region1b.lean ====
/-
  The arithmetic of one grid point of the batch-statistics region, read entry by entry over the extended reals.

  From a block of 5000 aggregated rows, the block's 5000 weights (a column) and the bias row, the body forms the block
  of rows  weight · row + bias.  Its first result adds to an accumulator row the column sums of that block, its second
  adds to another accumulator row the column sums of the block's entrywise squares. Reading each at an entry: a cast to
  the same shape does nothing, the column of weights is re-read along each row and the bias row down each column, a
  vector of column sums laid out as a one-row matrix keeps its entries, and a sum down the columns from the zero word
  is the finite sum over the rows.
-/
import proofs.«139979_j60576218742837_2_alg».proof.Proof.Gen.KernelIdeal.Skeleton
import proofs.«139979_j60576218742837_2_alg».proof.Proof.LibColSum
import proofs.«139979_j60576218742837_2_alg».proof.Proof.LibKeepdimsLayout
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx

namespace Cert.KernelIdeal.RegionValue.Region1

open Cert.KernelIdeal Cert.KernelIdeal.Gen

/-- THE WEIGHTED ROW PLUS BIAS at row `r` of the block and feature `k`: the row's weight times the row's entry,
    plus the bias of the feature. -/
theorem weightedRow_apply (wc : Vec Ideal S5000x1 .f32) (rows : Vec Ideal S5000x128 .f32) (b : Vec Ideal S1x128 .f32)
    (r : Fin 5000) (k : Fin 128) :
    k1_pay3 wc rows b (ix2 r k) = wc (ix2 r 0) * rows (ix2 r k) + b (ix2 0 k) := by
  unfold k1_pay3
  show broadcastTo S5000x128 (shapeCast S5000x1 wc shapeCasts_S5000x1_S5000x1) broadcasts_S5000x1_S5000x128 (ix2 r k)
        * shapeCast S5000x128 rows shapeCasts_S5000x128_S5000x128 (ix2 r k)
      + broadcastTo S5000x128 (shapeCast S1x128 b shapeCasts_S1x128_S1x128) broadcasts_S1x128_S5000x128 (ix2 r k) = _
  rw [shapeCast_self, shapeCast_self, shapeCast_self]
  refine congrArg₂ (· + ·) (congrArg₂ (· * ·) ?_ rfl) ?_
  · exact Cert.LayoutKeepdims.broadcastTo_a1_ab_apply wc broadcasts_S5000x1_S5000x128 r k
  · exact broadcastTo_1b_ab_apply b broadcasts_S1x128_S5000x128 r k

/-- A vector of 128 column sums laid out as a one-row matrix keeps its entries. -/
theorem rowOfVector_apply (x : Vec Ideal S128 .f32) (k : Fin 128) :
    shapeCast S1x128 x shapeCasts_S128_S1x128 (ix2 (0 : Fin 1) k) = x (ix1 k) :=
  shapeCast_a_1a_apply x shapeCasts_S128_S1x128 0 k

/-- THE SUMS' STEP at feature `k`: the accumulator's entry plus the column sum of the block of weighted rows. -/
theorem sumStep_apply (wc : Vec Ideal S5000x1 .f32) (rows : Vec Ideal S5000x128 .f32) (b : Vec Ideal S1x128 .f32)
    (acc : Vec Ideal S1x128 .f32) (k : Fin 128) :
    k1_pay4 wc rows b acc (ix2 (0 : Fin 1) k)
      = acc (ix2 0 k) + ∑ r : Fin 5000, (wc (ix2 r 0) * rows (ix2 r k) + b (ix2 0 k)) := by
  unfold k1_pay4
  show shapeCast S1x128 acc shapeCasts_S1x128_S1x128 (ix2 (0 : Fin 1) k)
      + shapeCast S1x128 (multiReduction .add [0] S128 (k1_pay3 wc rows b) 0x00000000#32 reduces_S5000x128_S128 (.inl rfl) rfl)
          shapeCasts_S128_S1x128 (ix2 (0 : Fin 1) k) = _
  rw [shapeCast_self]
  refine congrArg₂ (· + ·) rfl ?_
  refine (rowOfVector_apply _ k).trans ?_
  refine (ColSum.colSum_apply (a := 5000) (b := 128) (k1_pay3 wc rows b) reduces_S5000x128_S128 (.inl rfl) rfl k).trans ?_
  exact Finset.sum_congr rfl fun r _ => weightedRow_apply wc rows b r k

/-- THE SQUARES' STEP at feature `k`: the accumulator's entry plus the column sum of the squares of the block of
    weighted rows. -/
theorem sumsqStep_apply (wc : Vec Ideal S5000x1 .f32) (rows : Vec Ideal S5000x128 .f32) (b : Vec Ideal S1x128 .f32)
    (acc : Vec Ideal S1x128 .f32) (k : Fin 128) :
    k1_pay5 wc rows b acc (ix2 (0 : Fin 1) k)
      = acc (ix2 0 k) + ∑ r : Fin 5000, (wc (ix2 r 0) * rows (ix2 r k) + b (ix2 0 k)) * (wc (ix2 r 0) * rows (ix2 r k) + b (ix2 0 k)) := by
  unfold k1_pay5
  show shapeCast S1x128 acc shapeCasts_S1x128_S1x128 (ix2 (0 : Fin 1) k)
      + shapeCast S1x128 (multiReduction .add [0] S128 (mulf (k1_pay3 wc rows b) (k1_pay3 wc rows b)) 0x00000000#32 reduces_S5000x128_S128 (.inl rfl) rfl)
          shapeCasts_S128_S1x128 (ix2 (0 : Fin 1) k) = _
  rw [shapeCast_self]
  refine congrArg₂ (· + ·) rfl ?_
  refine (rowOfVector_apply _ k).trans ?_
  refine (ColSum.colSum_apply (a := 5000) (b := 128) (mulf (k1_pay3 wc rows b) (k1_pay3 wc rows b)) reduces_S5000x128_S128 (.inl rfl) rfl k).trans ?_
  refine Finset.sum_congr rfl fun r _ => ?_
  show k1_pay3 wc rows b (ix2 r k) * k1_pay3 wc rows b (ix2 r k) = _
  rw [weightedRow_apply]

/-- The zero row the first point stores reads, at every entry, the zero of the extended reals. -/
theorem zeroRow_apply (j : S1x128.Idx) : (k1_pay1 (F := Ideal)) j = 0 := by
  show Ideal.ofBits .f32 0x00000000#32 = 0
  exact Ideal.ofBits_zero_f32

theorem zeroRow'_apply (j : S1x128.Idx) : (k1_pay2 (F := Ideal)) j = 0 := by
  show Ideal.ofBits .f32 0x00000000#32 = 0
  exact Ideal.ofBits_zero_f32

end Cert.KernelIdeal.RegionValue.Region1

end
-- ==== Proof.LibTileSum.lean ====
import Mathlib.Algebra.BigOperators.Fin
import Mathlib.Algebra.BigOperators.Intervals

/-!
# A sum over a range cut into tiles, the last one ragged

In any commutative additive monoid — the extended reals among them, where nothing beyond commutativity and
associativity of `+` is available — a sum over `k < T · B` is the sum over the `T` tiles of the sums over the
`B` positions inside each tile, and a summand that vanishes from `n` on may be summed to any bound past `n`.
Together: a contraction of length `n` walked in `T` tiles of `B ≥ n / T`, the overhang contributing zeros, is the
contraction.
-/

namespace TileSum

open Finset

variable {M : Type*} [AddCommMonoid M]

/-- A sum over `k < T · B` is the sum over the tiles `t < T` of the sums over the positions `j < B` of tile `t`. -/
theorem sum_range_tiles (g : ℕ → M) (B : ℕ) : ∀ T : ℕ, ∑ k ∈ range (T * B), g k = ∑ t ∈ range T, ∑ j ∈ range B, g (t * B + j)
  | 0 => by simp
  | T + 1 => by
    rw [Nat.succ_mul, sum_range_add, sum_range_tiles g B T, sum_range_succ]

/-- A summand that is zero from `n` on sums, to any bound `N ≥ n`, to its sum below `n`. -/
theorem sum_range_zero_tail (g : ℕ → M) {n N : ℕ} (h : n ≤ N) (hz : ∀ k, n ≤ k → g k = 0) :
    ∑ k ∈ range N, g k = ∑ k ∈ range n, g k := by
  obtain ⟨r, rfl⟩ := Nat.exists_eq_add_of_le h
  rw [sum_range_add, sum_eq_zero (fun x _ => hz (n + x) (Nat.le_add_right n x)), add_zero]

/-- A contraction over `Fin n` is the sum over `T` tiles of `B` positions of its summand extended by zero past `n`. -/
theorem sum_fin_eq_tiles {n T B : ℕ} (h : n ≤ T * B) (f : Fin n → M) :
    ∑ k : Fin n, f k = ∑ t ∈ range T, ∑ j ∈ range B, (if hk : t * B + j < n then f ⟨t * B + j, hk⟩ else 0) := by
  rw [← sum_range_tiles (fun k => if hk : k < n then f ⟨k, hk⟩ else 0) B T,
    sum_range_zero_tail _ h (fun k hk => dif_neg (Nat.not_lt.mpr hk)), ← Fin.sum_univ_eq_sum_range (fun k => if hk : k < n then f ⟨k, hk⟩ else 0) n]
  exact Fintype.sum_congr _ _ fun k => by rw [dif_pos k.isLt]

end TileSum
-- ==== Proof.Region1.lean ====
/-
  The batch-statistics region as a whole: its two result rows are the column sums, over all 50000 rows, of the
  weighted rows plus bias and of their squares.

  The region walks the rows in ten blocks of 5000. Row `r` of block `t` is row `5000·t + r` of the whole arrays,
  the bias row is the same block at every point. After point `t` each accumulator row holds, at feature `k`, the sum
  over the first `t + 1` blocks of the blocks' column sums: zero plus the first block's at the first point, the
  previous contents plus the block's at every later one. Ten blocks of 5000 are all 50000 rows, so after the last
  point the accumulators hold the sums over all rows; their one block is the whole result array and is written back
  after the last point only.
-/
import proofs.«139979_j60576218742837_2_alg».proof.Proof.Region1a
import proofs.«139979_j60576218742837_2_alg».proof.Proof.Region1b
import proofs.«139979_j60576218742837_2_alg».proof.Proof.LibTileSum

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.RegionValue.Region1

open Cert.KernelIdeal Cert.KernelIdeal.Gen

variable (V : (c : Dev nD) → (b : Ref sig .tc) → Buf (Elt Ideal) ((c : Thread nD τ).loc b))

/-! ## The blocks the points read -/

/-- The block indices of the three input windows, decided over the grid: the rows and the weight column move with the
    point along the first axis, the bias row stays. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the block of aggregated rows at point `t` is row `5000·t + r` of the array. -/
theorem rowsBlock_apply (c : Dev nD) (agg : S50000x128.Idx → EReal) (ha : V c main_v27 = agg) (t : Fin cfg1.N)
    (r : Fin 5000) (k : Fin 128) (h : t.val * 5000 + r.val < 50000) :
    (iblk1 V c 0 t : S5000x128.Idx → EReal) (ix2 r k) = agg (ix2 ⟨t.val * 5000 + r.val, h⟩ k) := by
  subst ha
  obtain ⟨e0, e1, -, -, -, -⟩ := blockIndices t
  show V c main_v27 (((cfg1.win 0).blk t).view.emb (ix2 r k)) = V c main_v27 (ix2 ⟨t.val * 5000 + r.val, h⟩ k)
  refine congrArg _ (funext fun a => Fin.ext ?_)
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- Row `r` of the block of the weight column at point `t` is row `5000·t + r` of the column. -/
theorem weightBlock_apply (c : Dev nD) (wcol : S50000x1.Idx → EReal) (hw : V c main_v12 = wcol) (t : Fin cfg1.N)
    (r : Fin 5000) (h : t.val * 5000 + r.val < 50000) :
    (iblk1 V c 2 t : S5000x1.Idx → EReal) (ix2 r 0) = wcol (ix2 ⟨t.val * 5000 + r.val, h⟩ 0) := by
  subst hw
  obtain ⟨-, -, -, -, e0, e1⟩ := blockIndices t
  show V c main_v12 (((cfg1.win 2).blk t).view.emb (ix2 r 0)) = V c main_v12 (ix2 ⟨t.val * 5000 + r.val, h⟩ 0)
  refine congrArg _ (funext fun a => Fin.ext ?_)
  match a with
  | ⟨0, _⟩ => show win1_2.index t (0 : Fin 2) * 5000 + 1 * r.val = t.val * 5000 + r.val; rw [e0]; omega
  | ⟨1, _⟩ => show win1_2.index t (1 : Fin 2) * 1 + 1 * 0 = 0; rw [e1]

/-- The block of the bias row is the bias row, at every point. -/
theorem biasBlock_apply (c : Dev nD) (bias : S1x128.Idx → EReal) (hb : V c main_v13 = bias) (t : Fin cfg1.N) (k : Fin 128) :
    (iblk1 V c 1 t : S1x128.Idx → EReal) (ix2 0 k) = bias (ix2 0 k) := by
  subst hb
  obtain ⟨-, -, e0, e1, -, -⟩ := blockIndices t
  show V c main_v13 (((cfg1.win 1).blk t).view.emb (ix2 0 k)) = V c main_v13 (ix2 0 k)
  refine congrArg _ (funext fun a => Fin.ext ?_)
  match a with
  | ⟨0, _⟩ => show win1_1.index t (0 : Fin 2) * 1 + 1 * 0 = 0; rw [e0]
  | ⟨1, _⟩ => show win1_1.index t (1 : Fin 2) * 128 + 1 * k.val = k.val; rw [e1]; omega

/-! ## A sum over the rows, walked block by block -/

/-- A function of the row extended by zero past the last row. -/
def padded (f : Fin 50000 → EReal) (j : ℕ) : EReal := if h : j < 50000 then f ⟨j, h⟩ else 0

/-- The column sum over block `t`'s rows of a function of the whole arrays' rows, as the block's stretch of the
    zero-extended function. -/
theorem blockSum_eq (f : Fin 50000 → EReal) (g : Fin 5000 → EReal) (t : ℕ) (ht : t < 10)
    (hg : ∀ (r : Fin 5000) (h : t * 5000 + r.val < 50000), g r = f ⟨t * 5000 + r.val, h⟩) :
    ∑ r : Fin 5000, g r = ∑ j ∈ Finset.range 5000, padded f (t * 5000 + j) := by
  rw [← Fin.sum_univ_eq_sum_range (fun j => padded f (t * 5000 + j)) 5000]
  refine Fintype.sum_congr _ _ fun r => ?_
  have h : t * 5000 + r.val < 50000 := by have := r.isLt; omega
  unfold padded
  rw [dif_pos h]
  exact hg r h

/-- Ten blocks of 5000 rows are all the rows. -/
theorem allBlocks_eq (f : Fin 50000 → EReal) :
    ∑ s ∈ Finset.range 10, ∑ j ∈ Finset.range 5000, padded f (s * 5000 + j) = ∑ v : Fin 50000, f v :=
  (TileSum.sum_fin_eq_tiles (n := 50000) (T := 10) (B := 5000) (by norm_num) f).symm

/-- A quantity that starts at zero plus the first addend and gains one addend per point is the sum of the addends. -/
theorem running_eq (S : (n : ℕ) → n < cfg1.N → EReal) (M : ℕ → EReal)
    (h0 : ∀ hn : 0 < cfg1.N, S 0 hn = 0 + M 0)
    (hs : ∀ (n : ℕ) (hn : n + 1 < cfg1.N), S (n + 1) hn = S n (Nat.lt_of_succ_lt hn) + M (n + 1)) :
    ∀ (n : ℕ) (hn : n < cfg1.N), S n hn = ∑ s ∈ Finset.range (n + 1), M s
  | 0, hn => by rw [h0 hn, zero_add, Finset.sum_range_one]
  | n + 1, hn => by rw [hs n hn, running_eq S M h0 hs n (Nat.lt_of_succ_lt hn), Finset.sum_range_succ _ (n + 1)]

/-! ## What the accumulators hold after each point -/

section Points

variable (c : Dev nD) (wcol : S50000x1.Idx → EReal) (agg : S50000x128.Idx → EReal) (bias : S1x128.Idx → EReal)
  (hw : V c main_v12 = wcol) (ha : V c main_v27 = agg) (hb : V c main_v13 = bias) (k : Fin 128)

/-- The weighted row plus bias, of row `v` at feature `k`. -/
abbrev wrow (v : Fin 50000) : EReal := wcol (ix2 v 0) * agg (ix2 v k) + bias (ix2 0 k)

include hw ha hb

/-- Block `t`'s column sum of the weighted rows plus bias: the blocks the point reads are the whole arrays' rows
    `5000·t … 5000·t + 4999`. -/
theorem pointSum_eq (t : Fin cfg1.N) (x0 : Vec Ideal S5000x128 .f32) (x1 : Vec Ideal S1x128 .f32) (x2 : Vec Ideal S5000x1 .f32)
    (h0 : x0 = iblk1 V c 0 t) (h1 : x1 = iblk1 V c 1 t) (h2 : x2 = iblk1 V c 2 t) :
    ∑ r : Fin 5000, (x2 (ix2 r 0) * x0 (ix2 r k) + x1 (ix2 0 k))
      = ∑ j ∈ Finset.range 5000, padded (wrow wcol agg bias k) (t.val * 5000 + j) :=
  blockSum_eq _ _ t.val (lt_of_lt_of_eq t.isLt N_1) fun r h => by
    have e2 : x2 (ix2 r 0) = wcol (ix2 ⟨t.val * 5000 + r.val, h⟩ 0) := by rw [h2]; exact weightBlock_apply V c wcol hw t r h
    have e0 : x0 (ix2 r k) = agg (ix2 ⟨t.val * 5000 + r.val, h⟩ k) := by rw [h0]; exact rowsBlock_apply V c agg ha t r k h
    have e1 : x1 (ix2 0 k) = bias (ix2 0 k) := by rw [h1]; exact biasBlock_apply V c bias hb t k
    show x2 (ix2 r 0) * x0 (ix2 r k) + x1 (ix2 0 k) = _
    rw [e2, e0, e1]

/-- Block `t`'s column sum of the squares. -/
theorem pointSumsq_eq (t : Fin cfg1.N) (x0 : Vec Ideal S5000x128 .f32) (x1 : Vec Ideal S1x128 .f32) (x2 : Vec Ideal S5000x1 .f32)
    (h0 : x0 = iblk1 V c 0 t) (h1 : x1 = iblk1 V c 1 t) (h2 : x2 = iblk1 V c 2 t) :
    ∑ r : Fin 5000, (x2 (ix2 r 0) * x0 (ix2 r k) + x1 (ix2 0 k)) * (x2 (ix2 r 0) * x0 (ix2 r k) + x1 (ix2 0 k))
      = ∑ j ∈ Finset.range 5000, padded (fun v => wrow wcol agg bias k v * wrow wcol agg bias k v) (t.val * 5000 + j) :=
  blockSum_eq _ _ t.val (lt_of_lt_of_eq t.isLt N_1) fun r h => by
    have e2 : x2 (ix2 r 0) = wcol (ix2 ⟨t.val * 5000 + r.val, h⟩ 0) := by rw [h2]; exact weightBlock_apply V c wcol hw t r h
    have e0 : x0 (ix2 r k) = agg (ix2 ⟨t.val * 5000 + r.val, h⟩ k) := by rw [h0]; exact rowsBlock_apply V c agg ha t r k h
    have e1 : x1 (ix2 0 k) = bias (ix2 0 k) := by rw [h1]; exact biasBlock_apply V c bias hb t k
    show (x2 (ix2 r 0) * x0 (ix2 r k) + x1 (ix2 0 k)) * (x2 (ix2 r 0) * x0 (ix2 r k) + x1 (ix2 0 k)) = _
    rw [e2, e0, e1]

end Points

/-! ## The running sums -/

section Running

variable (c : Dev nD) (wcol : S50000x1.Idx → EReal) (agg : S50000x128.Idx → EReal) (bias : S1x128.Idx → EReal)
  (hw : V c main_v12 = wcol) (ha : V c main_v27 = agg) (hb : V c main_v13 = bias) (k : Fin 128)

include hw ha hb

/-- THE FIRST POINT leaves, in the accumulator of the sums, zero plus the first block's column sum. -/
theorem firstPoint_sum (t : Fin cfg1.N) (h0 : t.val % 10 = 0) :
    ((outsAt1 V c t.val t.isLt).1 : S1x128.Idx → EReal) (ix2 0 k)
      = 0 + ∑ j ∈ Finset.range 5000, padded (wrow wcol agg bias k) (t.val * 5000 + j) :=
  (congrFun ((congrArg Prod.fst (outsAt1_A V c t h0)).trans
      (stats_first_sum (F := Ideal) c (grid1.coords t) (ms1_0 t) (hs1_0 t) (ms1_1 t) (hs1_1 t) (ms1_2 t) (hs1_2 t)
        (ms1_3 t) (hs1_3 t) (ms1_4 t) (hs1_4 t) ((hcond1_0 t).mpr h0) (iblk1 V c 0 t) (iblk1 V c 1 t) (iblk1 V c 2 t)))
    (ix2 0 k)).trans
    ((sumStep_apply (iblk1 V c 2 t) (iblk1 V c 0 t) (iblk1 V c 1 t) (k1_pay1 (F := Ideal)) k).trans
      (congrArg₂ (· + ·) (zeroRow_apply (ix2 0 k)) (pointSum_eq V c wcol agg bias hw ha hb k t (iblk1 V c 0 t) (iblk1 V c 1 t) (iblk1 V c 2 t) rfl rfl rfl)))

/-- and in the accumulator of the squares, zero plus the first block's column sum of squares. -/
theorem firstPoint_sumsq (t : Fin cfg1.N) (h0 : t.val % 10 = 0) :
    ((outsAt1 V c t.val t.isLt).2 : S1x128.Idx → EReal) (ix2 0 k)
      = 0 + ∑ j ∈ Finset.range 5000, padded (fun v => wrow wcol agg bias k v * wrow wcol agg bias k v) (t.val * 5000 + j) :=
  (congrFun ((congrArg Prod.snd (outsAt1_A V c t h0)).trans
      (stats_first_sumsq (F := Ideal) c (grid1.coords t) (ms1_0 t) (hs1_0 t) (ms1_1 t) (hs1_1 t) (ms1_2 t) (hs1_2 t)
        (ms1_3 t) (hs1_3 t) (ms1_4 t) (hs1_4 t) ((hcond1_0 t).mpr h0) (iblk1 V c 0 t) (iblk1 V c 1 t) (iblk1 V c 2 t)))
    (ix2 0 k)).trans
    ((sumsqStep_apply (iblk1 V c 2 t) (iblk1 V c 0 t) (iblk1 V c 1 t) (k1_pay2 (F := Ideal)) k).trans
      (congrArg₂ (· + ·) (zeroRow'_apply (ix2 0 k)) (pointSumsq_eq V c wcol agg bias hw ha hb k t (iblk1 V c 0 t) (iblk1 V c 1 t) (iblk1 V c 2 t) rfl rfl rfl)))

/-- A LATER POINT adds its block's column sum to what the point before left. -/
theorem laterPoint_sum (t : Fin cfg1.N) (h0 : ¬t.val % 10 = 0) :
    ((outsAt1 V c t.val t.isLt).1 : S1x128.Idx → EReal) (ix2 0 k)
      = ((outsAt1 V c (t.val - 1) (Nat.lt_of_le_of_lt (Nat.sub_le _ _) t.isLt)).1 : S1x128.Idx → EReal) (ix2 0 k)
        + ∑ j ∈ Finset.range 5000, padded (wrow wcol agg bias k) (t.val * 5000 + j) :=
  (congrFun ((congrArg Prod.fst (outsAt1_B V c t h0)).trans
      (stats_later_sum (F := Ideal) c (grid1.coords t) (ms1_0 t) (hs1_0 t) (ms1_1 t) (hs1_1 t) (ms1_2 t) (hs1_2 t)
        (ms1_3 t) (hs1_3 t) (ms1_4 t) (hs1_4 t) (fun h => h0 ((hcond1_0 t).mp h)) (iblk1 V c 0 t) (iblk1 V c 1 t) (iblk1 V c 2 t)
        (outsAt1 V c (t.val - 1) (Nat.lt_of_le_of_lt (Nat.sub_le _ _) t.isLt)).1
        (outsAt1 V c (t.val - 1) (Nat.lt_of_le_of_lt (Nat.sub_le _ _) t.isLt)).2))
    (ix2 0 k)).trans
    ((sumStep_apply (iblk1 V c 2 t) (iblk1 V c 0 t) (iblk1 V c 1 t)
        (outsAt1 V c (t.val - 1) (Nat.lt_of_le_of_lt (Nat.sub_le _ _) t.isLt)).1 k).trans
      (congrArg₂ (· + ·) rfl (pointSum_eq V c wcol agg bias hw ha hb k t (iblk1 V c 0 t) (iblk1 V c 1 t) (iblk1 V c 2 t) rfl rfl rfl)))

/-- and its block's column sum of squares to the other accumulator. -/
theorem laterPoint_sumsq (t : Fin cfg1.N) (h0 : ¬t.val % 10 = 0) :
    ((outsAt1 V c t.val t.isLt).2 : S1x128.Idx → EReal) (ix2 0 k)
      = ((outsAt1 V c (t.val - 1) (Nat.lt_of_le_of_lt (Nat.sub_le _ _) t.isLt)).2 : S1x128.Idx → EReal) (ix2 0 k)
        + ∑ j ∈ Finset.range 5000, padded (fun v => wrow wcol agg bias k v * wrow wcol agg bias k v) (t.val * 5000 + j) :=
  (congrFun ((congrArg Prod.snd (outsAt1_B V c t h0)).trans
      (stats_later_sumsq (F := Ideal) c (grid1.coords t) (ms1_0 t) (hs1_0 t) (ms1_1 t) (hs1_1 t) (ms1_2 t) (hs1_2 t)
        (ms1_3 t) (hs1_3 t) (ms1_4 t) (hs1_4 t) (fun h => h0 ((hcond1_0 t).mp h)) (iblk1 V c 0 t) (iblk1 V c 1 t) (iblk1 V c 2 t)
        (outsAt1 V c (t.val - 1) (Nat.lt_of_le_of_lt (Nat.sub_le _ _) t.isLt)).1
        (outsAt1 V c (t.val - 1) (Nat.lt_of_le_of_lt (Nat.sub_le _ _) t.isLt)).2))
    (ix2 0 k)).trans
    ((sumsqStep_apply (iblk1 V c 2 t) (iblk1 V c 0 t) (iblk1 V c 1 t)
        (outsAt1 V c (t.val - 1) (Nat.lt_of_le_of_lt (Nat.sub_le _ _) t.isLt)).2 k).trans
      (congrArg₂ (· + ·) rfl (pointSumsq_eq V c wcol agg bias hw ha hb k t (iblk1 V c 0 t) (iblk1 V c 1 t) (iblk1 V c 2 t) rfl rfl rfl)))

/-- AFTER POINT `n` the accumulator of the sums holds the column sums of the first `n + 1` blocks. -/
theorem sums_after (n : ℕ) (hn : n < cfg1.N) :
    ((outsAt1 V c n hn).1 : S1x128.Idx → EReal) (ix2 0 k)
      = ∑ s ∈ Finset.range (n + 1), ∑ j ∈ Finset.range 5000, padded (wrow wcol agg bias k) (s * 5000 + j) :=
  running_eq (fun n hn => ((outsAt1 V c n hn).1 : S1x128.Idx → EReal) (ix2 0 k))
    (fun s => ∑ j ∈ Finset.range 5000, padded (wrow wcol agg bias k) (s * 5000 + j))
    (fun hn => firstPoint_sum V c wcol agg bias hw ha hb k ⟨0, hn⟩ rfl)
    (fun n hn => laterPoint_sum V c wcol agg bias hw ha hb k ⟨n + 1, hn⟩
      (by have := lt_of_lt_of_eq hn N_1; dsimp only; omega))
    n hn

/-- and the accumulator of the squares the column sums of squares of the first `n + 1` blocks. -/
theorem sumsqs_after (n : ℕ) (hn : n < cfg1.N) :
    ((outsAt1 V c n hn).2 : S1x128.Idx → EReal) (ix2 0 k)
      = ∑ s ∈ Finset.range (n + 1), ∑ j ∈ Finset.range 5000,
          padded (fun v => wrow wcol agg bias k v * wrow wcol agg bias k v) (s * 5000 + j) :=
  running_eq (fun n hn => ((outsAt1 V c n hn).2 : S1x128.Idx → EReal) (ix2 0 k))
    (fun s => ∑ j ∈ Finset.range 5000, padded (fun v => wrow wcol agg bias k v * wrow wcol agg bias k v) (s * 5000 + j))
    (fun hn => firstPoint_sumsq V c wcol agg bias hw ha hb k ⟨0, hn⟩ rfl)
    (fun n hn => laterPoint_sumsq V c wcol agg bias hw ha hb k ⟨n + 1, hn⟩
      (by have := lt_of_lt_of_eq hn N_1; dsimp only; omega))
    n hn

end Running

/-! ## The result arrays -/

/-- The last point. -/
theorem lastPoint_lt : 9 < cfg1.N := by rw [show cfg1.N = 10 from N_1]; decide

/-- What the last point leaves in the accumulator of the sums, as contents of the first result array. -/
abbrev sumRow (c : Dev nD) : Buf (Elt Ideal) ((c : Thread nD τ).loc main_v28_0) := (outsAt1 V c 9 lastPoint_lt).1

/-- What the last point leaves in the accumulator of the squares, as contents of the second result array. -/
abbrev sumsqRow (c : Dev nD) : Buf (Elt Ideal) ((c : Thread nD τ).loc main_v28_1) := (outsAt1 V c 9 lastPoint_lt).2

/-- The one write-back of the sums, after the last point, writes the accumulator: its block is the whole array. -/
theorem flushedSum_eq (c : Dev nD) (t : Fin cfg1.N) (hf : (cfg1.win 3).flush t = true) :
    (dat1 V c).flushed 3 t = ((cfg1.win 3).blk t).view.read (Elt Ideal) (sumRow V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  have hz' : (fun a => win1_3.index t1_9 a * main_v28_0.ty.shape.size a) = fun _ => 0 := funext fun a => by fin_cases a <;> decide
  exact (Memref.read_access_unit_zero (Elt Ideal) main_v28_0 hz' (fun a => by rw [congrFun hz' a]; simp) (sumRow V c)).symm

/-- The same for the squares. -/
theorem flushedSumsq_eq (c : Dev nD) (t : Fin cfg1.N) (hf : (cfg1.win 4).flush t = true) :
    (dat1 V c).flushed 4 t = ((cfg1.win 4).blk t).view.read (Elt Ideal) (sumsqRow V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4]
  have hz' : (fun a => win1_4.index t1_9 a * main_v28_1.ty.shape.size a) = fun _ => 0 := funext fun a => by fin_cases a <;> decide
  exact (Memref.read_access_unit_zero (Elt Ideal) main_v28_1 hz' (fun a => by rw [congrFun hz' a]; simp) (sumsqRow V c)).symm

/-- So the first result array ends holding what the last point left in the accumulator of the sums. -/
theorem finalSum (c : Dev nD) : (dat1 V c).arrAt 3 cfg1.N = sumRow V c :=
  (dat1 V c).arrAt_eq_of_cover 3 (sumRow V c) (flushedSum_eq V c) fun i =>
    ⟨t1_9, (flush1_3 t1_9).mpr rfl, by
      show i ∈ ((View.whole main_v28_0).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

/-- and the second what it left in the accumulator of the squares. -/
theorem finalSumsq (c : Dev nD) : (dat1 V c).arrAt 4 cfg1.N = sumsqRow V c :=
  (dat1 V c).arrAt_eq_of_cover 4 (sumsqRow V c) (flushedSumsq_eq V c) fun i =>
    ⟨t1_9, (flush1_4 t1_9).mpr rfl, by
      show i ∈ ((View.whole main_v28_1).slice (win1_4.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 1 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 128 from by decide +kernel]; omega⟩

end Cert.KernelIdeal.RegionValue.Region1

namespace Cert.KernelIdeal.RegionValue

open Cert.KernelIdeal Cert.KernelIdeal.Gen Region1

variable (V : (c : Dev nD) → (b : Ref sig .tc) → Buf (Elt Ideal) ((c : Thread nD τ).loc b))

/-! ## The region's value -/

/-- THE SUMS. After the region, the first result array holds at feature `k` the sum over all 50000 rows of the
    row's weight times the aggregated entry plus the bias. -/
theorem region1_sum (c : Dev nD) (wcol : S50000x1.Idx → EReal) (agg : S50000x128.Idx → EReal) (bias : S1x128.Idx → EReal)
    (hw : V c main_v12 = wcol) (ha : V c main_v27 = agg) (hb : V c main_v13 = bias) (k : Fin 128) :
    ((dat1 V c).arrAt 3 cfg1.N : S1x128.Idx → EReal) (ix2 0 k)
      = ∑ v : Fin 50000, (wcol (ix2 v 0) * agg (ix2 v k) + bias (ix2 0 k)) :=
  (congrFun (finalSum V c) (ix2 0 k)).trans
    ((sums_after V c wcol agg bias hw ha hb k 9 lastPoint_lt).trans (allBlocks_eq (wrow wcol agg bias k)))

/-- THE SUMS OF SQUARES. The second result array holds at feature `k` the sum over all rows of the square of the
    same quantity. -/
theorem region1_sumsq (c : Dev nD) (wcol : S50000x1.Idx → EReal) (agg : S50000x128.Idx → EReal) (bias : S1x128.Idx → EReal)
    (hw : V c main_v12 = wcol) (ha : V c main_v27 = agg) (hb : V c main_v13 = bias) (k : Fin 128) :
    ((dat1 V c).arrAt 4 cfg1.N : S1x128.Idx → EReal) (ix2 0 k)
      = ∑ v : Fin 50000, (wcol (ix2 v 0) * agg (ix2 v k) + bias (ix2 0 k)) * (wcol (ix2 v 0) * agg (ix2 v k) + bias (ix2 0 k)) :=
  (congrFun (finalSumsq V c) (ix2 0 k)).trans
    ((sumsqs_after V c wcol agg bias hw ha hb k 9 lastPoint_lt).trans
      (allBlocks_eq (fun v => wrow wcol agg bias k v * wrow wcol agg bias k v)))

end Cert.KernelIdeal.RegionValue

end
-- ==== Proof.Region2.lean ====
/-
  The third region's two output arrays, read off the region's frame at any entry contents.

  The region walks the 50000 rows in ten blocks of 5000. At a row v it forms the pre-normalisation value
  h v k = w v · a v k + b k from the weight column w, the aggregated rows a and the bias row b, normalises it with the
  batch statistics (mean mu, variance var) and the affine pair (gamma, beta), and rectifies:
  y v k = max (gamma k · (h v k − mu k) · rsqrt (var k + eps) + beta k) 0. Its first output is y; its second is the
  row y v projected by the second weight matrix and scaled by the node's weight, (Σ_j y v j · W2 j k) · w v.

  Each output's block at a point is the body's one store, a function of the blocks the point reads; a row-blocked
  window's block at point t is rows 5000·t … 5000·t + 4999 of its array and a whole-array window's block is the array,
  so the store is the block of one function of the arrays, and the ten blocks tile the output.
-/
import proofs.«139979_j60576218742837_2_alg».proof.Proof.Gen.KernelIdeal.Frame
import proofs.«139979_j60576218742837_2_alg».proof.Proof.Spec
import proofs.«139979_j60576218742837_2_alg».proof.Proof.LibDotInnerHost
import proofs.«139979_j60576218742837_2_alg».proof.Proof.LibKeepdimsLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.RegionValue.Region2

open Cert.KernelIdeal Cert.KernelIdeal.Gen

variable (V : (c : Dev nD) → (b : Ref sig .tc) → Buf (Elt Ideal) ((c : Thread nD τ).loc b)) (c : Dev nD)

/-- The node weights: a column, one entry per node. -/
abbrev nodeWeight : S50000x1.Idx → EReal := V c main_v12
/-- The aggregated rows the region normalises. -/
abbrev aggRows : S50000x128.Idx → EReal := V c main_v27
/-- The bias row added to the weighted aggregate. -/
abbrev biasRow : S1x128.Idx → EReal := V c main_v13
/-- The batch mean, per feature. -/
abbrev meanRow : S1x128.Idx → EReal := V c main_v30
/-- The batch variance, per feature. -/
abbrev varRow : S1x128.Idx → EReal := V c main_v34
/-- The normalisation's scale, per feature. -/
abbrev gammaRow : S1x128.Idx → EReal := V c main_v15
/-- The normalisation's shift, per feature. -/
abbrev betaRow : S1x128.Idx → EReal := V c main_v16
/-- The second layer's weight matrix. -/
abbrev weight2 : S128x128.Idx → EReal := V c main_arg4

/-- The pre-normalisation value at node v, feature k: the node's weight times its aggregated row, plus the bias. -/
abbrev pre2 (v : Fin 50000) (k : Fin 128) : EReal :=
  nodeWeight V c (ix2 v 0) * aggRows V c (ix2 v k) + biasRow V c (ix2 0 k)

/-- The normalised and rectified value at node v, feature k. -/
abbrev act2 (v : Fin 50000) (k : Fin 128) : EReal :=
  max (gammaRow V c (ix2 0 k) * (pre2 V c v k - meanRow V c (ix2 0 k)) * Ideal.rsqrt (varRow V c (ix2 0 k) + Cert.Gcn.cEps)
    + betaRow V c (ix2 0 k)) 0

/-- The projected and scaled value at node v, feature k. -/
abbrev proj2 (v : Fin 50000) (k : Fin 128) : EReal :=
  (∑ j : Fin 128, act2 V c v j * weight2 V c (ix2 j k)) * nodeWeight V c (ix2 v 0)

/-! ## The body's arithmetic at an index -/

/-- The offsets of a whole-block access are zero on both axes. -/
theorem hz : (![0, 0] : Fin 2 → Nat) = fun _ => 0 := funext fun a => by fin_cases a <;> rfl

/-- The dimension numbers of the region's matrix product say rows by columns. -/
theorem plain2 : DotInner.Plain dot_S5000x128_S128x128_S5000x128_1_0_0_1_n_n :=
  plain_record dot_S5000x128_S128x128_S5000x128_1_0_0_1_n_n, S5000x128, S128x128

/-- The first store's payload at row p, feature k of the block: the weighted row plus the bias, normalised, rectified. -/
theorem pay2_apply (w : Vec Ideal S5000x1 .f32) (a : Vec Ideal S5000x128 .f32) (b var gam mu bet : Vec Ideal S1x128 .f32)
    (p : Fin 5000) (k : Fin 128) :
    k2_pay2 w a b var gam mu bet (ix2 p k)
      = max (gam (ix2 0 k) * (w (ix2 p 0) * a (ix2 p k) + b (ix2 0 k) - mu (ix2 0 k))
            * Ideal.rsqrt (var (ix2 0 k) + Cert.Gcn.cEps) + bet (ix2 0 k)) 0 := by
  unfold k2_pay2
  simp only [shapeCast_self]
  show max (broadcastTo S5000x128 gam broadcasts_S1x128_S5000x128 (ix2 p k)
          * (broadcastTo S5000x128 w broadcasts_S5000x1_S5000x128 (ix2 p k) * a (ix2 p k)
              + broadcastTo S5000x128 b broadcasts_S1x128_S5000x128 (ix2 p k)
              - broadcastTo S5000x128 mu broadcasts_S1x128_S5000x128 (ix2 p k))
          * broadcastTo S5000x128 (rsqrt (F := Ideal) (addf (F := Ideal) var (broadcast S1x128 (Scalar.ofBits (F := Ideal) .f32 0x3727C5AC#32)))) broadcasts_S1x128_S5000x128 (ix2 p k)
        + broadcastTo S5000x128 bet broadcasts_S1x128_S5000x128 (ix2 p k)) (Ideal.ofBits .f32 0x00000000#32) = _
  rw [broadcastTo_1b_ab_apply, broadcastTo_1b_ab_apply, broadcastTo_1b_ab_apply, broadcastTo_1b_ab_apply,
    broadcastTo_1b_ab_apply, Cert.LayoutKeepdims.broadcastTo_a1_ab_apply, Ideal.ofBits_zero_f32]
  rfl

/-- The matrix product's payload at row p, feature k: the rectified row against the weight matrix's column. -/
theorem pay3_apply (w : Vec Ideal S5000x1 .f32) (a : Vec Ideal S5000x128 .f32) (b var gam mu bet : Vec Ideal S1x128 .f32)
    (W : Vec Ideal S128x128 .f32) (p : Fin 5000) (k : Fin 128) :
    k2_pay3 w a b var gam mu bet W (ix2 p k) = ∑ j : Fin 128, k2_pay2 w a b var gam mu bet (ix2 p j) * W (ix2 j k) := by
  unfold k2_pay3
  exact plain2.matmul_zero none _ _ p k

/-- The second store's payload at row p, feature k: the product's entry times the node's weight. -/
theorem pay1_apply (m : FVec Ideal S5000x128 .f32) (w : Vec Ideal S5000x1 .f32) (p : Fin 5000) (k : Fin 128) :
    k2_pay1 m w (ix2 p k) = m (ix2 p k) * w (ix2 p 0) := by
  unfold k2_pay1
  simp only [shapeCast_self]
  show m (ix2 p k) * broadcastTo S5000x128 w broadcasts_S5000x1_S5000x128 (ix2 p k) = _
  rw [Cert.LayoutKeepdims.broadcastTo_a1_ab_apply]

/-! ## The windows' blocks as parts of their arrays -/

/-- The printed index maps, decided once over the grid: a row-blocked window's block at point t is block t of its rows and
    the one block of its columns; a whole-array window's block is the one block at every point. -/
theorem index_facts : ∀ t : Fin cfg2.N,
    (win2_0.index t (0 : Fin 2) = t.val ∧ win2_0.index t (1 : Fin 2) = 0)
    ∧ (win2_6.index t (0 : Fin 2) = t.val ∧ win2_6.index t (1 : Fin 2) = 0)
    ∧ (win2_8.index t (0 : Fin 2) = t.val ∧ win2_8.index t (1 : Fin 2) = 0)
    ∧ (win2_9.index t (0 : Fin 2) = t.val ∧ win2_9.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_7.index t (0 : Fin 2) = 0 ∧ win2_7.index t (1 : Fin 2) = 0) :=
  (by decide +kernel : ∀ t : Fin grid2.N, _)

/-- The grid has ten points. -/
theorem point_lt (t : Fin cfg2.N) : t.val < 10 := Nat.lt_of_lt_of_eq t.isLt N_2

/-- The aggregated rows' block at point t holds rows 5000·t … 5000·t + 4999. -/
theorem blk_agg (t : Fin cfg2.N) (p : Fin 5000) (k : Fin 128) (v : Fin 50000) (hv : v.val = 5000 * t.val + p.val) :
    (iblk2 V c 0 t : Vec Ideal S5000x128 .f32) (ix2 p k) = aggRows V c (ix2 v k) := by
  obtain ⟨⟨e0, e1⟩, -⟩ := index_facts t
  unfold iblk2
  rw [View.read_apply]
  show V c main_v27 _ = V c main_v27 _
  congr 1
  funext a; apply Fin.ext
  match a with
  | ⟨0, _⟩ => show win2_0.index t (0 : Fin 2) * 5000 + 1 * p.val = v.val; rw [e0, hv]; omega
  | ⟨1, _⟩ => show win2_0.index t (1 : Fin 2) * 128 + 1 * k.val = k.val; rw [e1]; omega

/-- The node weights' block at point t holds the weights of nodes 5000·t … 5000·t + 4999. -/
theorem blk_weight (t : Fin cfg2.N) (p : Fin 5000) (v : Fin 50000) (hv : v.val = 5000 * t.val + p.val) :
    (iblk2 V c 6 t : Vec Ideal S5000x1 .f32) (ix2 p 0) = nodeWeight V c (ix2 v 0) := by
  obtain ⟨-, ⟨e0, e1⟩, -⟩ := index_facts t
  unfold iblk2
  rw [View.read_apply]
  show V c main_v12 _ = V c main_v12 _
  congr 1
  funext a; apply Fin.ext
  match a with
  | ⟨0, _⟩ => show win2_6.index t (0 : Fin 2) * 5000 + 1 * p.val = v.val; rw [e0, hv]; omega
  | ⟨1, _⟩ => show win2_6.index t (1 : Fin 2) * 1 + 1 * 0 = 0; rw [e1]

/-- The bias row's block at any point is the row. -/
theorem blk_bias (t : Fin cfg2.N) (k : Fin 128) : (iblk2 V c 1 t : Vec Ideal S1x128 .f32) (ix2 0 k) = biasRow V c (ix2 0 k) := by
  obtain ⟨-, -, -, -, ⟨e0, e1⟩, -⟩ := index_facts t
  unfold iblk2
  rw [View.read_apply]
  show V c main_v13 _ = V c main_v13 _
  congr 1
  funext a; apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- The mean row's block at any point is the row. -/
theorem blk_mean (t : Fin cfg2.N) (k : Fin 128) : (iblk2 V c 2 t : Vec Ideal S1x128 .f32) (ix2 0 k) = meanRow V c (ix2 0 k) := by
  obtain ⟨-, -, -, -, -, ⟨e0, e1⟩, -⟩ := index_facts t
  unfold iblk2
  rw [View.read_apply]
  show V c main_v30 _ = V c main_v30 _
  congr 1
  funext a; apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The variance row's block at any point is the row. -/
theorem blk_var (t : Fin cfg2.N) (k : Fin 128) : (iblk2 V c 3 t : Vec Ideal S1x128 .f32) (ix2 0 k) = varRow V c (ix2 0 k) := by
  obtain ⟨-, -, -, -, -, -, ⟨e0, e1⟩, -⟩ := index_facts t
  unfold iblk2
  rw [View.read_apply]
  show V c main_v34 _ = V c main_v34 _
  congr 1
  funext a; apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

/-- The scale row's block at any point is the row. -/
theorem blk_gamma (t : Fin cfg2.N) (k : Fin 128) : (iblk2 V c 4 t : Vec Ideal S1x128 .f32) (ix2 0 k) = gammaRow V c (ix2 0 k) := by
  obtain ⟨-, -, -, -, -, -, -, ⟨e0, e1⟩, -⟩ := index_facts t
  unfold iblk2
  rw [View.read_apply]
  show V c main_v15 _ = V c main_v15 _
  congr 1
  funext a; apply Fin.ext
  match a with
  | ⟨0, _⟩ => show win2_4.index t (0 : Fin 2) * 1 + 1 * 0 = 0; rw [e0]
  | ⟨1, _⟩ => show win2_4.index t (1 : Fin 2) * 128 + 1 * k.val = k.val; rw [e1]; omega

/-- The shift row's block at any point is the row. -/
theorem blk_beta (t : Fin cfg2.N) (k : Fin 128) : (iblk2 V c 5 t : Vec Ideal S1x128 .f32) (ix2 0 k) = betaRow V c (ix2 0 k) := by
  obtain ⟨-, -, -, -, -, -, -, -, ⟨e0, e1⟩, -⟩ := index_facts t
  unfold iblk2
  rw [View.read_apply]
  show V c main_v16 _ = V c main_v16 _
  congr 1
  funext a; apply Fin.ext
  match a with
  | ⟨0, _⟩ => show win2_5.index t (0 : Fin 2) * 1 + 1 * 0 = 0; rw [e0]
  | ⟨1, _⟩ => show win2_5.index t (1 : Fin 2) * 128 + 1 * k.val = k.val; rw [e1]; omega

/-- The weight matrix's block at any point is the matrix. -/
theorem blk_weight2 (t : Fin cfg2.N) (j k : Fin 128) : (iblk2 V c 7 t : Vec Ideal S128x128 .f32) (ix2 j k) = weight2 V c (ix2 j k) := by
  obtain ⟨-, -, -, -, -, -, -, -, -, e0, e1⟩ := index_facts t
  unfold iblk2
  rw [View.read_apply]
  show V c main_arg4 _ = V c main_arg4 _
  congr 1
  funext a; apply Fin.ext
  match a with
  | ⟨0, _⟩ => show win2_7.index t (0 : Fin 2) * 128 + 1 * j.val = j.val; rw [e0]; omega
  | ⟨1, _⟩ => show win2_7.index t (1 : Fin 2) * 128 + 1 * k.val = k.val; rw [e1]; omega

/-! ## What each point writes back, and the arrays after the region -/

/-- The first output as one function of the arrays the region finds. -/
abbrev actArr : S50000x128.Idx → EReal := fun i => act2 V c (i 0) (i 1)

/-- The second output as one function of the arrays the region finds. -/
abbrev projArr : S50000x128.Idx → EReal := fun i => proj2 V c (i 0) (i 1)

/-- The first store's payload of point t's blocks, at row p of the block, is the rectified value of node 5000·t + p. -/
theorem pay2_blocks (t : Fin cfg2.N) (p : Fin 5000) (k : Fin 128) (v : Fin 50000) (hv : v.val = 5000 * t.val + p.val) :
    k2_pay2 (iblk2 V c 6 t) (iblk2 V c 0 t) (iblk2 V c 1 t) (iblk2 V c 3 t) (iblk2 V c 4 t) (iblk2 V c 2 t) (iblk2 V c 5 t) (ix2 p k)
      = act2 V c v k := by
  refine (pay2_apply (iblk2 V c 6 t) (iblk2 V c 0 t) (iblk2 V c 1 t) (iblk2 V c 3 t) (iblk2 V c 4 t) (iblk2 V c 2 t) (iblk2 V c 5 t) p k).trans ?_
  rw [blk_weight V c t p v hv, blk_agg V c t p k v hv, blk_bias V c t k, blk_mean V c t k, blk_var V c t k, blk_gamma V c t k,
    blk_beta V c t k]

/-- The second store's payload at row p, feature k: the rectified row against the weight matrix's column, times the node's
    weight. -/
theorem pay9_apply (w : Vec Ideal S5000x1 .f32) (a : Vec Ideal S5000x128 .f32) (b var gam mu bet : Vec Ideal S1x128 .f32)
    (W : Vec Ideal S128x128 .f32) (p : Fin 5000) (k : Fin 128) :
    k2_pay1 (k2_pay3 w a b var gam mu bet W) w (ix2 p k)
      = (∑ j : Fin 128, k2_pay2 w a b var gam mu bet (ix2 p j) * W (ix2 j k)) * w (ix2 p 0) := by
  rw [pay1_apply, pay3_apply]

/-- The second store's payload of point t's blocks, at row p of the block, is the projected and scaled value of node
    5000·t + p. -/
theorem pay9_blocks (t : Fin cfg2.N) (p : Fin 5000) (k : Fin 128) (v : Fin 50000) (hv : v.val = 5000 * t.val + p.val) :
    k2_pay1 (k2_pay3 (iblk2 V c 6 t) (iblk2 V c 0 t) (iblk2 V c 1 t) (iblk2 V c 3 t) (iblk2 V c 4 t) (iblk2 V c 2 t) (iblk2 V c 5 t)
        (iblk2 V c 7 t)) (iblk2 V c 6 t) (ix2 p k)
      = proj2 V c v k := by
  refine (pay9_apply (iblk2 V c 6 t) (iblk2 V c 0 t) (iblk2 V c 1 t) (iblk2 V c 3 t) (iblk2 V c 4 t) (iblk2 V c 2 t) (iblk2 V c 5 t)
    (iblk2 V c 7 t) p k).trans ?_
  rw [blk_weight V c t p v hv]
  refine congrArg (fun s : EReal => s * nodeWeight V c (ix2 v 0)) ?_
  refine Finset.sum_congr rfl fun j _ => ?_
  rw [pay2_blocks V c t p j v hv, blk_weight2 V c t j k]

/-- An element of the first output's block at point t sits at row 5000·t + its row, in its own column. -/
theorem emb8 (t : Fin cfg2.N) (p : Fin 5000) (k : Fin 128) (v : Fin 50000) (hv : v.val = 5000 * t.val + p.val) :
    ((cfg2.win 8).blk t).view.emb (ix2 p k) = (ix2 v k : S50000x128.Idx) := by
  obtain ⟨-, -, ⟨e0, e1⟩, -⟩ := index_facts t
  funext a; apply Fin.ext
  match a with
  | ⟨0, _⟩ => show win2_8.index t (0 : Fin 2) * 5000 + 1 * p.val = v.val; rw [e0, hv]; omega
  | ⟨1, _⟩ => show win2_8.index t (1 : Fin 2) * 128 + 1 * k.val = k.val; rw [e1]; omega

/-- The same for the second output's block. -/
theorem emb9 (t : Fin cfg2.N) (p : Fin 5000) (k : Fin 128) (v : Fin 50000) (hv : v.val = 5000 * t.val + p.val) :
    ((cfg2.win 9).blk t).view.emb (ix2 p k) = (ix2 v k : S50000x128.Idx) := by
  obtain ⟨-, -, -, ⟨e0, e1⟩, -⟩ := index_facts t
  funext a; apply Fin.ext
  match a with
  | ⟨0, _⟩ => show win2_9.index t (0 : Fin 2) * 5000 + 1 * p.val = v.val; rw [e0, hv]; omega
  | ⟨1, _⟩ => show win2_9.index t (1 : Fin 2) * 128 + 1 * k.val = k.val; rw [e1]; omega

/-- WHAT POINT t WRITES BACK to the first output is block t of the rectified values. -/
theorem flushed8_eq (t : Fin cfg2.N) :
    (dat2 V c).flushed 8 t = ((cfg2.win 8).blk t).view.read (Elt Ideal) (actArr V c) := by
  show (cfg2.win 8).cut (grid2.coords t) ((dat2 V c).after 8 t) = _
  rw [after2_8]
  unfold out2_8
  rw [View.canon_unit_zero hz]
  simp only [View.ld_unit_zero (S := S5000x128) hz, View.ld_unit_zero (S := S1x128) hz, View.ld_unit_zero (S := S5000x1) hz]
  funext y
  obtain ⟨p, k, rfl⟩ : ∃ (p : Fin 5000) (k : Fin 128), y = ix2 p k := ⟨y 0, y 1, eq_ix2 y⟩
  have ht := point_lt t
  obtain ⟨v, hv⟩ : ∃ v : Fin 50000, v.val = 5000 * t.val + p.val := ⟨⟨5000 * t.val + p.val, by have := p.isLt; omega⟩, rfl⟩
  show k2_pay2 (iblk2 V c 6 t) (iblk2 V c 0 t) (iblk2 V c 1 t) (iblk2 V c 3 t) (iblk2 V c 4 t) (iblk2 V c 2 t) (iblk2 V c 5 t) (ix2 p k)
      = actArr V c (((cfg2.win 8).blk t).view.emb (ix2 p k))
  refine (pay2_blocks V c t p k v hv).trans ?_
  exact (congrArg (actArr V c) (emb8 t p k v hv)).symm

/-- WHAT POINT t WRITES BACK to the second output is block t of the projected and scaled values. -/
theorem flushed9_eq (t : Fin cfg2.N) :
    (dat2 V c).flushed 9 t = ((cfg2.win 9).blk t).view.read (Elt Ideal) (projArr V c) := by
  show (cfg2.win 9).cut (grid2.coords t) ((dat2 V c).after 9 t) = _
  rw [after2_9]
  unfold out2_9
  rw [View.canon_unit_zero hz]
  simp only [View.ld_unit_zero (S := S5000x128) hz, View.ld_unit_zero (S := S1x128) hz, View.ld_unit_zero (S := S5000x1) hz,
    View.ld_unit_zero (S := S128x128) hz]
  funext y
  obtain ⟨p, k, rfl⟩ : ∃ (p : Fin 5000) (k : Fin 128), y = ix2 p k := ⟨y 0, y 1, eq_ix2 y⟩
  have ht := point_lt t
  obtain ⟨v, hv⟩ : ∃ v : Fin 50000, v.val = 5000 * t.val + p.val := ⟨⟨5000 * t.val + p.val, by have := p.isLt; omega⟩, rfl⟩
  show k2_pay1 (k2_pay3 (iblk2 V c 6 t) (iblk2 V c 0 t) (iblk2 V c 1 t) (iblk2 V c 3 t) (iblk2 V c 4 t) (iblk2 V c 2 t) (iblk2 V c 5 t)
        (iblk2 V c 7 t)) (iblk2 V c 6 t) (ix2 p k)
      = projArr V c (((cfg2.win 9).blk t).view.emb (ix2 p k))
  refine (pay9_blocks V c t p k v hv).trans ?_
  exact (congrArg (projArr V c) (emb9 t p k v hv)).symm

/-- An index of an output array is in point t's block iff each coordinate is in the block's range on its axis. -/
theorem mem_blk8 (t : Fin cfg2.N) (i : S50000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v35_0).slice (win2_8.rect t)).set ↔ _
  rw [View.set_slice_whole, Rect.mem_set_unit]
  exact Iff.rfl

theorem mem_blk9 (t : Fin cfg2.N) (i : S50000x128.Idx) :
    i ∈ ((cfg2.win 9).blk t).view.set ↔ ∀ a : Fin 2, win2_9.index t a * S5000x128.size a ≤ (i a).val
      ∧ (i a).val < win2_9.index t a * S5000x128.size a + S5000x128.size a := by
  show i ∈ ((View.whole main_v35_1).slice (win2_9.rect t)).set ↔ _
  rw [View.set_slice_whole, Rect.mem_set_unit]
  exact Iff.rfl

/-- Row r of the first output is in the block of point r / 5000, which writes back. -/
theorem cover8 (i : S50000x128.Idx) : ∃ t : Fin cfg2.N, (cfg2.win 8).flush t = true ∧ i ∈ ((cfg2.win 8).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (by omega : (i 0).val / 5000 < 10) N_2.symm⟩, rfl⟩
  obtain ⟨-, -, ⟨e0, e1⟩, -⟩ := index_facts t
  refine ⟨t, flush2_8 t, ?_⟩
  rw [mem_blk8]
  intro a
  match a with
  | ⟨0, _⟩ =>
    show win2_8.index t (0 : Fin 2) * 5000 ≤ (i 0).val ∧ (i 0).val < win2_8.index t (0 : Fin 2) * 5000 + 5000
    rw [e0, ht]; omega
  | ⟨1, _⟩ =>
    show win2_8.index t (1 : Fin 2) * 128 ≤ (i 1).val ∧ (i 1).val < win2_8.index t (1 : Fin 2) * 128 + 128
    rw [e1]; omega

/-- Row r of the second output is in the block of point r / 5000, which writes back. -/
theorem cover9 (i : S50000x128.Idx) : ∃ t : Fin cfg2.N, (cfg2.win 9).flush t = true ∧ i ∈ ((cfg2.win 9).blk t).view.set := by
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (by omega : (i 0).val / 5000 < 10) N_2.symm⟩, rfl⟩
  obtain ⟨-, -, -, ⟨e0, e1⟩, -⟩ := index_facts t
  refine ⟨t, flush2_9 t, ?_⟩
  rw [mem_blk9]
  intro a
  match a with
  | ⟨0, _⟩ =>
    show win2_9.index t (0 : Fin 2) * 5000 ≤ (i 0).val ∧ (i 0).val < win2_9.index t (0 : Fin 2) * 5000 + 5000
    rw [e0, ht]; omega
  | ⟨1, _⟩ =>
    show win2_9.index t (1 : Fin 2) * 128 ≤ (i 1).val ∧ (i 1).val < win2_9.index t (1 : Fin 2) * 128 + 128
    rw [e1]; omega

/-- THE FIRST OUTPUT ARRAY after the region: the rectified values, everywhere. -/
theorem final8 : (dat2 V c).arrAt 8 cfg2.N = actArr V c :=
  (dat2 V c).arrAt_eq_of_cover 8 (actArr V c) (fun t _ => flushed8_eq V c t) cover8

/-- THE SECOND OUTPUT ARRAY after the region: the projected and scaled values, everywhere. -/
theorem final9 : (dat2 V c).arrAt 9 cfg2.N = projArr V c :=
  (dat2 V c).arrAt_eq_of_cover 9 (projArr V c) (fun t _ => flushed9_eq V c t) cover9

end Cert.KernelIdeal.RegionValue.Region2

namespace Cert.KernelIdeal.RegionValue

open Cert.KernelIdeal Cert.KernelIdeal.Gen

variable (V : (c : Dev nD) → (b : Ref sig .tc) → Buf (Elt Ideal) ((c : Thread nD τ).loc b)) (c : Dev nD)

/-- THE FIRST OUTPUT after the region, entry by entry: the normalised and rectified values. -/
theorem region2_act (v : Fin 50000) (k : Fin 128) :
    ((dat2 V c).arrAt 8 cfg2.N : S50000x128.Idx → EReal) (ix2 v k) = Region2.act2 V c v k := by
  rw [Region2.final8]

/-- THE SECOND OUTPUT after the region, entry by entry: each rectified row projected by the second weight matrix and
    scaled by its node's weight. -/
theorem region2_proj (v : Fin 50000) (k : Fin 128) :
    ((dat2 V c).arrAt 9 cfg2.N : S50000x128.Idx → EReal) (ix2 v k) = Region2.proj2 V c v k := by
  rw [Region2.final9]

end Cert.KernelIdeal.RegionValue

end
-- ==== Proof.Region3.lean ====
/-
  The last region adds, row by row, the weighted neighbour aggregate to the self term and then the bias row:
  its output array holds, at row v and column k,  (self v k + weight v * aggregate v k) + bias k.
  The body's arithmetic is read at an index of a block, each block of the output is identified with the rows
  5000 t … 5000 t + 4999 of one whole-array function, and the ten blocks cover the array.
-/
import proofs.«139979_j60576218742837_2_alg».proof.Proof.Gen.KernelIdeal.Frame
import proofs.«139979_j60576218742837_2_alg».proof.Proof.LibKeepdimsLayout
import Idealize.ShloMosaic.Lib.Pipeline.Value
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.LayoutKeepdims

variable (V : (c : Dev nD) → (b : Ref sig .tc) → Buf (Elt Ideal) ((c : Thread nD τ).loc b))

/-- The two zero offsets of a whole-block access, as the constant function. -/
theorem zero_offsets3 : (![0, 0] : Fin 2 → Nat) = fun _ => 0 := funext fun a => by fin_cases a <;> rfl

/-- The body's arithmetic at row p and column q of a block: the self term plus the row's weight times the aggregate,
    plus the bias of the column. -/
theorem final_payload_apply (x0 : Vec Ideal S5000x128 .f32) (x3 : Vec Ideal S5000x1 .f32) (x1 : Vec Ideal S5000x128 .f32)
    (x2 : Vec Ideal S1x128 .f32) (p : Fin 5000) (q : Fin 128) :
    k3_pay1 x0 x3 x1 x2 (ix2 p q) = (x0 (ix2 p q) + x3 (ix2 p (0 : Fin 1)) * x1 (ix2 p q)) + x2 (ix2 (0 : Fin 1) q) := by
  unfold k3_pay1
  simp only [shapeCast_self]
  rw [addf_apply, addf_apply, mulf_apply, broadcastTo_a1_ab_apply, broadcastTo_1b_ab_apply]

/-- The whole-array function the last region leaves in its output: at row v and column k, the self term plus the
    row's weight times the aggregate, plus the bias of the column. -/
def finalArray (A B : S50000x128.Idx → EReal) (w : S50000x1.Idx → EReal) (b : S1x128.Idx → EReal) : S50000x128.Idx → EReal :=
  fun i => (A i + w (ix2 (n0 := 50000) (i 0) (0 : Fin 1)) * B i) + b (ix2 (0 : Fin 1) (n1 := 128) (i 1))

theorem finalArray_apply (A B : S50000x128.Idx → EReal) (w : S50000x1.Idx → EReal) (b : S1x128.Idx → EReal)
    (v : Fin 50000) (k : Fin 128) :
    finalArray A B w b (ix2 v k) = (A (ix2 v k) + w (ix2 v (0 : Fin 1)) * B (ix2 v k)) + b (ix2 (0 : Fin 1) k) := rfl

/-- The index maps over the grid: every row-blocked window is at block (t, 0) at point t, the bias row at block (0, 0). -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array function. -/
theorem flushed3_eq (c : Dev nD) (t : Fin cfg3.N) :
    (dat3 V c).flushed 4 t = ((cfg3.win 4).blk t).view.read (Elt Ideal)
      (finalArray (V c main_v35_0) (V c main_v45) (V c main_v12) (V c main_v14)) := by
  show (cfg3.win 4).cut (grid3.coords t) ((dat3 V c).after 4 t) = _
  rw [after3_4]
  unfold out3_4
  rw [View.canon_unit_zero zero_offsets3]
  simp only [View.ld_unit_zero (S := S5000x128) zero_offsets3, View.ld_unit_zero (S := S5000x1) zero_offsets3,
    View.ld_unit_zero (S := S1x128) zero_offsets3]
  obtain ⟨e00, e01, e10, e11, e20, e21, e30, e31, e40, e41⟩ := index_facts3 t
  funext j
  obtain ⟨p, q, rfl⟩ : ∃ (p : Fin 5000) (q : Fin 128), j = ix2 p q := ⟨j 0, j 1, eq_ix2 j⟩
  show k3_pay1 (iblk3 V c 0 t) (iblk3 V c 3 t) (iblk3 V c 1 t) (iblk3 V c 2 t) (ix2 p q)
      = finalArray (V c main_v35_0) (V c main_v45) (V c main_v12) (V c main_v14) (((cfg3.win 4).blk t).view.emb (ix2 p q))
  refine (final_payload_apply (iblk3 V c 0 t) (iblk3 V c 3 t) (iblk3 V c 1 t) (iblk3 V c 2 t) p q).trans ?_
  have h0 : iblk3 V c 0 t (ix2 p q) = V c main_v35_0 (((cfg3.win 4).blk t).view.emb (ix2 p q)) := by
    show V c main_v35_0 (((cfg3.win 0).blk t).view.emb (ix2 p q)) = _
    refine congrArg (V c main_v35_0) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 128 + 1 * q.val = win3_4.index t (1 : Fin 2) * 128 + 1 * q.val; omega
  have h1 : iblk3 V c 1 t (ix2 p q) = V c main_v45 (((cfg3.win 4).blk t).view.emb (ix2 p q)) := by
    show V c main_v45 (((cfg3.win 1).blk t).view.emb (ix2 p q)) = _
    refine congrArg (V c main_v45) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 128 + 1 * q.val = win3_4.index t (1 : Fin 2) * 128 + 1 * q.val; omega
  have h3 : iblk3 V c 3 t (ix2 p (0 : Fin 1))
      = V c main_v12 (ix2 (n0 := 50000) ((((cfg3.win 4).blk t).view.emb (ix2 p q)) 0) (0 : Fin 1)) := by
    show V c main_v12 (((cfg3.win 3).blk t).view.emb (ix2 p (0 : Fin 1))) = _
    refine congrArg (V c main_v12) (funext fun a => Fin.ext ?_)
    match a with
    | ⟨0, _⟩ => show win3_3.index t (0 : Fin 2) * 5000 + 1 * p.val = win3_4.index t (0 : Fin 2) * 5000 + 1 * p.val; omega
    | ⟨1, _⟩ => show win3_3.index t (1 : Fin 2) * 1 + 1 * 0 = 0; omega
  have h2 : iblk3 V c 2 t (ix2 (0 : Fin 1) q)
      = V c main_v14 (ix2 (0 : Fin 1) (n1 := 128) ((((cfg3.win 4).blk t).view.emb (ix2 p q)) 1)) := by
    show V c main_v14 (((cfg3.win 2).blk t).view.emb (ix2 (0 : Fin 1) q)) = _
    refine congrArg (V c main_v14) (funext fun a => Fin.ext ?_)
    match a with
    | ⟨0, _⟩ => show win3_2.index t (0 : Fin 2) * 1 + 1 * 0 = 0; omega
    | ⟨1, _⟩ => show win3_2.index t (1 : Fin 2) * 128 + 1 * q.val = win3_4.index t (1 : Fin 2) * 128 + 1 * q.val; omega
  rw [h0, h1, h2, h3]
  rfl

/-- An index of the output array is in point t's block iff each coordinate is in the block's range on its axis. -/
theorem mem_block3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v46).slice (win3_4.rect t)).set ↔ _
  rw [View.set_slice_whole, Rect.mem_set_unit]
  exact Iff.rfl

/-- Row r of the output array lies in the block of point r / 5000. -/
theorem cover3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  let t : Fin cfg3.N := ⟨(i 0).val / 5000, by omega⟩
  obtain ⟨-, -, -, -, -, -, -, -, e40, e41⟩ := index_facts3 t
  have ht : t.val = (i 0).val / 5000 := rfl
  refine ⟨t, flush3_4 t, ?_⟩
  rw [mem_block3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The output array after the last region is the whole-array function of the arrays the region finds. -/
theorem region3_array (c : Dev nD) :
    (dat3 V c).arrAt 4 cfg3.N = finalArray (V c main_v35_0) (V c main_v45) (V c main_v12) (V c main_v14) :=
  (dat3 V c).arrAt_eq_of_cover 4 (finalArray (V c main_v35_0) (V c main_v45) (V c main_v12) (V c main_v14))
    (fun t _ => flushed3_eq V c t) cover3

/-- The output array of the last region at row v and column k, with the arrays the region finds named. -/
theorem region3_value (c : Dev nD) (A B : S50000x128.Idx → EReal) (w : S50000x1.Idx → EReal) (b : S1x128.Idx → EReal)
    (hA : V c main_v35_0 = A) (hB : V c main_v45 = B) (hw : V c main_v12 = w) (hb : V c main_v14 = b)
    (v : Fin 50000) (k : Fin 128) :
    (dat3 V c).arrAt 4 cfg3.N (ix2 v k)
      = (A (ix2 v k) + w (ix2 v (0 : Fin 1)) * B (ix2 v k)) + b (ix2 (0 : Fin 1) k) := by
  rw [region3_array, hA, hB, hw, hb]
  rfl

end Cert.KernelIdeal.RegionValue

end
-- ==== Proof.KernelValue.lean ====
/-
  The idealized kernel's result, entry by entry: the contents of its result buffer at the last segment boundary are
  the specification's kernel arrangement of the argument arrays. The chain runs through the eight segments: the
  weights and index columns (first stretch), the scaled projection (region 0), the gather and segment sum (second
  stretch), the two column sums (region 1), the mean and variance rows (third stretch), normalisation, rectifier and
  second projection (region 2), the second gather and segment sum (fourth stretch), and the final sum (region 3).
-/
import proofs.«139979_j60576218742837_2_alg».proof.Proof.KernelRun
import proofs.«139979_j60576218742837_2_alg».proof.Proof.Hops
import proofs.«139979_j60576218742837_2_alg».proof.Proof.Stretch1
import proofs.«139979_j60576218742837_2_alg».proof.Proof.Region0
import proofs.«139979_j60576218742837_2_alg».proof.Proof.Region1
import proofs.«139979_j60576218742837_2_alg».proof.Proof.Region2
import proofs.«139979_j60576218742837_2_alg».proof.Proof.Region3

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.KernelIdeal.Stretch Cert.KernelIdeal.RegionValue

variable (m : (ℓ : Loc nD τ sig) → Buf (Elt Ideal) ℓ) (ρ : Dev nD → PrngReg) (c : Dev nD)

/-! ## The argument arrays -/

abbrev xA : S50000x128.Idx → EReal := m ((c : Thread nD τ).loc main_arg0)
abbrev eiA : IVec S2x800000 32 := m ((c : Thread nD τ).loc main_arg1)
abbrev w1A : S128x128.Idx → EReal := m ((c : Thread nD τ).loc main_arg2)
abbrev b1A : S128.Idx → EReal := m ((c : Thread nD τ).loc main_arg3)
abbrev w2A : S128x128.Idx → EReal := m ((c : Thread nD τ).loc main_arg4)
abbrev b2A : S128.Idx → EReal := m ((c : Thread nD τ).loc main_arg5)
abbrev gaA : S128.Idx → EReal := m ((c : Thread nD τ).loc main_arg6)
abbrev beA : S128.Idx → EReal := m ((c : Thread nD τ).loc main_arg7)

/-- The specification's inputs read off the argument arrays. -/
def xF (u : Fin 50000) (j : Fin 128) : EReal := xA m c (ix2 u j)
def w1F (j k : Fin 128) : EReal := w1A m c (ix2 j k)
def w2F (j k : Fin 128) : EReal := w2A m c (ix2 j k)
def b1F (k : Fin 128) : EReal := b1A m c (ix1 k)
def b2F (k : Fin 128) : EReal := b2A m c (ix1 k)
def gaF (k : Fin 128) : EReal := gaA m c (ix1 k)
def beF (k : Fin 128) : EReal := beA m c (ix1 k)
def sRow : Fin 850000 → Fin 50000 := Cert.Gcn.rowOf (wrapCol (srcW (eiA m c)))
def dTgt : Fin 850000 → Option (Fin 50000) := Cert.Gcn.tgtOf (dstCol (eiA m c))

/-! ## Boundary 1: after the first stretch -/

theorem at1_v12 : (V1 m ρ c main_v12 : S50000x1.Idx → EReal) = disCol (eiA m c) := v12_eq (W0 m ρ c)
theorem at1_v3 : (V1 m ρ c main_v3 : IVec S850000 32) = srcW (eiA m c) := v3_eq (W0 m ρ c)
theorem at1_v6 : (V1 m ρ c main_v6 : IVec S850000 32) = dstW (eiA m c) := v6_eq (W0 m ρ c)
theorem at1_v13 : (V1 m ρ c main_v13 : S1x128.Idx → EReal) = shapeCast S1x128 (b1A m c) shapeCasts_S128_S1x128 := v13_eq (W0 m ρ c)
theorem at1_v14 : (V1 m ρ c main_v14 : S1x128.Idx → EReal) = shapeCast S1x128 (b2A m c) shapeCasts_S128_S1x128 := v14_eq (W0 m ρ c)
theorem at1_v15 : (V1 m ρ c main_v15 : S1x128.Idx → EReal) = shapeCast S1x128 (gaA m c) shapeCasts_S128_S1x128 := v15_eq (W0 m ρ c)
theorem at1_v16 : (V1 m ρ c main_v16 : S1x128.Idx → EReal) = shapeCast S1x128 (beA m c) shapeCasts_S128_S1x128 := v16_eq (W0 m ρ c)

/-- A vector seen as a one-row array, read at `(0, k)`. -/
theorem row_apply (b : S128.Idx → EReal) (k : Fin 128) :
    shapeCast S1x128 b shapeCasts_S128_S1x128 (ix2 (0 : Fin 1) k) = b (ix1 k) :=
  shapeCast_a_1a_apply b shapeCasts_S128_S1x128 (0 : Fin 1) k

/-! ## Region 0: the scaled projection -/

/-- The first projection's array. -/
def proj1A : S50000x128.Idx → EReal := W2 m ρ c (Proc.devRef .tc main_v17)

theorem proj1A_apply (v : Fin 50000) (k : Fin 128) :
    proj1A m ρ c (ix2 v k) = Cert.Gcn.projK (dTgt m c) (xF m c) (w1F m c) v k := by
  have h := region0_value (V1 m ρ) c (xA m c) (w1A m c) (disCol (eiA m c))
    (keep_arg0_1_0 m ρ c) (keep_arg2_1_0 m ρ c) (at1_v12 m ρ c) v k
  rw [disCol_apply] at h
  exact (congrFun (W2_arr m ρ c 3) (ix2 v k)).trans h

/-! ## Second stretch: the first gather and segment sum -/

theorem at2_v3 : (W2 m ρ c (Proc.devRef .tc main_v3) : IVec S850000 32) = srcW (eiA m c) :=
  (keep_v3_2_1 m ρ c).trans (at1_v3 m ρ c)
theorem at2_v6 : (W2 m ρ c (Proc.devRef .tc main_v6) : IVec S850000 32) = dstW (eiA m c) :=
  (keep_v6_2_1 m ρ c).trans (at1_v6 m ρ c)

/-- The first aggregate's array. -/
def agg1A : S50000x128.Idx → EReal := segSum (proj1A m ρ c) (srcW (eiA m c)) (dstW (eiA m c))

theorem at3_v27 : (V3 m ρ c main_v27 : S50000x128.Idx → EReal) = agg1A m ρ c := by
  refine (v27_eq (W2 m ρ c)).trans ?_
  rw [at2_v3 m ρ c, at2_v6 m ρ c]; try rfl

theorem agg1A_apply (v : Fin 50000) (k : Fin 128) :
    agg1A m ρ c (ix2 v k) = Cert.Gcn.aggK (sRow m c) (dTgt m c) (xF m c) (w1F m c) v k := by
  refine (segSum_apply _ _ _ v k).trans ?_
  unfold Cert.Gcn.aggK
  exact Finset.sum_congr rfl fun e _ => proj1A_apply m ρ c _ k

/-! ## Region 1: the column sums of layer 1 before normalisation -/

theorem at3_v12 : (V3 m ρ c main_v12 : S50000x1.Idx → EReal) = disCol (eiA m c) :=
  (keep_v12_3_1 m ρ c).trans (at1_v12 m ρ c)
theorem at3_v13 : (V3 m ρ c main_v13 : S1x128.Idx → EReal) = shapeCast S1x128 (b1A m c) shapeCasts_S128_S1x128 :=
  (keep_v13_3_1 m ρ c).trans (at1_v13 m ρ c)

/-- Layer 1 before normalisation, in the block's spelling, is the specification's. -/
theorem pre_apply (v : Fin 50000) (k : Fin 128) :
    disCol (eiA m c) (ix2 v (0 : Fin 1)) * agg1A m ρ c (ix2 v k) + shapeCast S1x128 (b1A m c) shapeCasts_S128_S1x128 (ix2 (0 : Fin 1) k)
      = Cert.Gcn.hK (xF m c) (w1F m c) (b1F m c) (sRow m c) (dTgt m c) v k := by
  rw [disCol_apply, agg1A_apply, row_apply]
  rfl

/-- The column sums' arrays. -/
def sumA : S1x128.Idx → EReal := W4 m ρ c (Proc.devRef .tc main_v28_0)
def sumsqA : S1x128.Idx → EReal := W4 m ρ c (Proc.devRef .tc main_v28_1)

theorem sumA_apply (k : Fin 128) :
    sumA m ρ c (ix2 (0 : Fin 1) k) = ∑ v : Fin 50000, Cert.Gcn.hK (xF m c) (w1F m c) (b1F m c) (sRow m c) (dTgt m c) v k := by
  have h := region1_sum (V3 m ρ) c _ _ _ (at3_v12 m ρ c) (at3_v27 m ρ c) (at3_v13 m ρ c) k
  have e : sumA m ρ c = ((dat1 (V3 m ρ) c).arrAt 3 cfg1.N : S1x128.Idx → EReal) := W4_arr m ρ c 3
  rw [e, h]
  exact Finset.sum_congr rfl fun v _ => pre_apply m ρ c v k

theorem sumsqA_apply (k : Fin 128) :
    sumsqA m ρ c (ix2 (0 : Fin 1) k) = ∑ v : Fin 50000, Cert.Gcn.hK (xF m c) (w1F m c) (b1F m c) (sRow m c) (dTgt m c) v k
      * Cert.Gcn.hK (xF m c) (w1F m c) (b1F m c) (sRow m c) (dTgt m c) v k := by
  have h := region1_sumsq (V3 m ρ) c _ _ _ (at3_v12 m ρ c) (at3_v27 m ρ c) (at3_v13 m ρ c) k
  have e : sumsqA m ρ c = ((dat1 (V3 m ρ) c).arrAt 4 cfg1.N : S1x128.Idx → EReal) := W4_arr m ρ c 4
  rw [e, h]
  exact Finset.sum_congr rfl fun v _ => by rw [pre_apply m ρ c v k]

/-! ## Third stretch: the mean and variance rows -/

theorem at5_v30 : (V5 m ρ c main_v30 : S1x128.Idx → EReal) = Stretch.meanRow (sumA m ρ c) := v30_eq (W4 m ρ c)
theorem at5_v34 : (V5 m ρ c main_v34 : S1x128.Idx → EReal) = Stretch.varRow (sumA m ρ c) (sumsqA m ρ c) := v34_eq (W4 m ρ c)

theorem mean_apply (k : Fin 128) :
    Stretch.meanRow (sumA m ρ c) (ix2 (0 : Fin 1) k) = Cert.Gcn.muK (xF m c) (w1F m c) (b1F m c) (sRow m c) (dTgt m c) k := by
  rw [meanRow_apply, sumA_apply]; rfl

theorem var_apply (k : Fin 128) :
    Stretch.varRow (sumA m ρ c) (sumsqA m ρ c) (ix2 (0 : Fin 1) k) = Cert.Gcn.varK (xF m c) (w1F m c) (b1F m c) (sRow m c) (dTgt m c) k := by
  rw [varRow_apply, sumA_apply, sumsqA_apply]; rfl

/-! ## Region 2: normalisation, rectifier and the second projection -/

theorem at5_v12 : (V5 m ρ c main_v12 : S50000x1.Idx → EReal) = disCol (eiA m c) :=
  (keep_v12_5_1 m ρ c).trans (at1_v12 m ρ c)
theorem at5_v27 : (V5 m ρ c main_v27 : S50000x128.Idx → EReal) = agg1A m ρ c :=
  (keep_v27_5_3 m ρ c).trans (at3_v27 m ρ c)
theorem at5_v13 : (V5 m ρ c main_v13 : S1x128.Idx → EReal) = shapeCast S1x128 (b1A m c) shapeCasts_S128_S1x128 :=
  (keep_v13_5_1 m ρ c).trans (at1_v13 m ρ c)
theorem at5_v15 : (V5 m ρ c main_v15 : S1x128.Idx → EReal) = shapeCast S1x128 (gaA m c) shapeCasts_S128_S1x128 :=
  (keep_v15_5_1 m ρ c).trans (at1_v15 m ρ c)
theorem at5_v16 : (V5 m ρ c main_v16 : S1x128.Idx → EReal) = shapeCast S1x128 (beA m c) shapeCasts_S128_S1x128 :=
  (keep_v16_5_1 m ρ c).trans (at1_v16 m ρ c)
theorem at5_arg4 : (V5 m ρ c main_arg4 : S128x128.Idx → EReal) = w2A m c := keep_arg4_5_0 m ρ c

/-- The block's normalised and rectified entry is the specification's layer 1. -/
theorem act_apply (v : Fin 50000) (k : Fin 128) : Region2.act2 (V5 m ρ) c v k = (Cert.Gcn.h1K (xF m c) (w1F m c) (b1F m c) (gaF m c) (beF m c) (sRow m c) (dTgt m c)) v k := by
  have e12 : Region2.nodeWeight (V5 m ρ) c = disCol (eiA m c) := at5_v12 m ρ c
  have e27 : Region2.aggRows (V5 m ρ) c = agg1A m ρ c := at5_v27 m ρ c
  have e13 : Region2.biasRow (V5 m ρ) c = shapeCast S1x128 (b1A m c) shapeCasts_S128_S1x128 := at5_v13 m ρ c
  have e30 : Region2.meanRow (V5 m ρ) c = Stretch.meanRow (sumA m ρ c) := at5_v30 m ρ c
  have e34 : Region2.varRow (V5 m ρ) c = Stretch.varRow (sumA m ρ c) (sumsqA m ρ c) := at5_v34 m ρ c
  have e15 : Region2.gammaRow (V5 m ρ) c = shapeCast S1x128 (gaA m c) shapeCasts_S128_S1x128 := at5_v15 m ρ c
  have e16 : Region2.betaRow (V5 m ρ) c = shapeCast S1x128 (beA m c) shapeCasts_S128_S1x128 := at5_v16 m ρ c
  show max (Region2.gammaRow (V5 m ρ) c (ix2 (0 : Fin 1) k)
      * ((Region2.nodeWeight (V5 m ρ) c (ix2 v (0 : Fin 1)) * Region2.aggRows (V5 m ρ) c (ix2 v k) + Region2.biasRow (V5 m ρ) c (ix2 (0 : Fin 1) k))
          - Region2.meanRow (V5 m ρ) c (ix2 (0 : Fin 1) k))
      * Ideal.rsqrt (Region2.varRow (V5 m ρ) c (ix2 (0 : Fin 1) k) + Cert.Gcn.cEps) + Region2.betaRow (V5 m ρ) c (ix2 (0 : Fin 1) k)) 0 = _
  rw [e12, e27, e13, e30, e34, e15, e16, pre_apply, mean_apply, var_apply, row_apply, row_apply]
  rfl

/-- Layer 1's array and the second projection's array. -/
def h1A : S50000x128.Idx → EReal := W6 m ρ c (Proc.devRef .tc main_v35_0)
def proj2A : S50000x128.Idx → EReal := W6 m ρ c (Proc.devRef .tc main_v35_1)

theorem h1A_apply (v : Fin 50000) (k : Fin 128) : h1A m ρ c (ix2 v k) = (Cert.Gcn.h1K (xF m c) (w1F m c) (b1F m c) (gaF m c) (beF m c) (sRow m c) (dTgt m c)) v k :=
  ((congrFun (W6_arr m ρ c 8) (ix2 v k)).trans (region2_act (V5 m ρ) c v k)).trans (act_apply m ρ c v k)

theorem proj2A_apply (v : Fin 50000) (k : Fin 128) :
    proj2A m ρ c (ix2 v k) = Cert.Gcn.projK (dTgt m c) (Cert.Gcn.h1K (xF m c) (w1F m c) (b1F m c) (gaF m c) (beF m c) (sRow m c) (dTgt m c)) (w2F m c) v k := by
  refine ((congrFun (W6_arr m ρ c 9) (ix2 v k)).trans (region2_proj (V5 m ρ) c v k)).trans ?_
  have e12 : Region2.nodeWeight (V5 m ρ) c = disCol (eiA m c) := at5_v12 m ρ c
  have e4 : Region2.weight2 (V5 m ρ) c = w2A m c := at5_arg4 m ρ c
  show (∑ j : Fin 128, Region2.act2 (V5 m ρ) c v j * Region2.weight2 (V5 m ρ) c (ix2 j k)) * Region2.nodeWeight (V5 m ρ) c (ix2 v (0 : Fin 1)) = _
  rw [e12, e4, disCol_apply]
  have hs : (∑ j : Fin 128, Region2.act2 (V5 m ρ) c v j * w2A m c (ix2 j k))
      = ∑ j : Fin 128, (Cert.Gcn.h1K (xF m c) (w1F m c) (b1F m c) (gaF m c) (beF m c) (sRow m c) (dTgt m c)) v j * w2F m c j k :=
    Finset.sum_congr rfl fun j _ => by rw [act_apply m ρ c v j]; rfl
  rw [hs]
  rfl

/-! ## Fourth stretch: the second gather and segment sum -/

theorem at6_v3 : (W6 m ρ c (Proc.devRef .tc main_v3) : IVec S850000 32) = srcW (eiA m c) :=
  (keep_v3_6_1 m ρ c).trans (at1_v3 m ρ c)
theorem at6_v6 : (W6 m ρ c (Proc.devRef .tc main_v6) : IVec S850000 32) = dstW (eiA m c) :=
  (keep_v6_6_1 m ρ c).trans (at1_v6 m ρ c)

/-- The second aggregate's array. -/
def agg2A : S50000x128.Idx → EReal := segSum (proj2A m ρ c) (srcW (eiA m c)) (dstW (eiA m c))

theorem at7_v45 : (V7 m ρ c main_v45 : S50000x128.Idx → EReal) = agg2A m ρ c := by
  refine (v45_eq (W6 m ρ c)).trans ?_
  rw [at6_v3 m ρ c, at6_v6 m ρ c]; try rfl

theorem agg2A_apply (v : Fin 50000) (k : Fin 128) :
    agg2A m ρ c (ix2 v k) = Cert.Gcn.aggK (sRow m c) (dTgt m c) (Cert.Gcn.h1K (xF m c) (w1F m c) (b1F m c) (gaF m c) (beF m c) (sRow m c) (dTgt m c)) (w2F m c) v k := by
  refine (segSum_apply _ _ _ v k).trans ?_
  unfold Cert.Gcn.aggK
  exact Finset.sum_congr rfl fun e _ => proj2A_apply m ρ c _ k

/-! ## Region 3: the result -/

theorem at7_v35_0 : (V7 m ρ c main_v35_0 : S50000x128.Idx → EReal) = h1A m ρ c := keep_v35_0_7_6 m ρ c
theorem at7_v12 : (V7 m ρ c main_v12 : S50000x1.Idx → EReal) = disCol (eiA m c) :=
  (keep_v12_7_1 m ρ c).trans (at1_v12 m ρ c)
theorem at7_v14 : (V7 m ρ c main_v14 : S1x128.Idx → EReal) = shapeCast S1x128 (b2A m c) shapeCasts_S128_S1x128 :=
  (keep_v14_7_1 m ρ c).trans (at1_v14 m ρ c)

/-- The result's array: the result buffer's contents at the last boundary. -/
def outA : S50000x128.Idx → EReal := W8 m ρ c (Proc.devRef .tc main_v46)

/-- THE KERNEL'S VALUE: entry `(v, k)` of the result buffer at the last boundary is the specification's kernel
    arrangement of the argument arrays. -/
theorem result_apply (v : Fin 50000) (k : Fin 128) :
    outA m ρ c (ix2 v k)
      = Cert.Gcn.outK (xF m c) (w1F m c) (w2F m c) (b1F m c) (b2F m c) (gaF m c) (beF m c) (sRow m c) (dTgt m c) v k := by
  have h := region3_value (V7 m ρ) c _ _ _ _ (at7_v35_0 m ρ c) (at7_v45 m ρ c) (at7_v12 m ρ c) (at7_v14 m ρ c) v k
  have e : outA m ρ c = ((dat3 (V7 m ρ) c).arrAt 4 cfg3.N : S50000x128.Idx → EReal) := W8_arr m ρ c 4
  rw [e, h, h1A_apply, disCol_apply, agg2A_apply, row_apply]
  rfl

end Cert.KernelIdeal.KValue

end
-- ==== Proof.RefValue1.lean ====
/-
  The reference program's result as one term of its arguments' contents: the three index columns the program computes from
  the edge array, the nodes' weights, the edges' weights, one layer, the batch statistics, and the normalised and rectified
  first layer plus the second layer of it.
-/
import proofs.«139979_j60576218742837_2_alg».proof.Proof.Gen.ReferenceIdeal
import Idealize.ShloMosaic.PureOps
import Idealize.ShloMosaic.PureOps.Ideal

noncomputable section

namespace Cert.ReferenceIdeal.RefValue

open Cert.ReferenceIdeal Cert.ReferenceIdeal.Gen Idealize.ShloMosaic

/-! ## The three index columns, as the program computes them from the edge array -/

/-- The edges' source words: row 0 of the edge array, then one self-loop per node. -/
def srcWords (ei : IVec S2x800000 32) : IVec S850000 32 :=
  concatenate S850000 0
    [⟨S800000, shapeCast S800000 (extractStridedSlice S1x800000 ![0, 0] ei slices_S2x800000_S1x800000_0_0) shapeCasts_S1x800000_S800000⟩,
     ⟨S50000, iotaInDim S50000 32 0⟩] concatenates_S800000_S50000_S850000_d0

/-- The edges' destination words: row 1 of the edge array, then one self-loop per node. -/
def dstWords (ei : IVec S2x800000 32) : IVec S850000 32 :=
  concatenate S850000 0
    [⟨S800000, shapeCast S800000 (extractStridedSlice S1x800000 ![1, 0] ei slices_S2x800000_S1x800000_1_0) shapeCasts_S1x800000_S800000⟩,
     ⟨S50000, iotaInDim S50000 32 0⟩] concatenates_S800000_S50000_S850000_d0

/-- A gather's index column: a negative word is moved up by the table's length once, then the words stand as a column. -/
def wrapCol (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)

/-- The column the gathers by source read. -/
def srcCol (ei : IVec S2x800000 32) : IVec S850000x1 32 := wrapCol (srcWords ei)
/-- The column the gather by destination reads. -/
def dstNCol (ei : IVec S2x800000 32) : IVec S850000x1 32 := wrapCol (dstWords ei)
/-- The column the scatters read: the destination words as they are. -/
def dstCol (ei : IVec S2x800000 32) : IVec S850000x1 32 :=
  broadcastInDim S850000x1 ![0] bcast_S850000_S850000x1_0 (dstWords ei)

/-! ## The program's result as one term of its arguments -/

section Closed

/-- A vector of length 128 copied into every row. -/
def rowB (b : FVec Ideal S128 .f32) : FVec Ideal S50000x128 .f32 :=
  broadcastInDim S50000x128 ![0, 1] bcast_S1x128_S50000x128_0_1 (broadcastInDim S1x128 ![1] bcast_S128_S1x128_1 b)

/-- The nodes' weights: one is added into a node per edge whose destination word addresses it, then the inverse square
    root. -/
def disV (ei : IVec S2x800000 32) : FVec Ideal S50000 .f32 :=
  Host.rsqrt (Host.scatterAdd (F := Ideal) scatter_S50000_S850000x1_S850000_n_0_0_1
    (broadcastInDim S50000 ![] bcast_S_S50000 (constant (F := Ideal) S_ .f32 0x00000000#32)) (dstCol ei)
    (broadcastInDim S850000 ![] bcast_S_S850000 (constant (F := Ideal) S_ .f32 0x3F800000#32)))

/-- The edges' weights, as a column: the weight of the source's node times the weight of the destination's. -/
def ewV (ei : IVec S2x800000 32) : FVec Ideal S850000x1 .f32 :=
  broadcastInDim S850000x1 ![0] bcast_S850000_S850000x1_0
    (mulf (Host.gather gather_S50000_S850000x1_S850000_n_0_n_n_0_1_1 (disV ei) (srcCol ei))
      (Host.gather gather_S50000_S850000x1_S850000_n_0_n_n_0_1_1 (disV ei) (dstNCol ei)))

/-- One layer before normalisation: project, gather the rows by source, weight each by its edge, add them into the
    destinations, add the bias. -/
def layerV (ei : IVec S2x800000 32) (h : FVec Ideal S50000x128 .f32) (W : FVec Ideal S128x128 .f32) (b : FVec Ideal S128 .f32) :
    FVec Ideal S50000x128 .f32 :=
  addf (Host.scatterAdd (F := Ideal) scatter_S50000x128_S850000x1_S850000x128_1_0_0_1
      (broadcastInDim S50000x128 ![] bcast_S_S50000x128 (constant (F := Ideal) S_ .f32 0x00000000#32)) (dstCol ei)
      (mulf (Host.gather gather_S50000x128_S850000x1_S850000x128_1_0_n_n_0_1_1128
          (Host.dotGeneral (F := Ideal) dot_S50000x128_S128x128_S50000x128_1_0_0_1_n_n none h W) (srcCol ei))
        (broadcastInDim S850000x128 ![0, 1] bcast_S850000x1_S850000x128_0_1 (ewV ei))))
    (rowB b)

/-- The batch mean of each feature. -/
def meanV (h : FVec Ideal S50000x128 .f32) : FVec Ideal S128 .f32 :=
  Host.divf (Host.reduceAdd (F := Ideal) h (constant (F := Ideal) S_ .f32 0x00000000#32) reducesTo_S50000x128_S128_d0 h_S_)
    (broadcastInDim S128 ![] bcast_S_S128 (constant (F := Ideal) S_ .f32 0x47435000#32))

/-- The divisor of the variance: the number of nodes less zero degrees of freedom. -/
def dofV : FVec Ideal S_ .f32 :=
  subf (constant (F := Ideal) S_ .f32 0x47435000#32) (sitofp (F := Ideal) .f32 (constantI S_ 32 0#32))

/-- The deviations from the batch mean, as the variance computes them. -/
def devV (h : FVec Ideal S50000x128 .f32) : FVec Ideal S50000x128 .f32 :=
  subf h (broadcastInDim S50000x128 ![0, 1] bcast_S1x128_S50000x128_0_1
    (Host.divf (broadcastInDim S1x128 ![1] bcast_S128_S1x128_1
        (Host.reduceAdd (F := Ideal) h (constant (F := Ideal) S_ .f32 0x00000000#32) reducesTo_S50000x128_S128_d0 h_S_))
      (broadcastInDim S1x128 ![] bcast_S_S1x128 (constant (F := Ideal) S_ .f32 0x47435000#32))))

/-- The batch variance of each feature: the mean of the squared deviations where the divisor is positive. -/
def varV (h : FVec Ideal S50000x128 .f32) : FVec Ideal S128 .f32 :=
  select (broadcastInDim S128 ![] bcast_S_S128 (cmpf .ogt dofV (constant (F := Ideal) S_ .f32 0x00000000#32)))
    (Host.divf (Host.reduceAdd (F := Ideal) (mulf (devV h) (devV h)) (constant (F := Ideal) S_ .f32 0x00000000#32)
        reducesTo_S50000x128_S128_d0 h_S_)
      (broadcastInDim S128 ![] bcast_S_S128 dofV))
    (broadcastInDim S128 ![] bcast_S_S128 (id (constant (F := Ideal) S_ .f32 0x7FC00000#32)))

/-- Batch normalisation with the scale and shift, then the rectifier. -/
def actV (h : FVec Ideal S50000x128 .f32) (gam bet : FVec Ideal S128 .f32) : FVec Ideal S50000x128 .f32 :=
  maximumf
    (addf (mulf (mulf (rowB gam) (subf h (rowB (meanV h))))
        (rowB (Host.rsqrt (addf (varV h) (broadcastInDim S128 ![] bcast_S_S128 (constant (F := Ideal) S_ .f32 0x3727C5AC#32))))))
      (rowB bet))
    (broadcastInDim S50000x128 ![] bcast_S_S50000x128 (constant (F := Ideal) S_ .f32 0x00000000#32))

/-- The program's result: the first layer normalised and rectified, plus the second layer of it. -/
def outV (x : FVec Ideal S50000x128 .f32) (ei : IVec S2x800000 32) (W1 : FVec Ideal S128x128 .f32) (b1 : FVec Ideal S128 .f32)
    (W2 : FVec Ideal S128x128 .f32) (b2 gam bet : FVec Ideal S128 .f32) : FVec Ideal S50000x128 .f32 :=
  addf (actV (layerV ei x W1 b1) gam bet) (layerV ei (actV (layerV ei x W1 b1) gam bet) W2 b2)

end Closed

/-! ## The same stages over the words, the weights and the statistics as given

The program computes the source and destination words once, the edges' weights once, and the batch statistics once, and
reads them again later. Each stage is stated here over what it reads, so that a stretch of the program can be read by
itself. -/

section Stages

/-- The words as a column, as they are. -/
def wordsCol (w : IVec S850000 32) : IVec S850000x1 32 := broadcastInDim S850000x1 ![0] bcast_S850000_S850000x1_0 w

/-- The nodes' weights from the destination words. -/
def disG (dw : IVec S850000 32) : FVec Ideal S50000 .f32 :=
  Host.rsqrt (Host.scatterAdd (F := Ideal) scatter_S50000_S850000x1_S850000_n_0_0_1
    (broadcastInDim S50000 ![] bcast_S_S50000 (constant (F := Ideal) S_ .f32 0x00000000#32)) (wordsCol dw)
    (broadcastInDim S850000 ![] bcast_S_S850000 (constant (F := Ideal) S_ .f32 0x3F800000#32)))

/-- The edges' weights from the source and destination words. -/
def ewG (sw dw : IVec S850000 32) : FVec Ideal S850000x1 .f32 :=
  broadcastInDim S850000x1 ![0] bcast_S850000_S850000x1_0
    (mulf (Host.gather gather_S50000_S850000x1_S850000_n_0_n_n_0_1_1 (disG dw) (wrapCol sw))
      (Host.gather gather_S50000_S850000x1_S850000_n_0_n_n_0_1_1 (disG dw) (wrapCol dw)))

/-- One layer from the words and the edges' weights. -/
def layerG (sw dw : IVec S850000 32) (ew : FVec Ideal S850000x1 .f32) (h : FVec Ideal S50000x128 .f32)
    (W : FVec Ideal S128x128 .f32) (b : FVec Ideal S128 .f32) : FVec Ideal S50000x128 .f32 :=
  addf (Host.scatterAdd (F := Ideal) scatter_S50000x128_S850000x1_S850000x128_1_0_0_1
      (broadcastInDim S50000x128 ![] bcast_S_S50000x128 (constant (F := Ideal) S_ .f32 0x00000000#32)) (wordsCol dw)
      (mulf (Host.gather gather_S50000x128_S850000x1_S850000x128_1_0_n_n_0_1_1128
          (Host.dotGeneral (F := Ideal) dot_S50000x128_S128x128_S50000x128_1_0_0_1_n_n none h W) (wrapCol sw))
        (broadcastInDim S850000x128 ![0, 1] bcast_S850000x1_S850000x128_0_1 ew)))
    (rowB b)

/-- The variance's divisor from the degrees-of-freedom word. -/
def dofG (c : IVec S_ 32) : FVec Ideal S_ .f32 :=
  subf (constant (F := Ideal) S_ .f32 0x47435000#32) (sitofp (F := Ideal) .f32 c)

/-- The batch variance from the degrees-of-freedom word. -/
def varG (h : FVec Ideal S50000x128 .f32) (c : IVec S_ 32) : FVec Ideal S128 .f32 :=
  select (broadcastInDim S128 ![] bcast_S_S128 (cmpf .ogt (dofG c) (constant (F := Ideal) S_ .f32 0x00000000#32)))
    (Host.divf (Host.reduceAdd (F := Ideal) (mulf (devV h) (devV h)) (constant (F := Ideal) S_ .f32 0x00000000#32)
        reducesTo_S50000x128_S128_d0 h_S_)
      (broadcastInDim S128 ![] bcast_S_S128 (dofG c)))
    (broadcastInDim S128 ![] bcast_S_S128 (id (constant (F := Ideal) S_ .f32 0x7FC00000#32)))

/-- Normalisation and the rectifier from the statistics. -/
def actG (h : FVec Ideal S50000x128 .f32) (m var gam bet : FVec Ideal S128 .f32) : FVec Ideal S50000x128 .f32 :=
  maximumf
    (addf (mulf (mulf (rowB gam) (subf h (rowB m)))
        (rowB (Host.rsqrt (addf var (broadcastInDim S128 ![] bcast_S_S128 (constant (F := Ideal) S_ .f32 0x3727C5AC#32))))))
      (rowB bet))
    (broadcastInDim S50000x128 ![] bcast_S_S50000x128 (constant (F := Ideal) S_ .f32 0x00000000#32))

theorem ewG_words (ei : IVec S2x800000 32) : ewG (srcWords ei) (dstWords ei) = ewV ei := rfl
theorem layerG_words (ei : IVec S2x800000 32) (h : FVec Ideal S50000x128 .f32) (W : FVec Ideal S128x128 .f32) (b : FVec Ideal S128 .f32) :
    layerG (srcWords ei) (dstWords ei) (ewV ei) h W b = layerV ei h W b := rfl
theorem varG_zero (h : FVec Ideal S50000x128 .f32) : varG h (constantI S_ 32 0#32) = varV h := rfl
theorem actG_stats (h : FVec Ideal S50000x128 .f32) (gam bet : FVec Ideal S128 .f32) :
    actG h (meanV h) (varV h) gam bet = actV h gam bet := rfl

end Stages

end Cert.ReferenceIdeal.RefValue

end
-- ==== Proof.RefRun.lean ====
/-
  The reference program as one straight line: the operations of its main function in order, with the operations of
  the three outlined functions (the batch variance, the select inside it, the rectifier) written at their call sites
  over the buffers each call names. Every fair execution of the main function terminates with each buffer holding
  the fold of these operations over the contents at launch.
-/
import proofs.«139979_j60576218742837_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The main function's 120 operations in order: its own, the batch variance's twenty-two (the select's three the last
    of them) after the mean, and the rectifier's three before the second projection. -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S850000 ![] bcast_S_S850000 : (⟨S_, .i32⟩ : BufTy).Contents (Elt F) → (⟨S850000, .i32⟩ : BufTy).Contents (Elt F)),
    StableHlo.binary main_v3 main_v12 main_v13 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v14 (broadcastInDim S850000 ![] bcast_S_S850000 : (⟨S_, .i32⟩ : BufTy).Contents (Elt F) → (⟨S850000, .i32⟩ : BufTy).Contents (Elt F)),
    StableHlo.binary main_v3 main_v14 main_v15 (addi : (⟨S850000, .i32⟩ : BufTy).Contents (Elt F) → (⟨S850000, .i32⟩ : BufTy).Contents (Elt F) → (⟨S850000, .i32⟩ : BufTy).Contents (Elt F)),
    StableHlo.ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v16 main_v17 (broadcastInDim S850000x1 ![0] bcast_S850000_S850000x1_0 : (⟨S850000, .i32⟩ : BufTy).Contents (Elt F) → (⟨S850000x1, .i32⟩ : BufTy).Contents (Elt F)),
    StableHlo.binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v18 main_v25 main_v26 (mulf : (⟨S850000, .f32⟩ : BufTy).Contents (Elt F) → (⟨S850000, .f32⟩ : BufTy).Contents (Elt F) → (⟨S850000, .f32⟩ : BufTy).Contents (Elt F)),
    StableHlo.unary main_v26 main_v27 (broadcastInDim S850000x1 ![0] bcast_S850000_S850000x1_0 : (⟨S850000, .f32⟩ : BufTy).Contents (Elt F) → (⟨S850000x1, .f32⟩ : BufTy).Contents (Elt F)),
    StableHlo.binary main_arg0 main_arg2 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_4 (constantI S_ 32 0#32),
    StableHlo.unary main_c_4 main_v29 (broadcastInDim S850000 ![] bcast_S_S850000 : (⟨S_, .i32⟩ : BufTy).Contents (Elt F) → (⟨S850000, .i32⟩ : BufTy).Contents (Elt F)),
    StableHlo.binary main_v3 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v31 (broadcastInDim S850000 ![] bcast_S_S850000 : (⟨S_, .i32⟩ : BufTy).Contents (Elt F) → (⟨S850000, .i32⟩ : BufTy).Contents (Elt F)),
    StableHlo.binary main_v3 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v28 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v27 main_v36 (broadcastInDim S850000x128 ![0, 1] bcast_S850000x1_S850000x128_0_1 : (⟨S850000x1, .f32⟩ : BufTy).Contents (Elt F) → (⟨S850000x128, .f32⟩ : BufTy).Contents (Elt F)),
    StableHlo.binary main_v35 main_v36 main_v37 (mulf : (⟨S850000x128, .f32⟩ : BufTy).Contents (Elt F) → (⟨S850000x128, .f32⟩ : BufTy).Contents (Elt F) → (⟨S850000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x00000000#32),
    StableHlo.binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_8 (constant S_ .f32 0x47435000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call0.cst (constant S_ .f32 0x00000000#32),
    StableHlo.TRef.binary (.of main_v43) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (subf : (⟨S50000x128, .f32⟩ : BufTy).Contents (Elt F) → (⟨S50000x128, .f32⟩ : BufTy).Contents (Elt F) → (⟨S50000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v50 main_v53 (mulf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v54 (broadcastInDim S128 ![] bcast_S_S128 : (⟨S_, .f32⟩ : BufTy).Contents (Elt F) → (⟨S128, .f32⟩ : BufTy).Contents (Elt F)),
    StableHlo.binary main_v47 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg7 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v62) main_call1.v0 main_call1.v1 maximumf,
    StableHlo.binary main_v63 main_arg4 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v27 main_v72 (broadcastInDim S850000x128 ![0, 1] bcast_S850000x1_S850000x128_0_1 : (⟨S850000x1, .f32⟩ : BufTy).Contents (Elt F) → (⟨S850000x128, .f32⟩ : BufTy).Contents (Elt F)),
    StableHlo.binary main_v71 main_v72 main_v73 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v74 (broadcastInDim S50000x128 ![] bcast_S_S50000x128 : (⟨S_, .f32⟩ : BufTy).Contents (Elt F) → (⟨S50000x128, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v63 main_v79 main_v80 (addf : (⟨S50000x128, .f32⟩ : BufTy).Contents (Elt F) → (⟨S50000x128, .f32⟩ : BufTy).Contents (Elt F) → (⟨S50000x128, .f32⟩ : BufTy).Contents (Elt F)) ]

set_option maxRecDepth 4096 in
set_option maxHeartbeats 4000000 in
/-- The main function is that straight line: the two windows and the outlined functions unfolded at their calls, both
    sides are one chain of steps once the sequencing is reassociated. -/
theorem main_eq (c : Dev nD) : main (F := F) c = seq ops := by
  simp only [main, main_part0, main_part1, fn_var.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..⟩

/-- On the compiled mesh, for any float values, from any memory with zero counters: every weakly fair execution of the
    main function terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibTypedRefs.lean ====
/-
  A typed reference moves a value between the tensor type it carries and its buffer's own type along the equation between
  the two. Moving a value to the buffer's type and back gives the value: the two transports compose to the identity.
-/
import Idealize.ShloMosaic.Lib.StableHlo

namespace Idealize.ShloMosaic.StableHlo.TRef

variable {sig : RefSig} {Val : EltTy → Type} {T : BufTy}

/-- Contents written through a typed reference read back through it unchanged. -/
theorem ofBuf_toBuf (x : TRef sig T) (v : T.Contents Val) : x.ofBuf (x.toBuf v) = v := by
  obtain ⟨r, rfl, h2, h3⟩ := x
  rfl

end Idealize.ShloMosaic.StableHlo.TRef
-- ==== Proof.RefValue2.lean ====
/-
  The fold of the reference program's operations at its result buffer is the closed term of its arguments' contents.

  The line is read in seven stretches, each from arbitrary contents: the words, the weights, the first layer, the mean,
  the variance, the normalisation, the second layer. A stretch's fold at the buffer it computes is that stage over the
  buffers it reads; a buffer a stretch does not write keeps its contents through it. The whole fold is the stretches'
  folds one after the other.
-/
import proofs.«139979_j60576218742837_2_alg».proof.Proof.RefRun
import proofs.«139979_j60576218742837_2_alg».proof.Proof.RefValue1
import proofs.«139979_j60576218742837_2_alg».proof.Proof.LibTypedRefs

noncomputable section

namespace Cert.ReferenceIdeal.RefValue

open Cert.ReferenceIdeal Cert.ReferenceIdeal.Gen Idealize.ShloMosaic Idealize.ShloMosaic.TcCoe Idealize.SL.Sem Idealize.ShloMosaic.StableHlo

/-- A line run after another folds the second over the first's fold. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- One operation's written buffer is in the stretch's list. -/
local macro "one_write" : tactic =>
  `(tactic| (simp only [nullary_writes, unary_writes, binary_writes, ternary_writes, reshape_writes, Finset.singleton_subset_iff,
      List.mem_toFinset]; exact List.mem_map_of_mem (by decide)))

/-! ## The stretches -/

section Stretches

variable {F : FTy → Type} [FloatOps F]

/-- Stretch 1: the source and destination words. -/
abbrev win1 : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The buffers stretch 1 writes. -/
abbrev win1_W : List (Ref sig .tc) := [main_v0, main_v1, main_v2, main_v3, main_v4, main_v5, main_v6]

theorem win1_writes : (win1 (F := F)).Forall fun op => op.writes ⊆ (win1_W.map (Proc.devRef (τ := τ) .tc)).toFinset := by
  simp only [List.Forall]
  exact ⟨by one_write, by one_write, by one_write, by one_write, by one_write, by one_write, by one_write⟩

/-- A buffer stretch 1 does not write keeps its contents through it. -/
theorem keep1 (W : Valuation τ sig (Elt F)) (r : Ref sig .tc) (h : r ∉ win1_W) :
    after (win1 (F := F)) W (Proc.devRef .tc r) = W (Proc.devRef .tc r) :=
  after_of_writes_sub (win1 (F := F)) W win1_writes h

/-- Stretch 2: the nodes' and the edges' weights. -/
abbrev win2 : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.unary main_v10 main_v11 (Host.rsqrt : (⟨S50000, .f32⟩ : BufTy).Contents (Elt F) → (⟨S50000, .f32⟩ : BufTy).Contents (Elt F)),
    StableHlo.nullary main_c (constantI S_ 32 0#32),
    StableHlo.unary main_c main_v12 (broadcastInDim S850000 ![] bcast_S_S850000 : (⟨S_, .i32⟩ : BufTy).Contents (Elt F) → (⟨S850000, .i32⟩ : BufTy).Contents (Elt F)),
    StableHlo.binary main_v3 main_v12 main_v13 (cmpi .slt : (⟨S850000, .i32⟩ : BufTy).Contents (Elt F) → (⟨S850000, .i32⟩ : BufTy).Contents (Elt F) → (⟨S850000, .i1⟩ : BufTy).Contents (Elt F)),
    StableHlo.nullary main_c_1 (constantI S_ 32 50000#32),
    StableHlo.unary main_c_1 main_v14 (broadcastInDim S850000 ![] bcast_S_S850000 : (⟨S_, .i32⟩ : BufTy).Contents (Elt F) → (⟨S850000, .i32⟩ : BufTy).Contents (Elt F)),
    StableHlo.binary main_v3 main_v14 main_v15 (addi : (⟨S850000, .i32⟩ : BufTy).Contents (Elt F) → (⟨S850000, .i32⟩ : BufTy).Contents (Elt F) → (⟨S850000, .i32⟩ : BufTy).Contents (Elt F)),
    StableHlo.ternary main_v13 main_v15 main_v3 main_v16 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v16 main_v17 (broadcastInDim S850000x1 ![0] bcast_S850000_S850000x1_0 : (⟨S850000, .i32⟩ : BufTy).Contents (Elt F) → (⟨S850000x1, .i32⟩ : BufTy).Contents (Elt F)),
    StableHlo.binary main_v11 main_v17 main_v18 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_2 (constantI S_ 32 0#32),
    StableHlo.unary main_c_2 main_v19 (broadcastInDim S850000 ![] bcast_S_S850000 : (⟨S_, .i32⟩ : BufTy).Contents (Elt F) → (⟨S850000, .i32⟩ : BufTy).Contents (Elt F)),
    StableHlo.binary main_v6 main_v19 main_v20 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v21 (broadcastInDim S850000 ![] bcast_S_S850000 : (⟨S_, .i32⟩ : BufTy).Contents (Elt F) → (⟨S850000, .i32⟩ : BufTy).Contents (Elt F)),
    StableHlo.binary main_v6 main_v21 main_v22 (addi : (⟨S850000, .i32⟩ : BufTy).Contents (Elt F) → (⟨S850000, .i32⟩ : BufTy).Contents (Elt F) → (⟨S850000, .i32⟩ : BufTy).Contents (Elt F)),
    StableHlo.ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v23 main_v24 (broadcastInDim S850000x1 ![0] bcast_S850000_S850000x1_0 : (⟨S850000, .i32⟩ : BufTy).Contents (Elt F) → (⟨S850000x1, .i32⟩ : BufTy).Contents (Elt F)),
    StableHlo.binary main_v11 main_v24 main_v25 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v18 main_v25 main_v26 (mulf : (⟨S850000, .f32⟩ : BufTy).Contents (Elt F) → (⟨S850000, .f32⟩ : BufTy).Contents (Elt F) → (⟨S850000, .f32⟩ : BufTy).Contents (Elt F)),
    StableHlo.unary main_v26 main_v27 (broadcastInDim S850000x1 ![0] bcast_S850000_S850000x1_0 : (⟨S850000, .f32⟩ : BufTy).Contents (Elt F) → (⟨S850000x1, .f32⟩ : BufTy).Contents (Elt F)) ]

/-- The buffers stretch 2 writes. -/
abbrev win2_W : List (Ref sig .tc) := [main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27]

theorem win2_writes : (win2 (F := F)).Forall fun op => op.writes ⊆ (win2_W.map (Proc.devRef (τ := τ) .tc)).toFinset := by
  simp only [List.Forall]
  exact ⟨by one_write, by one_write, by one_write, by one_write, by one_write, by one_write, by one_write, by one_write,
    by one_write, by one_write, by one_write, by one_write, by one_write, by one_write, by one_write, by one_write,
    by one_write, by one_write, by one_write, by one_write, by one_write, by one_write, by one_write, by one_write,
    by one_write, by one_write, by one_write⟩

/-- A buffer stretch 2 does not write keeps its contents through it. -/
theorem keep2 (W : Valuation τ sig (Elt F)) (r : Ref sig .tc) (h : r ∉ win2_W) :
    after (win2 (F := F)) W (Proc.devRef .tc r) = W (Proc.devRef .tc r) :=
  after_of_writes_sub (win2 (F := F)) W win2_writes h

/-- Stretch 3: the first layer before normalisation. -/
abbrev win3 : List (HloOp τ sig (Elt F)) :=
  [ StableHlo.binary main_arg0 main_arg2 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_4 (constantI S_ 32 0#32),
    StableHlo.unary main_c_4 main_v29 (broadcastInDim S850000 ![] bcast_S_S850000 : (⟨S_, .i32⟩ : BufTy).Contents (Elt F) → (⟨S850000, .i32⟩ : BufTy).Contents (Elt F)),
    StableHlo.binary main_v3 main_v29 main_v30 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v31 (broadcastInDim S850000 ![] bcast_S_S850000 : (⟨S_, .i32⟩ : BufTy).Contents (Elt F) → (⟨S850000, .i32⟩ : BufTy).Contents (Elt F)),
    StableHlo.binary main_v3 main_v31 main_v32 (addi : (⟨S850000, .i32⟩ : BufTy).Contents (Elt F) → (⟨S850000, .i32⟩ : BufTy).Contents (Elt F) → (⟨S850000, .i32⟩ : BufTy).Contents (Elt F)),
    StableHlo.ternary main_v30 main_v32 main_v3 main_v33 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v33 main_v34 (broadcastInDim S850000x1 ![0] bcast_S850000_S850000x1_0 : (⟨S850000, .i32⟩ : BufTy).Contents (Elt F) → (⟨S850000x1, .i32⟩ : BufTy).Contents (Elt F)),
    StableHlo.binary main_v28 main_v34 main_v35 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v27 main_v36 (broadcastInDim S850000x128 ![0, 1] bcast_S850000x1_S850000x128_0_1 : (⟨S850000x1, .f32⟩ : BufTy).Contents (Elt F) → (⟨S850000x128, .f32⟩ : BufTy).Contents (Elt F)),
    StableHlo.binary main_v35 main_v36 main_v37 (mulf : (⟨S850000x128, .f32⟩ : BufTy).Contents (Elt F) → (⟨S850000x128, .f32⟩ : BufTy).Contents (Elt F) → (⟨S850000x128, .f32⟩ : BufTy).Contents (Elt F)),
    StableHlo.nullary main_cst_6 (constant S_ .f32 0x00000000#32),
    StableHlo.unary main_cst_6 main_v38 (broadcastInDim S50000x128 ![] bcast_S_S50000x128 : (⟨S_, .f32⟩ : BufTy).Contents (Elt F) → (⟨S50000x128, .f32⟩ : BufTy).Contents (Elt F)),
    StableHlo.unary main_v6 main_v39 (broadcastInDim S850000x1 ![0] bcast_S850000_S850000x1_0 : (⟨S850000, .i32⟩ : BufTy).Contents (Elt F) → (⟨S850000x1, .i32⟩ : BufTy).Contents (Elt F)),
    StableHlo.ternary main_v38 main_v39 main_v37 main_v40 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S50000x128 ![0, 1] bcast_S1x128_S50000x128_0_1 : (⟨S1x128, .f32⟩ : BufTy).Contents (Elt F) → (⟨S50000x128, .f32⟩ : BufTy).Contents (Elt F)),
    StableHlo.binary main_v40 main_v42 main_v43 (addf : (⟨S50000x128, .f32⟩ : BufTy).Contents (Elt F) → (⟨S50000x128, .f32⟩ : BufTy).Contents (Elt F) → (⟨S50000x128, .f32⟩ : BufTy).Contents (Elt F)) ]

/-- The buffers stretch 3 writes. -/
abbrev win3_W : List (Ref sig .tc) := [main_v28, main_c_4, main_v29, main_v30, main_c_5, main_v31, main_v32, main_v33, main_v34, main_v35, main_v36, main_v37, main_cst_6, main_v38, main_v39, main_v40, main_v41, main_v42, main_v43]

theorem win3_writes : (win3 (F := F)).Forall fun op => op.writes ⊆ (win3_W.map (Proc.devRef (τ := τ) .tc)).toFinset := by
  simp only [List.Forall]
  exact ⟨by one_write, by one_write, by one_write, by one_write, by one_write, by one_write, by one_write, by one_write,
    by one_write, by one_write, by one_write, by one_write, by one_write, by one_write, by one_write, by one_write,
    by one_write, by one_write, by one_write⟩

/-- A buffer stretch 3 does not write keeps its contents through it. -/
theorem keep3 (W : Valuation τ sig (Elt F)) (r : Ref sig .tc) (h : r ∉ win3_W) :
    after (win3 (F := F)) W (Proc.devRef .tc r) = W (Proc.devRef .tc r) :=
  after_of_writes_sub (win3 (F := F)) W win3_writes h

/-- Stretch 4: the batch mean and the degrees-of-freedom word. -/
abbrev win4 : List (HloOp τ sig (Elt F)) :=
  [ StableHlo.nullary main_cst_7 (constant S_ .f32 0x00000000#32),
    StableHlo.binary main_v43 main_cst_7 main_v44 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_8 (constant S_ .f32 0x47435000#32),
    StableHlo.unary main_cst_8 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32) ]

/-- The buffers stretch 4 writes. -/
abbrev win4_W : List (Ref sig .tc) := [main_cst_7, main_v44, main_cst_8, main_v45, main_v46, main_c_9]

theorem win4_writes : (win4 (F := F)).Forall fun op => op.writes ⊆ (win4_W.map (Proc.devRef (τ := τ) .tc)).toFinset := by
  simp only [List.Forall]
  exact ⟨by one_write, by one_write, by one_write, by one_write, by one_write, by one_write⟩

/-- A buffer stretch 4 does not write keeps its contents through it. -/
theorem keep4 (W : Valuation τ sig (Elt F)) (r : Ref sig .tc) (h : r ∉ win4_W) :
    after (win4 (F := F)) W (Proc.devRef .tc r) = W (Proc.devRef .tc r) :=
  after_of_writes_sub (win4 (F := F)) W win4_writes h

/-- Stretch 5: the batch variance. -/
abbrev win5 : List (HloOp τ sig (Elt F)) :=
  [ StableHlo.TRef.nullary main_call0.cst (constant S_ .f32 0x00000000#32),
    StableHlo.TRef.binary (.of main_v43) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v43) main_call0.v4 main_call0.v5 subf,
    StableHlo.TRef.binary main_call0.v5 main_call0.v5 main_call0.v6 mulf,
    StableHlo.TRef.unary (.of main_c_9) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]

/-- The buffers stretch 5 writes. -/
abbrev win5_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]

theorem win5_writes : (win5 (F := F)).Forall fun op => op.writes ⊆ (win5_W.map (Proc.devRef (τ := τ) .tc)).toFinset := by
  simp only [List.Forall]
  exact ⟨by one_write, by one_write, by one_write, by one_write, by one_write, by one_write, by one_write, by one_write,
    by one_write, by one_write, by one_write, by one_write, by one_write, by one_write, by one_write, by one_write,
    by one_write, by one_write, by one_write, by one_write, by one_write, by one_write⟩

/-- A buffer stretch 5 does not write keeps its contents through it. -/
theorem keep5 (W : Valuation τ sig (Elt F)) (r : Ref sig .tc) (h : r ∉ win5_W) :
    after (win5 (F := F)) W (Proc.devRef .tc r) = W (Proc.devRef .tc r) :=
  after_of_writes_sub (win5 (F := F)) W win5_writes h

/-- Stretch 6: normalisation and the rectifier. -/
abbrev win6 : List (HloOp τ sig (Elt F)) :=
  [ StableHlo.unary main_v46 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v49 main_v50 (subf : (⟨S50000x128, .f32⟩ : BufTy).Contents (Elt F) → (⟨S50000x128, .f32⟩ : BufTy).Contents (Elt F) → (⟨S50000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v50 main_v53 (mulf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x3727C5AC#32),
    StableHlo.unary main_cst_10 main_v54 (broadcastInDim S128 ![] bcast_S_S128 : (⟨S_, .f32⟩ : BufTy).Contents (Elt F) → (⟨S128, .f32⟩ : BufTy).Contents (Elt F)),
    StableHlo.binary main_v47 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v58 main_v59 (mulf : (⟨S50000x128, .f32⟩ : BufTy).Contents (Elt F) → (⟨S50000x128, .f32⟩ : BufTy).Contents (Elt F) → (⟨S50000x128, .f32⟩ : BufTy).Contents (Elt F)),
    StableHlo.unary main_arg7 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S50000x128 ![0, 1] bcast_S1x128_S50000x128_0_1 : (⟨S1x128, .f32⟩ : BufTy).Contents (Elt F) → (⟨S50000x128, .f32⟩ : BufTy).Contents (Elt F)),
    StableHlo.binary main_v59 main_v61 main_v62 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v62) main_call1.v0 main_call1.v1 maximumf ]

/-- The buffers stretch 6 writes. -/
abbrev win6_W : List (Ref sig .tc) := [main_v48, main_v49, main_v50, main_v51, main_v52, main_v53, main_cst_10, main_v54, main_v55, main_v56, main_v57, main_v58, main_v59, main_v60, main_v61, main_v62, main_call1_cst, main_call1_v0, main_v63]

theorem win6_writes : (win6 (F := F)).Forall fun op => op.writes ⊆ (win6_W.map (Proc.devRef (τ := τ) .tc)).toFinset := by
  simp only [List.Forall]
  exact ⟨by one_write, by one_write, by one_write, by one_write, by one_write, by one_write, by one_write, by one_write,
    by one_write, by one_write, by one_write, by one_write, by one_write, by one_write, by one_write, by one_write,
    by one_write, by one_write, by one_write⟩

/-- A buffer stretch 6 does not write keeps its contents through it. -/
theorem keep6 (W : Valuation τ sig (Elt F)) (r : Ref sig .tc) (h : r ∉ win6_W) :
    after (win6 (F := F)) W (Proc.devRef .tc r) = W (Proc.devRef .tc r) :=
  after_of_writes_sub (win6 (F := F)) W win6_writes h

/-- Stretch 7: the second layer and the sum. -/
abbrev win7 : List (HloOp τ sig (Elt F)) :=
  [ StableHlo.binary main_v63 main_arg4 main_v64 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_11 (constantI S_ 32 0#32),
    StableHlo.unary main_c_11 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v64 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v27 main_v72 (broadcastInDim S850000x128 ![0, 1] bcast_S850000x1_S850000x128_0_1 : (⟨S850000x1, .f32⟩ : BufTy).Contents (Elt F) → (⟨S850000x128, .f32⟩ : BufTy).Contents (Elt F)),
    StableHlo.binary main_v71 main_v72 main_v73 (mulf : (⟨S850000x128, .f32⟩ : BufTy).Contents (Elt F) → (⟨S850000x128, .f32⟩ : BufTy).Contents (Elt F) → (⟨S850000x128, .f32⟩ : BufTy).Contents (Elt F)),
    StableHlo.nullary main_cst_13 (constant S_ .f32 0x00000000#32),
    StableHlo.unary main_cst_13 main_v74 (broadcastInDim S50000x128 ![] bcast_S_S50000x128 : (⟨S_, .f32⟩ : BufTy).Contents (Elt F) → (⟨S50000x128, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg5 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.binary main_v63 main_v79 main_v80 (addf : (⟨S50000x128, .f32⟩ : BufTy).Contents (Elt F) → (⟨S50000x128, .f32⟩ : BufTy).Contents (Elt F) → (⟨S50000x128, .f32⟩ : BufTy).Contents (Elt F)) ]

/-- The buffers stretch 7 writes. -/
abbrev win7_W : List (Ref sig .tc) := [main_v64, main_c_11, main_v65, main_v66, main_c_12, main_v67, main_v68, main_v69, main_v70, main_v71, main_v72, main_v73, main_cst_13, main_v74, main_v75, main_v76, main_v77, main_v78, main_v79, main_v80]

theorem win7_writes : (win7 (F := F)).Forall fun op => op.writes ⊆ (win7_W.map (Proc.devRef (τ := τ) .tc)).toFinset := by
  simp only [List.Forall]
  exact ⟨by one_write, by one_write, by one_write, by one_write, by one_write, by one_write, by one_write, by one_write,
    by one_write, by one_write, by one_write, by one_write, by one_write, by one_write, by one_write, by one_write,
    by one_write, by one_write, by one_write, by one_write⟩

/-- A buffer stretch 7 does not write keeps its contents through it. -/
theorem keep7 (W : Valuation τ sig (Elt F)) (r : Ref sig .tc) (h : r ∉ win7_W) :
    after (win7 (F := F)) W (Proc.devRef .tc r) = W (Proc.devRef .tc r) :=
  after_of_writes_sub (win7 (F := F)) W win7_writes h

end Stretches

/-! ## Each stretch's fold at the buffer it computes -/

attribute [local irreducible] Host.gather Host.scatterAdd Host.reduceAdd

set_option maxRecDepth 8192 in
theorem win1_v3 (W : Valuation τ sig (Elt Ideal)) : after (win1 (F := Ideal)) W (main_v3 : DevRef τ sig) = srcWords (W (main_arg1 : DevRef τ sig)) := by
  simp only [win1, after_cons, after_nil]
  rfl

set_option maxRecDepth 8192 in
theorem win1_v6 (W : Valuation τ sig (Elt Ideal)) : after (win1 (F := Ideal)) W (main_v6 : DevRef τ sig) = dstWords (W (main_arg1 : DevRef τ sig)) := by
  simp only [win1, after_cons, after_nil]
  rfl

set_option maxRecDepth 8192 in
set_option maxHeartbeats 1000000 in
theorem win2_v27 (W : Valuation τ sig (Elt Ideal)) : after (win2 (F := Ideal)) W (main_v27 : DevRef τ sig) = ewG (W (main_v3 : DevRef τ sig)) (W (main_v6 : DevRef τ sig)) := by
  simp only [win2]
  after_results_simp
  rfl

set_option maxRecDepth 8192 in
set_option maxHeartbeats 1000000 in
theorem win3_v43 (W : Valuation τ sig (Elt Ideal)) : after (win3 (F := Ideal)) W (main_v43 : DevRef τ sig)
    = layerG (W (main_v3 : DevRef τ sig)) (W (main_v6 : DevRef τ sig)) (W (main_v27 : DevRef τ sig)) (W (main_arg0 : DevRef τ sig)) (W (main_arg2 : DevRef τ sig)) (W (main_arg3 : DevRef τ sig)) := by
  simp only [win3]
  after_results_simp
  rfl

theorem win4_v46 (W : Valuation τ sig (Elt Ideal)) : after (win4 (F := Ideal)) W (main_v46 : DevRef τ sig) = meanV (W (main_v43 : DevRef τ sig)) := by
  simp only [win4]
  after_results_simp
  rfl

theorem win4_c9 (W : Valuation τ sig (Elt Ideal)) : after (win4 (F := Ideal)) W (main_c_9 : DevRef τ sig) = constantI S_ 32 0#32 := by
  simp only [win4]
  after_results_simp

set_option maxRecDepth 8192 in
set_option maxHeartbeats 1000000 in
theorem win5_v47 (W : Valuation τ sig (Elt Ideal)) : after (win5 (F := Ideal)) W (main_v47 : DevRef τ sig) = varG (W (main_v43 : DevRef τ sig)) (W (main_c_9 : DevRef τ sig)) := by
  simp only [win5]
  after_results_simp
  simp only [TRef.ofBuf_toBuf]
  rfl

set_option maxRecDepth 8192 in
set_option maxHeartbeats 1000000 in
theorem win6_v63 (W : Valuation τ sig (Elt Ideal)) : after (win6 (F := Ideal)) W (main_v63 : DevRef τ sig)
    = actG (W (main_v43 : DevRef τ sig)) (W (main_v46 : DevRef τ sig)) (W (main_v47 : DevRef τ sig)) (W (main_arg6 : DevRef τ sig)) (W (main_arg7 : DevRef τ sig)) := by
  simp only [win6]
  after_results_simp
  simp only [TRef.ofBuf_toBuf]
  rfl

set_option maxRecDepth 8192 in
set_option maxHeartbeats 1000000 in
theorem win7_v80 (W : Valuation τ sig (Elt Ideal)) : after (win7 (F := Ideal)) W (main_v80 : DevRef τ sig)
    = addf (W (main_v63 : DevRef τ sig)) (layerG (W (main_v3 : DevRef τ sig)) (W (main_v6 : DevRef τ sig)) (W (main_v27 : DevRef τ sig)) (W (main_v63 : DevRef τ sig)) (W (main_arg4 : DevRef τ sig)) (W (main_arg5 : DevRef τ sig))) := by
  simp only [win7]
  after_results_simp
  rfl

/-! ## The stretches one after the other -/

/-- The program's line is the seven stretches in order. -/
theorem ops_windows : RefRun.ops (F := Ideal) = win1 ++ (win2 ++ (win3 ++ (win4 ++ (win5 ++ (win6 ++ win7))))) := rfl

section Whole

variable (V : Valuation τ sig (Elt Ideal))

/-- The contents after the first stretch … after all seven. -/
def val1 : Valuation τ sig (Elt Ideal) := after (win1 (F := Ideal)) V
def val2 : Valuation τ sig (Elt Ideal) := after (win2 (F := Ideal)) (val1 V)
def val3 : Valuation τ sig (Elt Ideal) := after (win3 (F := Ideal)) (val2 V)
def val4 : Valuation τ sig (Elt Ideal) := after (win4 (F := Ideal)) (val3 V)
def val5 : Valuation τ sig (Elt Ideal) := after (win5 (F := Ideal)) (val4 V)
def val6 : Valuation τ sig (Elt Ideal) := after (win6 (F := Ideal)) (val5 V)
def val7 : Valuation τ sig (Elt Ideal) := after (win7 (F := Ideal)) (val6 V)

theorem after_ops : after (RefRun.ops (F := Ideal)) V = val7 V := by
  rw [ops_windows]
  simp only [after_app]
  rfl

theorem val1_v3 : val1 V (main_v3 : DevRef τ sig) = srcWords (V (main_arg1 : DevRef τ sig)) := win1_v3 V
theorem val1_v6 : val1 V (main_v6 : DevRef τ sig) = dstWords (V (main_arg1 : DevRef τ sig)) := win1_v6 V
theorem val1_arg0 : val1 V (main_arg0 : DevRef τ sig) = V (main_arg0 : DevRef τ sig) :=
  (keep1 V main_arg0 (by decide)).trans rfl
theorem val1_arg2 : val1 V (main_arg2 : DevRef τ sig) = V (main_arg2 : DevRef τ sig) :=
  (keep1 V main_arg2 (by decide)).trans rfl
theorem val1_arg3 : val1 V (main_arg3 : DevRef τ sig) = V (main_arg3 : DevRef τ sig) :=
  (keep1 V main_arg3 (by decide)).trans rfl
theorem val1_arg4 : val1 V (main_arg4 : DevRef τ sig) = V (main_arg4 : DevRef τ sig) :=
  (keep1 V main_arg4 (by decide)).trans rfl
theorem val1_arg5 : val1 V (main_arg5 : DevRef τ sig) = V (main_arg5 : DevRef τ sig) :=
  (keep1 V main_arg5 (by decide)).trans rfl
theorem val1_arg6 : val1 V (main_arg6 : DevRef τ sig) = V (main_arg6 : DevRef τ sig) :=
  (keep1 V main_arg6 (by decide)).trans rfl
theorem val1_arg7 : val1 V (main_arg7 : DevRef τ sig) = V (main_arg7 : DevRef τ sig) :=
  (keep1 V main_arg7 (by decide)).trans rfl

theorem val2_v27 : val2 V (main_v27 : DevRef τ sig) = ewV (V (main_arg1 : DevRef τ sig)) :=
  (win2_v27 (val1 V)).trans (by rw [val1_v3, val1_v6]; exact ewG_words _)
theorem val2_v3 : val2 V (main_v3 : DevRef τ sig) = srcWords (V (main_arg1 : DevRef τ sig)) :=
  (keep2 (val1 V) main_v3 (by decide)).trans (val1_v3 V)
theorem val2_v6 : val2 V (main_v6 : DevRef τ sig) = dstWords (V (main_arg1 : DevRef τ sig)) :=
  (keep2 (val1 V) main_v6 (by decide)).trans (val1_v6 V)
theorem val2_arg0 : val2 V (main_arg0 : DevRef τ sig) = V (main_arg0 : DevRef τ sig) :=
  (keep2 (val1 V) main_arg0 (by decide)).trans (val1_arg0 V)
theorem val2_arg2 : val2 V (main_arg2 : DevRef τ sig) = V (main_arg2 : DevRef τ sig) :=
  (keep2 (val1 V) main_arg2 (by decide)).trans (val1_arg2 V)
theorem val2_arg3 : val2 V (main_arg3 : DevRef τ sig) = V (main_arg3 : DevRef τ sig) :=
  (keep2 (val1 V) main_arg3 (by decide)).trans (val1_arg3 V)
theorem val2_arg4 : val2 V (main_arg4 : DevRef τ sig) = V (main_arg4 : DevRef τ sig) :=
  (keep2 (val1 V) main_arg4 (by decide)).trans (val1_arg4 V)
theorem val2_arg5 : val2 V (main_arg5 : DevRef τ sig) = V (main_arg5 : DevRef τ sig) :=
  (keep2 (val1 V) main_arg5 (by decide)).trans (val1_arg5 V)
theorem val2_arg6 : val2 V (main_arg6 : DevRef τ sig) = V (main_arg6 : DevRef τ sig) :=
  (keep2 (val1 V) main_arg6 (by decide)).trans (val1_arg6 V)
theorem val2_arg7 : val2 V (main_arg7 : DevRef τ sig) = V (main_arg7 : DevRef τ sig) :=
  (keep2 (val1 V) main_arg7 (by decide)).trans (val1_arg7 V)

theorem val3_v43 : val3 V (main_v43 : DevRef τ sig) = layerV (V (main_arg1 : DevRef τ sig)) (V (main_arg0 : DevRef τ sig)) (V (main_arg2 : DevRef τ sig)) (V (main_arg3 : DevRef τ sig)) :=
  (win3_v43 (val2 V)).trans (by
    rw [val2_v3, val2_v6, val2_v27, val2_arg0, val2_arg2, val2_arg3]
    exact layerG_words _ _ _ _)
theorem val3_v3 : val3 V (main_v3 : DevRef τ sig) = srcWords (V (main_arg1 : DevRef τ sig)) :=
  (keep3 (val2 V) main_v3 (by decide)).trans (val2_v3 V)
theorem val3_v6 : val3 V (main_v6 : DevRef τ sig) = dstWords (V (main_arg1 : DevRef τ sig)) :=
  (keep3 (val2 V) main_v6 (by decide)).trans (val2_v6 V)
theorem val3_v27 : val3 V (main_v27 : DevRef τ sig) = ewV (V (main_arg1 : DevRef τ sig)) :=
  (keep3 (val2 V) main_v27 (by decide)).trans (val2_v27 V)
theorem val3_arg4 : val3 V (main_arg4 : DevRef τ sig) = V (main_arg4 : DevRef τ sig) :=
  (keep3 (val2 V) main_arg4 (by decide)).trans (val2_arg4 V)
theorem val3_arg5 : val3 V (main_arg5 : DevRef τ sig) = V (main_arg5 : DevRef τ sig) :=
  (keep3 (val2 V) main_arg5 (by decide)).trans (val2_arg5 V)
theorem val3_arg6 : val3 V (main_arg6 : DevRef τ sig) = V (main_arg6 : DevRef τ sig) :=
  (keep3 (val2 V) main_arg6 (by decide)).trans (val2_arg6 V)
theorem val3_arg7 : val3 V (main_arg7 : DevRef τ sig) = V (main_arg7 : DevRef τ sig) :=
  (keep3 (val2 V) main_arg7 (by decide)).trans (val2_arg7 V)

theorem val4_v46 : val4 V (main_v46 : DevRef τ sig) = meanV (layerV (V (main_arg1 : DevRef τ sig)) (V (main_arg0 : DevRef τ sig)) (V (main_arg2 : DevRef τ sig)) (V (main_arg3 : DevRef τ sig))) :=
  (win4_v46 (val3 V)).trans (by rw [val3_v43])
theorem val4_c_9 : val4 V (main_c_9 : DevRef τ sig) = constantI S_ 32 0#32 := win4_c9 (val3 V)
theorem val4_v43 : val4 V (main_v43 : DevRef τ sig) = layerV (V (main_arg1 : DevRef τ sig)) (V (main_arg0 : DevRef τ sig)) (V (main_arg2 : DevRef τ sig)) (V (main_arg3 : DevRef τ sig)) :=
  (keep4 (val3 V) main_v43 (by decide)).trans (val3_v43 V)
theorem val4_v3 : val4 V (main_v3 : DevRef τ sig) = srcWords (V (main_arg1 : DevRef τ sig)) :=
  (keep4 (val3 V) main_v3 (by decide)).trans (val3_v3 V)
theorem val4_v6 : val4 V (main_v6 : DevRef τ sig) = dstWords (V (main_arg1 : DevRef τ sig)) :=
  (keep4 (val3 V) main_v6 (by decide)).trans (val3_v6 V)
theorem val4_v27 : val4 V (main_v27 : DevRef τ sig) = ewV (V (main_arg1 : DevRef τ sig)) :=
  (keep4 (val3 V) main_v27 (by decide)).trans (val3_v27 V)
theorem val4_arg4 : val4 V (main_arg4 : DevRef τ sig) = V (main_arg4 : DevRef τ sig) :=
  (keep4 (val3 V) main_arg4 (by decide)).trans (val3_arg4 V)
theorem val4_arg5 : val4 V (main_arg5 : DevRef τ sig) = V (main_arg5 : DevRef τ sig) :=
  (keep4 (val3 V) main_arg5 (by decide)).trans (val3_arg5 V)
theorem val4_arg6 : val4 V (main_arg6 : DevRef τ sig) = V (main_arg6 : DevRef τ sig) :=
  (keep4 (val3 V) main_arg6 (by decide)).trans (val3_arg6 V)
theorem val4_arg7 : val4 V (main_arg7 : DevRef τ sig) = V (main_arg7 : DevRef τ sig) :=
  (keep4 (val3 V) main_arg7 (by decide)).trans (val3_arg7 V)

theorem val5_v47 : val5 V (main_v47 : DevRef τ sig) = varV (layerV (V (main_arg1 : DevRef τ sig)) (V (main_arg0 : DevRef τ sig)) (V (main_arg2 : DevRef τ sig)) (V (main_arg3 : DevRef τ sig))) :=
  (win5_v47 (val4 V)).trans (by
    rw [val4_v43, val4_c_9]
    exact varG_zero _)
theorem val5_v43 : val5 V (main_v43 : DevRef τ sig) = layerV (V (main_arg1 : DevRef τ sig)) (V (main_arg0 : DevRef τ sig)) (V (main_arg2 : DevRef τ sig)) (V (main_arg3 : DevRef τ sig)) :=
  (keep5 (val4 V) main_v43 (by decide)).trans (val4_v43 V)
theorem val5_v46 : val5 V (main_v46 : DevRef τ sig) = meanV (layerV (V (main_arg1 : DevRef τ sig)) (V (main_arg0 : DevRef τ sig)) (V (main_arg2 : DevRef τ sig)) (V (main_arg3 : DevRef τ sig))) :=
  (keep5 (val4 V) main_v46 (by decide)).trans (val4_v46 V)
theorem val5_v3 : val5 V (main_v3 : DevRef τ sig) = srcWords (V (main_arg1 : DevRef τ sig)) :=
  (keep5 (val4 V) main_v3 (by decide)).trans (val4_v3 V)
theorem val5_v6 : val5 V (main_v6 : DevRef τ sig) = dstWords (V (main_arg1 : DevRef τ sig)) :=
  (keep5 (val4 V) main_v6 (by decide)).trans (val4_v6 V)
theorem val5_v27 : val5 V (main_v27 : DevRef τ sig) = ewV (V (main_arg1 : DevRef τ sig)) :=
  (keep5 (val4 V) main_v27 (by decide)).trans (val4_v27 V)
theorem val5_arg4 : val5 V (main_arg4 : DevRef τ sig) = V (main_arg4 : DevRef τ sig) :=
  (keep5 (val4 V) main_arg4 (by decide)).trans (val4_arg4 V)
theorem val5_arg5 : val5 V (main_arg5 : DevRef τ sig) = V (main_arg5 : DevRef τ sig) :=
  (keep5 (val4 V) main_arg5 (by decide)).trans (val4_arg5 V)
theorem val5_arg6 : val5 V (main_arg6 : DevRef τ sig) = V (main_arg6 : DevRef τ sig) :=
  (keep5 (val4 V) main_arg6 (by decide)).trans (val4_arg6 V)
theorem val5_arg7 : val5 V (main_arg7 : DevRef τ sig) = V (main_arg7 : DevRef τ sig) :=
  (keep5 (val4 V) main_arg7 (by decide)).trans (val4_arg7 V)

theorem val6_v63 : val6 V (main_v63 : DevRef τ sig) = actV (layerV (V (main_arg1 : DevRef τ sig)) (V (main_arg0 : DevRef τ sig)) (V (main_arg2 : DevRef τ sig)) (V (main_arg3 : DevRef τ sig))) (V (main_arg6 : DevRef τ sig)) (V (main_arg7 : DevRef τ sig)) :=
  (win6_v63 (val5 V)).trans (by
    rw [val5_v43, val5_v46, val5_v47, val5_arg6, val5_arg7]
    exact actG_stats _ _ _)
theorem val6_v3 : val6 V (main_v3 : DevRef τ sig) = srcWords (V (main_arg1 : DevRef τ sig)) :=
  (keep6 (val5 V) main_v3 (by decide)).trans (val5_v3 V)
theorem val6_v6 : val6 V (main_v6 : DevRef τ sig) = dstWords (V (main_arg1 : DevRef τ sig)) :=
  (keep6 (val5 V) main_v6 (by decide)).trans (val5_v6 V)
theorem val6_v27 : val6 V (main_v27 : DevRef τ sig) = ewV (V (main_arg1 : DevRef τ sig)) :=
  (keep6 (val5 V) main_v27 (by decide)).trans (val5_v27 V)
theorem val6_arg4 : val6 V (main_arg4 : DevRef τ sig) = V (main_arg4 : DevRef τ sig) :=
  (keep6 (val5 V) main_arg4 (by decide)).trans (val5_arg4 V)
theorem val6_arg5 : val6 V (main_arg5 : DevRef τ sig) = V (main_arg5 : DevRef τ sig) :=
  (keep6 (val5 V) main_arg5 (by decide)).trans (val5_arg5 V)

theorem val7_v80 : val7 V (main_v80 : DevRef τ sig)
    = outV (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) :=
  (win7_v80 (val6 V)).trans (by
    rw [val6_v63, val6_v3, val6_v6, val6_v27, val6_arg4, val6_arg5, layerG_words]
    rfl)

end Whole

/-! ## The run's result and the arguments -/

/-- The fold of the program's operations at the result buffer is the closed term of the arguments' contents. -/
theorem out_closed (V : Valuation τ sig (Elt Ideal)) :
    after (RefRun.ops (F := Ideal)) V (main_v80 : DevRef τ sig)
      = outV (V (main_arg0 : DevRef τ sig)) (V (main_arg1 : DevRef τ sig)) (V (main_arg2 : DevRef τ sig)) (V (main_arg3 : DevRef τ sig))
        (V (main_arg4 : DevRef τ sig)) (V (main_arg5 : DevRef τ sig)) (V (main_arg6 : DevRef τ sig)) (V (main_arg7 : DevRef τ sig)) := by
  rw [after_ops]
  exact val7_v80 V

/-- No operation writes argument 0. -/
theorem arg0_eq (V : Valuation τ sig (Elt Ideal)) : after (RefRun.ops (F := Ideal)) V (main_arg0 : DevRef τ sig) = V (main_arg0 : DevRef τ sig) := by
  rw [after_ops]
  exact (keep7 _ main_arg0 (by decide)).trans ((keep6 _ main_arg0 (by decide)).trans ((keep5 _ main_arg0 (by decide)).trans
    ((keep4 _ main_arg0 (by decide)).trans ((keep3 _ main_arg0 (by decide)).trans ((keep2 _ main_arg0 (by decide)).trans (keep1 V main_arg0 (by decide)))))))

/-- No operation writes argument 1. -/
theorem arg1_eq (V : Valuation τ sig (Elt Ideal)) : after (RefRun.ops (F := Ideal)) V (main_arg1 : DevRef τ sig) = V (main_arg1 : DevRef τ sig) := by
  rw [after_ops]
  exact (keep7 _ main_arg1 (by decide)).trans ((keep6 _ main_arg1 (by decide)).trans ((keep5 _ main_arg1 (by decide)).trans
    ((keep4 _ main_arg1 (by decide)).trans ((keep3 _ main_arg1 (by decide)).trans ((keep2 _ main_arg1 (by decide)).trans (keep1 V main_arg1 (by decide)))))))

/-- No operation writes argument 2. -/
theorem arg2_eq (V : Valuation τ sig (Elt Ideal)) : after (RefRun.ops (F := Ideal)) V (main_arg2 : DevRef τ sig) = V (main_arg2 : DevRef τ sig) := by
  rw [after_ops]
  exact (keep7 _ main_arg2 (by decide)).trans ((keep6 _ main_arg2 (by decide)).trans ((keep5 _ main_arg2 (by decide)).trans
    ((keep4 _ main_arg2 (by decide)).trans ((keep3 _ main_arg2 (by decide)).trans ((keep2 _ main_arg2 (by decide)).trans (keep1 V main_arg2 (by decide)))))))

/-- No operation writes argument 3. -/
theorem arg3_eq (V : Valuation τ sig (Elt Ideal)) : after (RefRun.ops (F := Ideal)) V (main_arg3 : DevRef τ sig) = V (main_arg3 : DevRef τ sig) := by
  rw [after_ops]
  exact (keep7 _ main_arg3 (by decide)).trans ((keep6 _ main_arg3 (by decide)).trans ((keep5 _ main_arg3 (by decide)).trans
    ((keep4 _ main_arg3 (by decide)).trans ((keep3 _ main_arg3 (by decide)).trans ((keep2 _ main_arg3 (by decide)).trans (keep1 V main_arg3 (by decide)))))))

/-- No operation writes argument 4. -/
theorem arg4_eq (V : Valuation τ sig (Elt Ideal)) : after (RefRun.ops (F := Ideal)) V (main_arg4 : DevRef τ sig) = V (main_arg4 : DevRef τ sig) := by
  rw [after_ops]
  exact (keep7 _ main_arg4 (by decide)).trans ((keep6 _ main_arg4 (by decide)).trans ((keep5 _ main_arg4 (by decide)).trans
    ((keep4 _ main_arg4 (by decide)).trans ((keep3 _ main_arg4 (by decide)).trans ((keep2 _ main_arg4 (by decide)).trans (keep1 V main_arg4 (by decide)))))))

/-- No operation writes argument 5. -/
theorem arg5_eq (V : Valuation τ sig (Elt Ideal)) : after (RefRun.ops (F := Ideal)) V (main_arg5 : DevRef τ sig) = V (main_arg5 : DevRef τ sig) := by
  rw [after_ops]
  exact (keep7 _ main_arg5 (by decide)).trans ((keep6 _ main_arg5 (by decide)).trans ((keep5 _ main_arg5 (by decide)).trans
    ((keep4 _ main_arg5 (by decide)).trans ((keep3 _ main_arg5 (by decide)).trans ((keep2 _ main_arg5 (by decide)).trans (keep1 V main_arg5 (by decide)))))))

/-- No operation writes argument 6. -/
theorem arg6_eq (V : Valuation τ sig (Elt Ideal)) : after (RefRun.ops (F := Ideal)) V (main_arg6 : DevRef τ sig) = V (main_arg6 : DevRef τ sig) := by
  rw [after_ops]
  exact (keep7 _ main_arg6 (by decide)).trans ((keep6 _ main_arg6 (by decide)).trans ((keep5 _ main_arg6 (by decide)).trans
    ((keep4 _ main_arg6 (by decide)).trans ((keep3 _ main_arg6 (by decide)).trans ((keep2 _ main_arg6 (by decide)).trans (keep1 V main_arg6 (by decide)))))))

/-- No operation writes argument 7. -/
theorem arg7_eq (V : Valuation τ sig (Elt Ideal)) : after (RefRun.ops (F := Ideal)) V (main_arg7 : DevRef τ sig) = V (main_arg7 : DevRef τ sig) := by
  rw [after_ops]
  exact (keep7 _ main_arg7 (by decide)).trans ((keep6 _ main_arg7 (by decide)).trans ((keep5 _ main_arg7 (by decide)).trans
    ((keep4 _ main_arg7 (by decide)).trans ((keep3 _ main_arg7 (by decide)).trans ((keep2 _ main_arg7 (by decide)).trans (keep1 V main_arg7 (by decide)))))))

end Cert.ReferenceIdeal.RefValue

end
-- ==== Proof.RefValue.lean ====
/-
  The reference program's result, read at a node and a feature, is the reference arrangement of the two-layer graph
  convolution: each gathered projected row is multiplied by its edge's weight before the rows of a node's incoming edges
  are summed, and the batch variance is the mean of the squared deviations from the batch mean.

  Each stage of the program's closed term is read at an index: a broadcast re-reads its operand's entry, a gather reads
  the table at the clamped index word, a scatter-add from the zero table is the sum over the edges whose destination word
  addresses the entry, a product of matrices is the sum over the contracted coordinate, a sum down the rows is the sum
  over the nodes.
-/
import proofs.«139979_j60576218742837_2_alg».proof.Proof.RefValue1
import proofs.«139979_j60576218742837_2_alg».proof.Proof.RefValue2
import proofs.«139979_j60576218742837_2_alg».proof.Proof.Spec
import proofs.«139979_j60576218742837_2_alg».proof.Proof.Edges
import proofs.«139979_j60576218742837_2_alg».proof.Proof.LibSegmentSum
import proofs.«139979_j60576218742837_2_alg».proof.Proof.LibDotInnerHost
import proofs.«139979_j60576218742837_2_alg».proof.Proof.LibColSum
import Idealize.ShloMosaic.Lib.ValueIdx
import Idealize.ShloMosaic.Lib.IdealHost
import Idealize.ShloMosaic.Lib.KernelVsHost
import Idealize.ShloMosaic.Lib.Pipeline.Value
import Idealize.ShloMosaic.Lib.ValueLayout
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.ShloMosaic.ValueIdx
open Cert.Gcn Cert.SegmentSum

/-! ## Broadcasts read at an index -/

section Layout

variable {α : Type}

/-- A vector of length 128 as one row reads, at `(0, k)`, the vector at `k`. -/
theorem vecRow_apply (b : S128.Idx → α) (k : Fin 128) :
    broadcastInDim S1x128 ![1] bcast_S128_S1x128_1 b (ix2 (0 : Fin 1) k) = b (ix1 k) :=
  broadcastInDim_apply ![1] bcast_S128_S1x128_1 b (ix2 (0 : Fin 1) k) (ix1 k) fun a => by
    match a with
    | ⟨0, _⟩ => rfl

/-- A vector copied into every row reads, at `(v, k)`, the vector at `k`. -/
theorem rowB_apply (b : FVec Ideal S128 .f32) (v : Fin 50000) (k : Fin 128) : rowB b (ix2 v k) = b (ix1 k) :=
  (broadcastInDim_oneRow_apply bcast_S1x128_S50000x128_0_1 _ v k).trans (vecRow_apply b k)

/-- A vector over the edges as a column reads, at `(e, 0)`, the vector at `e`. -/
theorem col_apply (x : S850000.Idx → α) (e : Fin 850000) :
    broadcastInDim S850000x1 ![0] bcast_S850000_S850000x1_0 x (ix2 e (0 : Fin 1)) = x (ix1 e) :=
  broadcastInDim_apply ![0] bcast_S850000_S850000x1_0 x (ix2 e (0 : Fin 1)) (ix1 e) fun a => by
    match a with
    | ⟨0, _⟩ => rfl

/-- A column over the edges copied along the features reads, at `(e, c)`, the column at `(e, 0)`. -/
theorem colRow_apply (x : S850000x1.Idx → α) (e : Fin 850000) (c : Fin 128) :
    broadcastInDim S850000x128 ![0, 1] bcast_S850000x1_S850000x128_0_1 x (ix2 e c) = x (ix2 e (0 : Fin 1)) :=
  broadcastInDim_apply ![0, 1] bcast_S850000x1_S850000x128_0_1 x (ix2 e c) (ix2 e (0 : Fin 1)) fun a => by
    match a with
    | ⟨0, _⟩ => rfl
    | ⟨1, _⟩ => rfl

/-- The zero word broadcast to any shape reads zero. -/
theorem zeroB_apply (T : Shape) (h : S_.BroadcastsInDim T ![]) (j : T.Idx) :
    broadcastInDim T ![] h (constant (F := Ideal) S_ .f32 0x00000000#32) j = 0 :=
  (broadcastInDim_scalar_apply h _ j).trans ((constant_apply _ _).trans Ideal.ofBits_zero_f32)

/-- The host's inverse square root at an index. -/
theorem hostRsqrt_apply {s : Shape} {φ : FTy} (x : FVec Ideal s φ) (i : s.Idx) : Host.rsqrt x i = Ideal.rsqrt (x i) := rfl

/-- The host's scatter-add on the extended reals is the exact sum. -/
theorem hostScatterAdd_eq {s si t : Shape} {w : Nat} {φ : FTy} (d : ScatterDims s si t) (x : FVec Ideal s φ) (idx : IVec si w)
    (upd : FVec Ideal t φ) : Host.scatterAdd (F := Ideal) d x idx upd = Ideal.hostScatterAdd d x idx upd := rfl

/-- The integer zero converts to the real zero. -/
theorem sitofp_zero_word : (FloatOps.sitofp (F := Ideal) .f32 (0#32 : BitVec 32) : EReal) = 0 := by
  show ((((0#32 : BitVec 32).toInt : ℤ) : ℝ) : EReal) = 0
  simp

end Layout

/-! ## The nodes' and the edges' weights -/

/-- The weight of node `u`: the inverse square root of the count of the edges whose destination word addresses it. -/
theorem disV_apply (ei : IVec S2x800000 32) (u : Fin 50000) :
    disV ei (ix1 u) = dis (tgtOf (dstCol ei)) u := by
  unfold disV dis
  rw [hostRsqrt_apply, hostScatterAdd_eq]
  refine congrArg Ideal.rsqrt ?_
  refine (hostScatterAdd_table_apply (dstCol ei) scatter_S50000_S850000x1_S850000_n_0_0_1 rfl rfl rfl rfl _ _ u).trans ?_
  rw [zeroB_apply, zero_add]
  unfold deg seg tgtOf
  refine Finset.sum_congr rfl fun e _ => ?_
  exact (broadcastInDim_scalar_apply _ _ _).trans rfl

/-- The weight of edge `e`: the weight of the node its source word reads times that of the node its destination word reads. -/
theorem ewV_apply (ei : IVec S2x800000 32) (e : Fin 850000) :
    ewV ei (ix2 e (0 : Fin 1)) = ew (rowOf (srcCol ei)) (rowOf (dstNCol ei)) (tgtOf (dstCol ei)) e := by
  unfold ewV ew
  refine (col_apply _ e).trans ?_
  rw [mulf_apply,
    gather_table_apply (by decide) gather_S50000_S850000x1_S850000_n_0_n_n_0_1_1 rfl rfl rfl rfl rfl rfl rfl (disV ei) (srcCol ei) e,
    gather_table_apply (by decide) gather_S50000_S850000x1_S850000_n_0_n_n_0_1_1 rfl rfl rfl rfl rfl rfl rfl (disV ei) (dstNCol ei) e,
    disV_apply, disV_apply]
  rfl

/-! ## One layer -/

/-- The program's record of dimension numbers says rows by columns. -/
theorem dot_plain : DotInner.Plain dot_S50000x128_S128x128_S50000x128_1_0_0_1_n_n :=
  plain_record dot_S50000x128_S128x128_S50000x128_1_0_0_1_n_n, S50000x128, S128x128

/-- One layer at node `v`, feature `k`: the sum over the edges into `v` of the projected source row times the edge's
    weight, plus the bias. -/
theorem layerV_apply (ei : IVec S2x800000 32) (h : FVec Ideal S50000x128 .f32) (W : FVec Ideal S128x128 .f32)
    (b : FVec Ideal S128 .f32) (v : Fin 50000) (k : Fin 128) :
    layerV ei h W b (ix2 v k)
      = aggR (rowOf (srcCol ei)) (rowOf (dstNCol ei)) (tgtOf (dstCol ei)) (fun u j => h (ix2 u j)) (fun j c => W (ix2 j c)) v k
        + b (ix1 k) := by
  unfold layerV
  rw [addf_apply, rowB_apply]
  refine congrArg (· + b (ix1 k)) ?_
  rw [hostScatterAdd_eq]
  refine (hostScatterAdd_rows_apply (dstCol ei) k scatter_S50000x128_S850000x1_S850000x128_1_0_0_1 rfl rfl rfl rfl _ _ v).trans ?_
  rw [zeroB_apply, zero_add]
  unfold aggR seg tgtOf
  refine Finset.sum_congr rfl fun e _ => ?_
  rw [mulf_apply, colRow_apply, ewV_apply,
    gather_rows_apply (by decide) gather_S50000x128_S850000x1_S850000x128_1_0_n_n_0_1_1128 rfl rfl rfl rfl rfl rfl rfl _ (srcCol ei) e k,
    dot_plain.dotGeneral none h W _ k]
  rfl

/-! ## The batch statistics -/

/-- A sum down the rows from the zero word, at feature `k`: the sum over the nodes. -/
theorem colSum_apply (h : FVec Ideal S50000x128 .f32) (k : Fin 128) :
    Host.reduceAdd (F := Ideal) h (constant (F := Ideal) S_ .f32 0x00000000#32) reducesTo_S50000x128_S128_d0 h_S_ (ix1 k)
      = ∑ v : Fin 50000, h (ix2 v k) := by
  have hr : S50000x128.Reduces [0] S128 := by decide
  rw [hostReduceAdd_apply, Ideal.hostReduceAdd_single reducesTo_S50000x128_S128_d0 hr, constant_apply, Ideal.ofBits_zero_f32,
    zero_add]
  exact Finset.sum_congr rfl fun v _ => congrArg h (ColSum.lift_col hr k v)

/-- The batch mean of feature `k`. -/
theorem meanV_apply (h : FVec Ideal S50000x128 .f32) (k : Fin 128) :
    meanV h (ix1 k) = Ideal.div (∑ v : Fin 50000, h (ix2 v k)) cN := by
  unfold meanV
  rw [hostDivf_apply, colSum_apply]
  exact congrArg (Ideal.div _) ((broadcastInDim_scalar_apply _ _ _).trans rfl)

/-- The deviation of node `v`'s feature `k` from the batch mean. -/
theorem devV_apply (h : FVec Ideal S50000x128 .f32) (v : Fin 50000) (k : Fin 128) :
    devV h (ix2 v k) = h (ix2 v k) - Ideal.div (∑ u : Fin 50000, h (ix2 u k)) cN := by
  unfold devV
  rw [subf_apply]
  refine congrArg (h (ix2 v k) - ·) ?_
  refine (broadcastInDim_oneRow_apply bcast_S1x128_S50000x128_0_1 _ v k).trans ?_
  rw [hostDivf_apply, vecRow_apply, colSum_apply]
  exact congrArg (Ideal.div _) ((broadcastInDim_scalar_apply _ _ _).trans rfl)

/-- The variance's divisor is the number of nodes: the integer zero converts to the real zero. -/
theorem dofV_apply : dofV ix0 = cN := by
  unfold dofV
  rw [subf_apply, constant_apply, sitofp_apply, constantI_apply, sitofp_zero_word, sub_zero]
  rfl

/-- The number of nodes' word denotes the real 50000: exponent 15, significand 12800000 · 2⁻²³. -/
theorem cN_real : cN = ((50000 : ℝ) : EReal) := by
  unfold cN
  simp [Ideal.ofBits, Ideal.ieee, -EReal.coe_mul]; norm_num

/-- The number of nodes is positive, so the comparison's bit is one. -/
theorem dof_pos_bit (k : Fin 128) :
    broadcastInDim S128 ![] bcast_S_S128 (cmpf .ogt dofV (constant (F := Ideal) S_ .f32 0x00000000#32)) (ix1 k) = 1#1 := by
  refine (broadcastInDim_scalar_apply _ _ _).trans ?_
  rw [cmpf_apply, dofV_apply, constant_apply, Ideal.ofBits_zero_f32, Ideal.cmpf_def, cN_real]
  unfold Ideal.cmp
  have h0 : (0 : EReal) < ((50000 : ℝ) : EReal) := by exact_mod_cast (by norm_num : (0 : ℝ) < 50000)
  simp only [h0, decide_true]
  rfl

/-- The batch variance of feature `k`: the mean of the squared deviations. -/
theorem varV_apply (h : FVec Ideal S50000x128 .f32) (k : Fin 128) :
    varV h (ix1 k)
      = Ideal.div (∑ v : Fin 50000, (h (ix2 v k) - Ideal.div (∑ u : Fin 50000, h (ix2 u k)) cN)
          * (h (ix2 v k) - Ideal.div (∑ u : Fin 50000, h (ix2 u k)) cN)) cN := by
  unfold varV
  rw [select_apply, dof_pos_bit, select_one, hostDivf_apply, colSum_apply]
  refine congrArg₂ Ideal.div (Finset.sum_congr rfl fun v _ => ?_) ((broadcastInDim_scalar_apply _ _ _).trans dofV_apply)
  rw [mulf_apply, devV_apply]

/-! ## Normalisation and the rectifier -/

/-- The normalised and rectified layer at node `v`, feature `k`. -/
theorem actV_apply (h : FVec Ideal S50000x128 .f32) (gam bet : FVec Ideal S128 .f32) (v : Fin 50000) (k : Fin 128) :
    actV h gam bet (ix2 v k)
      = bn (fun c => gam (ix1 c)) (fun c => bet (ix1 c)) (fun u j => h (ix2 u j)) (fun c => meanV h (ix1 c))
          (fun c => varV h (ix1 c)) v k := by
  unfold actV bn
  rw [maximumf_apply, addf_apply, mulf_apply, mulf_apply, subf_apply, rowB_apply, rowB_apply, rowB_apply, rowB_apply, zeroB_apply,
    hostRsqrt_apply, addf_apply, broadcastInDim_scalar_apply, constant_apply]
  rfl

/-! ## The whole -/

/-- The closed term at node `v`, feature `k` is the reference arrangement. -/
theorem outV_apply (x : FVec Ideal S50000x128 .f32) (ei : IVec S2x800000 32) (W1 : FVec Ideal S128x128 .f32)
    (b1 : FVec Ideal S128 .f32) (W2 : FVec Ideal S128x128 .f32) (b2 gam bet : FVec Ideal S128 .f32) (v : Fin 50000) (k : Fin 128) :
    outV x ei W1 b1 W2 b2 gam bet (ix2 v k)
      = outR (fun u j => x (ix2 u j)) (fun j c => W1 (ix2 j c)) (fun j c => W2 (ix2 j c)) (fun c => b1 (ix1 c))
          (fun c => b2 (ix1 c)) (fun c => gam (ix1 c)) (fun c => bet (ix1 c))
          (rowOf (srcCol ei)) (rowOf (dstNCol ei)) (tgtOf (dstCol ei)) v k := by
  have hh : (fun u j => layerV ei x W1 b1 (ix2 u j))
      = hR (fun u j => x (ix2 u j)) (fun j c => W1 (ix2 j c)) (fun c => b1 (ix1 c)) (rowOf (srcCol ei)) (rowOf (dstNCol ei))
          (tgtOf (dstCol ei)) :=
    funext fun u => funext fun j => layerV_apply ei x W1 b1 u j
  have hm : (fun c => meanV (layerV ei x W1 b1) (ix1 c))
      = muR (fun u j => x (ix2 u j)) (fun j c => W1 (ix2 j c)) (fun c => b1 (ix1 c)) (rowOf (srcCol ei)) (rowOf (dstNCol ei))
          (tgtOf (dstCol ei)) :=
    funext fun c => by
      rw [meanV_apply]
      unfold muR
      rw [← hh]
  have hv : (fun c => varV (layerV ei x W1 b1) (ix1 c))
      = varR (fun u j => x (ix2 u j)) (fun j c => W1 (ix2 j c)) (fun c => b1 (ix1 c)) (rowOf (srcCol ei)) (rowOf (dstNCol ei))
          (tgtOf (dstCol ei)) :=
    funext fun c => by
      rw [varV_apply]
      unfold varR muR
      rw [← hh]
  have ha : (fun u j => actV (layerV ei x W1 b1) gam bet (ix2 u j))
      = h1R (fun u j => x (ix2 u j)) (fun j c => W1 (ix2 j c)) (fun c => b1 (ix1 c)) (fun c => gam (ix1 c)) (fun c => bet (ix1 c))
          (rowOf (srcCol ei)) (rowOf (dstNCol ei)) (tgtOf (dstCol ei)) :=
    funext fun u => funext fun j => by
      rw [actV_apply, hh, hm, hv]
      rfl
  unfold outV outR
  rw [addf_apply, layerV_apply, ha]
  exact congrArg (· + _) (congrFun (congrFun ha v) k)

/-! ## The run's result -/

/-- The program's result at node `v`, feature `k` is the reference arrangement over the launch contents. -/
theorem ref_value (V : Valuation τ sig (Elt Ideal)) (v : Fin 50000) (k : Fin 128) :
    (StableHlo.after (RefRun.ops (F := Ideal)) V (main_v80 : DevRef τ sig) : S50000x128.Idx → EReal) (ix2 v k)
      = Cert.Gcn.outR (fun u j => (V (main_arg0 : DevRef τ sig) : S50000x128.Idx → EReal) (ix2 u j))
          (fun j k => (V (main_arg2 : DevRef τ sig) : S128x128.Idx → EReal) (ix2 j k))
          (fun j k => (V (main_arg4 : DevRef τ sig) : S128x128.Idx → EReal) (ix2 j k))
          (fun k => (V (main_arg3 : DevRef τ sig) : S128.Idx → EReal) (ix1 k))
          (fun k => (V (main_arg5 : DevRef τ sig) : S128.Idx → EReal) (ix1 k))
          (fun k => (V (main_arg6 : DevRef τ sig) : S128.Idx → EReal) (ix1 k))
          (fun k => (V (main_arg7 : DevRef τ sig) : S128.Idx → EReal) (ix1 k))
          (Cert.Gcn.rowOf (srcCol (V (main_arg1 : DevRef τ sig))))
          (Cert.Gcn.rowOf (dstNCol (V (main_arg1 : DevRef τ sig))))
          (Cert.Gcn.tgtOf (dstCol (V (main_arg1 : DevRef τ sig)))) v k :=
  (congrFun (out_closed V) (ix2 v k)).trans
    (outV_apply (V (main_arg0 : DevRef τ sig)) (V (main_arg1 : DevRef τ sig)) (V (main_arg2 : DevRef τ sig))
      (V (main_arg3 : DevRef τ sig)) (V (main_arg4 : DevRef τ sig)) (V (main_arg5 : DevRef τ sig))
      (V (main_arg6 : DevRef τ sig)) (V (main_arg7 : DevRef τ sig)) v k)

end Cert.ReferenceIdeal.RefValue

end
-- ==== Proof.Algebra.lean ====
/-
  The two arrangements of the two-layer graph convolution agree.

  Every node receives at least one edge (its self-loop), so its degree is a real number at least one and its
  normalisation weight is a nonnegative real. A nonnegative finite factor distributes over any finite sum of
  extended reals, so the weight of the receiving node may be moved inside the sum over its incoming edges; on those
  edges the destination row is the receiving node, so the product of the two node weights is the edge weight. This
  gives the linear step of both layers with no finiteness of the summed rows.

  With the inputs of the first layer real, the first layer is real, and on reals the two spellings of the batch
  variance agree: mean(h²) − mean(h)² = mean((h − mean h)²). The normalised layers are then the same function of the
  same arguments, and the results differ only by the bracketing of a sum of three terms.
-/
import proofs.«139979_j60576218742837_2_alg».proof.Proof.Spec
import proofs.«139979_j60576218742837_2_alg».proof.Proof.LibSegmentSum

noncomputable section

open scoped BigOperators

namespace Cert.Gcn

open Idealize.ShloMosaic

/-! ## The constants -/

/-- The weight of one edge in a degree count denotes `1`. -/
theorem cOne_eq : cOne = 1 := by
  unfold cOne
  simp [Ideal.ofBits, Ideal.ieee, -EReal.coe_mul]; norm_num

/-- The number of nodes denotes the real `50000`: sign `0`, exponent `142 = 127 + 15`, significand
`2^23 + 4411392 = 12800000`, and `12800000 · 2^(15 − 23) = 50000`. -/
theorem cN_eq : cN = ((50000 : ℝ) : EReal) := by
  unfold cN
  simp [Ideal.ofBits, Ideal.ieee, -EReal.coe_mul]; norm_num

/-! ## Real values among the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- A product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A finite sum of reals is a real. -/
theorem real_sum {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-! ## Degrees and normalisation weights -/

section
variable (sRow dRow : Fin 850000 → Fin 50000) (dTgt : Fin 850000 → Option (Fin 50000))

/-- The degree of a node is the number of its incoming edges. -/
theorem deg_eq (v : Fin 50000) : deg dTgt v = (((seg dTgt v).card : ℝ) : EReal) := by
  unfold deg
  rw [Finset.sum_const, cOne_eq, ← EReal.coe_one, ← EReal.coe_nsmul, nsmul_eq_mul, mul_one]

/-- The normalisation weight of a node with an incoming edge is a nonnegative real: the reciprocal of the square
root of its positive degree. -/
theorem dis_real (hself : ∀ v, ∃ e, dTgt e = some v) (v : Fin 50000) :
    ∃ r : ℝ, 0 ≤ r ∧ dis dTgt v = (r : EReal) := by
  obtain ⟨e, he⟩ := hself v
  have hmem : e ∈ seg dTgt v := Finset.mem_filter.mpr ⟨Finset.mem_univ e, he⟩
  have hpos : 0 < (seg dTgt v).card := Finset.card_pos.mpr ⟨e, hmem⟩
  have hr : (0 : ℝ) < ((seg dTgt v).card : ℝ) := by exact_mod_cast hpos
  refine ⟨(Real.sqrt ((seg dTgt v).card : ℝ))⁻¹, inv_nonneg.mpr (Real.sqrt_nonneg _), ?_⟩
  unfold dis
  rw [deg_eq, Ideal.rsqrt_coe, if_neg (not_lt.mpr hr.le), if_neg hr.ne']

/-- The normalisation weight of a node with an incoming edge is a real. -/
theorem dis_isReal (hself : ∀ v, ∃ e, dTgt e = some v) (v : Fin 50000) :
    ∃ r : ℝ, dis dTgt v = (r : EReal) := by
  obtain ⟨r, _, hr⟩ := dis_real dTgt hself v
  exact ⟨r, hr⟩

/-- The normalisation weight of a node with an incoming edge is nonnegative. -/
theorem dis_nonneg (hself : ∀ v, ∃ e, dTgt e = some v) (v : Fin 50000) : 0 ≤ dis dTgt v := by
  obtain ⟨r, hr0, hr⟩ := dis_real dTgt hself v
  rw [hr]
  exact EReal.coe_nonneg.mpr hr0

/-- The normalisation weight of a node with an incoming edge is not `+∞`. -/
theorem dis_ne_top (hself : ∀ v, ∃ e, dTgt e = some v) (v : Fin 50000) : dis dTgt v ≠ ⊤ := by
  obtain ⟨r, _, hr⟩ := dis_real dTgt hself v
  rw [hr]
  exact EReal.coe_ne_top r

/-! ## The linear step -/

/-- The receiving node's weight times the sum of the scaled rows over its incoming edges is the sum of the rows
times their edge weights — for ANY rows `h` and weights `W` (no sign or finiteness condition on them). -/
theorem dis_mul_aggK (hrow : ∀ e v, dTgt e = some v → dRow e = v) (hself : ∀ v, ∃ e, dTgt e = some v)
    (h : Fin 50000 → Fin 128 → EReal) (W : Fin 128 → Fin 128 → EReal) (v : Fin 50000) (k : Fin 128) :
    dis dTgt v * aggK sRow dTgt h W v k = aggR sRow dRow dTgt h W v k := by
  unfold aggK aggR
  rw [mul_comm, Cert.SegmentSum.sum_mul_of_nonneg_of_ne_top _ _ (dis_nonneg dTgt hself v) (dis_ne_top dTgt hself v)]
  refine Finset.sum_congr rfl fun e he => ?_
  have hd : dRow e = v := hrow e v (Finset.mem_filter.mp he).2
  unfold projK ew
  rw [hd, mul_assoc]

end

/-! ## The batch variance on reals -/

/-- mean(h²) − mean(h)² = mean((h − mean h)²) for a real batch of `50000` entries, the means being divisions by the
real `50000`. -/
theorem var_identity (h : Fin 50000 → EReal) (hh : ∀ v, ∃ r : ℝ, h v = (r : EReal)) :
    Ideal.div (∑ v, h v * h v) cN - Ideal.div (∑ v, h v) cN * Ideal.div (∑ v, h v) cN
      = Ideal.div (∑ v, (h v - Ideal.div (∑ v, h v) cN) * (h v - Ideal.div (∑ v, h v) cN)) cN := by
  choose f hf using hh
  obtain rfl : h = fun v => (f v : EReal) := funext hf
  have h5 : (50000 : ℝ) ≠ 0 := by norm_num
  rw [cN_eq]
  simp only [Ideal.div_coe h5]
  have e1 : ∑ v, (f v : EReal) = ((∑ v, f v : ℝ) : EReal) := (coe_sum _ _).symm
  have e2 : ∑ v, (f v : EReal) * (f v : EReal) = ((∑ v, f v * f v : ℝ) : EReal) := by
    rw [coe_sum]
    exact Finset.sum_congr rfl fun v _ => (EReal.coe_mul _ _).symm
  rw [e1, e2, ← EReal.coe_mul ((∑ v, f v : ℝ)) (1 / 50000)]
  generalize hm : (∑ v, f v) * (1 / 50000 : ℝ) = m
  have e4 : ∑ v, ((f v : EReal) - (m : EReal)) * ((f v : EReal) - (m : EReal))
      = ((∑ v, (f v - m) * (f v - m) : ℝ) : EReal) := by
    rw [coe_sum]
    refine Finset.sum_congr rfl fun v _ => ?_
    rw [EReal.coe_mul, EReal.coe_sub]
  rw [e4, ← EReal.coe_mul, ← EReal.coe_mul, ← EReal.coe_mul, ← EReal.coe_sub]
  rw [EReal.coe_eq_coe_iff]
  have e5 : ∑ v, (f v - m) * (f v - m) = ∑ v, f v * f v - 2 * m * ∑ v, f v + 50000 * (m * m) := by
    have e6 : ∀ v, (f v - m) * (f v - m) = f v * f v - 2 * m * f v + m * m := fun v => by ring
    simp only [e6]
    rw [Finset.sum_add_distrib, Finset.sum_sub_distrib, ← Finset.mul_sum, Finset.sum_const, Finset.card_univ,
      Fintype.card_fin, nsmul_eq_mul]
    norm_num
  rw [e5, ← hm]
  ring

/-! ## The two arrangements -/

section
variable (x : Fin 50000 → Fin 128 → EReal) (W1 W2 : Fin 128 → Fin 128 → EReal) (b1 b2 gam bet : Fin 128 → EReal)
  (sRow dRow : Fin 850000 → Fin 50000) (dTgt : Fin 850000 → Option (Fin 50000))

/-- Layer 1 before normalisation is the same in both arrangements. -/
theorem hK_eq_hR (hrow : ∀ e v, dTgt e = some v → dRow e = v) (hself : ∀ v, ∃ e, dTgt e = some v) :
    hK x W1 b1 sRow dTgt = hR x W1 b1 sRow dRow dTgt := by
  funext v k
  unfold hK hR
  rw [dis_mul_aggK sRow dRow dTgt hrow hself]

/-- Layer 1 before normalisation is real when its inputs are. -/
theorem hR_real (hx : ∀ u j, ∃ r : ℝ, x u j = (r : EReal)) (hW1 : ∀ j k, ∃ r : ℝ, W1 j k = (r : EReal))
    (hb1 : ∀ k, ∃ r : ℝ, b1 k = (r : EReal)) (hself : ∀ v, ∃ e, dTgt e = some v) (v : Fin 50000) (k : Fin 128) :
    ∃ r : ℝ, hR x W1 b1 sRow dRow dTgt v k = (r : EReal) := by
  unfold hR aggR ew
  exact real_add
    (real_sum _ _ fun e _ =>
      real_mul (real_sum _ _ fun j _ => real_mul (hx _ _) (hW1 _ _))
        (real_mul (dis_isReal dTgt hself _) (dis_isReal dTgt hself _)))
    (hb1 k)

/-- THE TWO ARRANGEMENTS AGREE: for real first-layer inputs, a destination row that is the node the scatter adds
into, and at least one incoming edge at every node, the kernel's result is the reference's. -/
theorem outK_eq_outR (hx : ∀ u j, ∃ r : ℝ, x u j = (r : EReal)) (hW1 : ∀ j k, ∃ r : ℝ, W1 j k = (r : EReal))
    (hb1 : ∀ k, ∃ r : ℝ, b1 k = (r : EReal))
    (hrow : ∀ e v, dTgt e = some v → dRow e = v) (hself : ∀ v, ∃ e, dTgt e = some v) :
    outK x W1 W2 b1 b2 gam bet sRow dTgt = outR x W1 W2 b1 b2 gam bet sRow dRow dTgt := by
  have hh : hK x W1 b1 sRow dTgt = hR x W1 b1 sRow dRow dTgt := hK_eq_hR x W1 b1 sRow dRow dTgt hrow hself
  have hmu : muK x W1 b1 sRow dTgt = muR x W1 b1 sRow dRow dTgt := by
    funext k
    unfold muK muR
    rw [hh]
  have hvar : varK x W1 b1 sRow dTgt = varR x W1 b1 sRow dRow dTgt := by
    funext k
    unfold varK varR
    rw [hmu]
    unfold muR
    rw [hh]
    exact var_identity (fun v => hR x W1 b1 sRow dRow dTgt v k)
      (fun v => hR_real x W1 b1 sRow dRow dTgt hx hW1 hb1 hself v k)
  have h1 : h1K x W1 b1 gam bet sRow dTgt = h1R x W1 b1 gam bet sRow dRow dTgt := by
    unfold h1K h1R
    rw [hh, hmu, hvar]
  funext v k
  unfold outK outR
  rw [h1, dis_mul_aggK sRow dRow dTgt hrow hself, add_assoc]

end

end Cert.Gcn

end
-- ==== Proof.Finite.lean ====
/-
  The precondition read back: every entry of the first three float arrays is a real.

  The precondition is a conjunction of seven tests "every entry of the array has absolute value below +∞", each a
  reduction by `and` of the entrywise comparison. A conjunction of bits that is `1` has every conjunct `1`; a reduction
  by `and` over all axes that is `1` had a `1` at every entry; and an extended real whose absolute value is below +∞
  is neither infinity, hence a real.
-/
import proofs.«139979_j60576218742837_2_alg».proof.Proof.Gen.Pre_finite_inputs
import Idealize.ShloMosaic.Lib.ReduceAll
import Idealize.ShloMosaic.Lib.IdealHost
import Idealize.ShloMosaic.Lib.ValueIdx
import Idealize.ShloMosaic.Lib.KernelVsHost

noncomputable section

namespace Cert.Gcn.Finite

open Idealize.ShloMosaic Idealize.ShloMosaic.ValueIdx Cert.Pre_finite_inputs

/-- The rank-0 shape has one index. -/
instance : Subsingleton S_.Idx := ⟨fun a b => funext fun d => d.elim0⟩

/-- An extended real whose absolute value compares below the word of +∞ is a real: the comparison is the
complement of "is an infinity". -/
theorem real_of_abs_lt_inf (x : EReal)
    (h : FloatOps.cmpf (F := Ideal) (φ := .f32) .olt (FloatOps.hostAbsf x) (FloatOps.ofBits (F := Ideal) .f32 0x7F800000#32) = 1#1) :
    ∃ r : ℝ, x = (r : EReal) := by
  rw [← Ideal.xori_weird_eq_hostAbsf_olt_inf] at h
  have h' : IntOp.xori (BitVec.ofBool (decide (x = ⊤ ∨ x = ⊥))) 1#1 = 1#1 := h
  induction x using EReal.rec with
  | bot => simp [IntOp.xori] at h'
  | coe r => exact ⟨r, rfl⟩
  | top => simp [IntOp.xori] at h'

/-- One test of the precondition, over any shape: if the reduction by `and` over all axes of the entrywise
comparison `|a| < +∞` is `1`, every entry of `a` is a real. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) (i : s.Idx) :
    ∃ r : ℝ, a i = (r : EReal) := by
  have h1 := Host.reduce_andi_all _ _ hr hu ix0 e i
  rw [cmpf_apply, broadcastInDim_scalar_apply] at h1
  exact real_of_abs_lt_inf (a i) h1

/-- THE PRECONDITION READ BACK: where it holds, the first, third and fourth arrays (the node features, the first
layer's weights and its bias) have real entries. -/
theorem real_of_pre (a0 : FVec Ideal S50000x128 .f32) (a1 : IVec S2x800000 32) (a2 : FVec Ideal S128x128 .f32)
    (a3 : FVec Ideal S128 .f32) (a4 : FVec Ideal S128x128 .f32) (a5 a6 a7 : FVec Ideal S128 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h3⟩ := IntOp.andi_eq_one.1 h0
  obtain ⟨h0, h2⟩ := IntOp.andi_eq_one.1 h0
  exact ⟨real_of_all a0 _ _ _ h0, real_of_all a2 _ _ _ h2, real_of_all a3 _ _ _ h3⟩

end Cert.Gcn.Finite

end
-- ==== Proof.EdgeFacts.lean ====
/-
  Two facts about the destination words of the edges with the self-loops appended.

  An edge whose destination word a scatter accepts (the word, read signed, lies in `[0, 50000)`) has that same node as
  the row a gather by the wrapped destination column reads: a nonnegative word is left alone by the wrap of negative
  words, and a word below the table's height is left alone by the clamp. And every node receives an edge: the
  self-loop of node `v` is edge `800000 + v`, whose destination word is `v` itself.
-/
import proofs.«139979_j60576218742837_2_alg».proof.Proof.Stretch0
import Idealize.ShloMosaic.Lib.IdealHost

noncomputable section

namespace Cert.KernelIdeal.Stretch

open Cert.KernelIdeal Cert.KernelIdeal.Gen Idealize.ShloMosaic Idealize.ShloMosaic.TcCoe Idealize.SL.Sem
open Idealize.ShloMosaic.StableHlo Idealize.ShloMosaic.ValueIdx

/-! ## One word -/

/-- A word a scatter into `50000` rows accepts is nonnegative, below `50000`, and names the row it is. -/
theorem rowTarget_some {w : BitVec 32} {v : Fin 50000} (h : Cert.SegmentSum.rowTarget 50000 w = some v) :
    0 ≤ w.toInt ∧ w.toInt < 50000 ∧ w.toInt.toNat = v.val := by
  unfold Cert.SegmentSum.rowTarget at h
  split at h
  · next hr =>
    have hv := Option.some.inj h
    refine ⟨hr.1, by have := hr.2; omega, ?_⟩
    rw [← hv]
  · exact absurd h (by simp)

/-- The wrap of negative words leaves a nonnegative word alone. -/
theorem wrap_keeps {w : BitVec 32} (h0 : 0 ≤ w.toInt) :
    Scalar.select (IntOp.cmpi .slt w 0#32) (IntOp.addi w 50000#32) w = w := by
  have hs : w.slt 0#32 = false := by
    rw [BitVec.slt_eq_decide, BitVec.toInt_zero]
    exact decide_eq_false (by omega)
  unfold Scalar.select IntOp.cmpi
  simp [hs]

/-- An accepted word, wrapped and clamped into the table, is the row the scatter adds into. -/
theorem wrap_row_val {w : BitVec 32} {v : Fin 50000} (h : Cert.SegmentSum.rowTarget 50000 w = some v) :
    min (Scalar.select (IntOp.cmpi .slt w 0#32) (IntOp.addi w 50000#32) w).toInt.toNat (50000 - 1) = v.val := by
  obtain ⟨h0, h1, h2⟩ := rowTarget_some h
  rw [wrap_keeps h0]
  omega

/-- The word `v` of a node `v < 50000` reads signed as `v`. -/
theorem toInt_ofNat_node (v : Fin 50000) : (BitVec.ofNat 32 v.val).toInt = (v.val : Int) := by
  have hv := v.isLt
  rw [BitVec.toInt_eq_toNat_of_lt (by rw [BitVec.toNat_ofNat]; omega), BitVec.toNat_ofNat]
  omega

/-- A scatter into `50000` rows accepts the word `v` of a node `v`, as that node. -/
theorem rowTarget_node (v : Fin 50000) : Cert.SegmentSum.rowTarget 50000 (BitVec.ofNat 32 v.val) = some v := by
  have hv := v.isLt
  have ht := toInt_ofNat_node v
  unfold Cert.SegmentSum.rowTarget
  rw [dif_pos ⟨by omega, by omega⟩]
  refine congrArg some (Fin.ext ?_)
  show (BitVec.ofNat 32 v.val).toInt.toNat = v.val
  omega

/-! ## The columns read at an edge -/

/-- The destination column at edge `e` is the destination word of `e`. -/
theorem dstCol_apply (ei : IVec S2x800000 32) (e : Fin 850000) : dstCol ei (ix2 e 0) = dstW ei (ix1 e) := by
  unfold dstCol
  refine broadcastInDim_apply _ _ _ (ix2 e (0 : Fin 1)) (ix1 e) fun a => ?_
  match a with
  | ⟨0, _⟩ => rfl

/-- The wrapped column of a word vector at edge `e` is the wrap of the word of `e`. -/
theorem wrapCol_apply (w : IVec S850000 32) (e : Fin 850000) :
    wrapCol w (ix2 e 0)
      = Scalar.select (IntOp.cmpi .slt (w (ix1 e)) 0#32) (IntOp.addi (w (ix1 e)) 50000#32) (w (ix1 e)) := by
  unfold wrapCol
  refine (broadcastInDim_apply _ _ _ (ix2 e (0 : Fin 1)) (ix1 e) fun a => ?_).trans ?_
  · match a with
    | ⟨0, _⟩ => rfl
  · rw [select_apply]
    show Scalar.select (IntOp.cmpi .slt (w (ix1 e)) (broadcastInDim S850000 ![] bcast_S_S850000 (constantI S_ 32 0#32) (ix1 e)))
        (IntOp.addi (w (ix1 e)) (broadcastInDim S850000 ![] bcast_S_S850000 (constantI S_ 32 50000#32) (ix1 e))) (w (ix1 e)) = _
    rw [broadcastInDim_scalar_apply, broadcastInDim_scalar_apply]
    rfl

/-- The destination word of the self-loop of node `v`, edge `800000 + v`, is the word `v`. -/
theorem dstW_self (ei : IVec S2x800000 32) (v : Fin 50000) :
    dstW ei (ix1 (⟨800000 + v.val, by omega⟩ : Fin 850000)) = BitVec.ofNat 32 v.val := by
  unfold dstW
  refine (concatenate_pair_apply_right (0 : Fin S850000.rank) _ _ concatenates_S800000_S50000_S850000_d0
    (ix1 (⟨800000 + v.val, by omega⟩ : Fin 850000)) rfl rfl (ix1 v) (fun b hb => ?_) ?_).trans ?_
  · match b with
    | ⟨0, _⟩ => exact absurd rfl hb
  · show v.val + 800000 = 800000 + v.val
    omega
  · rfl

/-! ## The two facts -/

/-- An edge the scatter by the destination column adds into node `v` has `v` as the row the gather by the wrapped
destination column reads. -/
theorem row_of_target (ei : IVec S2x800000 32) (e : Fin 850000) (v : Fin 50000) :
    Cert.Gcn.tgtOf (dstCol ei) e = some v → Cert.Gcn.rowOf (wrapCol (dstW ei)) e = v := by
  intro h
  unfold Cert.Gcn.tgtOf at h
  rw [dstCol_apply] at h
  refine Fin.ext ?_
  show min ((wrapCol (dstW ei)) (ix2 e 0)).toInt.toNat (50000 - 1) = v.val
  rw [wrapCol_apply]
  exact wrap_row_val h

/-- Every node receives an edge: its self-loop. -/
theorem self_loop (ei : IVec S2x800000 32) (v : Fin 50000) : ∃ e, Cert.Gcn.tgtOf (dstCol ei) e = some v := by
  refine ⟨⟨800000 + v.val, by omega⟩, ?_⟩
  unfold Cert.Gcn.tgtOf
  rw [dstCol_apply, dstW_self]
  exact rowTarget_node v

end Cert.KernelIdeal.Stretch

end
-- ==== Proof.lean ====
/-
  The proof of `Cert.Claim`: the three programs run, the idealized kernel is the kernel's text read on the extended
  reals, and the idealized kernel and the idealized reference end with equal results.

  Both programs compute a two-layer graph convolution with symmetric normalisation, batch normalisation and a
  rectifier after the first layer, and the sum of the two layers' outputs. They differ in three arrangements, equal on
  the extended reals under the precondition:
  * the kernel scales each projected row by the weight of its own node before the edges gather it and by the weight
    of the receiving node after the sum, where the reference multiplies each gathered row by the product of the two
    weights: a weight `deg^(-1/2)` with `deg ≥ 1` (every node has its self-loop) is a nonnegative real, and such a
    factor distributes over any finite sum of extended reals;
  * the kernel's batch variance is the mean of the squares minus the square of the mean, the reference's the mean of
    the squared deviations: equal for real entries, which layer 1 has when `x`, `W1` and `b1` are finite;
  * the last sum is associated differently.
  The kernel's value is read off its frame run segment by segment (Proof/KernelValue.lean), the reference's off its
  run (Proof/RefValue.lean); the algebra is Proof/Algebra.lean over the specification Proof/Spec.lean.
-/
import proofs.«139979_j60576218742837_2_alg».proof.Defs
import proofs.«139979_j60576218742837_2_alg».proof.Proof.Gen.Kernel
import proofs.«139979_j60576218742837_2_alg».proof.Proof.Gen.Kernel.Frame
import proofs.«139979_j60576218742837_2_alg».proof.Proof.Gen.KernelIdeal
import proofs.«139979_j60576218742837_2_alg».proof.Proof.Gen.KernelIdeal.Frame
import proofs.«139979_j60576218742837_2_alg».proof.Proof.Gen.ReferenceIdeal
import proofs.«139979_j60576218742837_2_alg».proof.Proof.Gen.Pre_finite_inputs
import proofs.«139979_j60576218742837_2_alg».proof.Proof.KernelValue
import proofs.«139979_j60576218742837_2_alg».proof.Proof.RefValue
import proofs.«139979_j60576218742837_2_alg».proof.Proof.Algebra
import proofs.«139979_j60576218742837_2_alg».proof.Proof.Finite
import proofs.«139979_j60576218742837_2_alg».proof.Proof.EdgeFacts
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Idealize.ShloMosaic.ValueIdx

/-! ## The reference's value over named argument arrays -/

/-- The reference's result entry, its argument arrays named. -/
theorem ref_entry (V : Valuation Cert.ReferenceIdeal.τ Cert.ReferenceIdeal.sig (Elt Ideal))
    (A0 : Cert.ReferenceIdeal.S50000x128.Idx → EReal) (E : IVec Cert.ReferenceIdeal.S2x800000 32) (A2 A4 : Cert.ReferenceIdeal.S128x128.Idx → EReal)
    (A3 A5 A6 A7 : Cert.ReferenceIdeal.S128.Idx → EReal)
    (h0 : V (Cert.ReferenceIdeal.main_arg0 : DevRef Cert.ReferenceIdeal.τ Cert.ReferenceIdeal.sig) = A0) (h1 : V (Cert.ReferenceIdeal.main_arg1 : DevRef Cert.ReferenceIdeal.τ Cert.ReferenceIdeal.sig) = E)
    (h2 : V (Cert.ReferenceIdeal.main_arg2 : DevRef Cert.ReferenceIdeal.τ Cert.ReferenceIdeal.sig) = A2) (h3 : V (Cert.ReferenceIdeal.main_arg3 : DevRef Cert.ReferenceIdeal.τ Cert.ReferenceIdeal.sig) = A3)
    (h4 : V (Cert.ReferenceIdeal.main_arg4 : DevRef Cert.ReferenceIdeal.τ Cert.ReferenceIdeal.sig) = A4) (h5 : V (Cert.ReferenceIdeal.main_arg5 : DevRef Cert.ReferenceIdeal.τ Cert.ReferenceIdeal.sig) = A5)
    (h6 : V (Cert.ReferenceIdeal.main_arg6 : DevRef Cert.ReferenceIdeal.τ Cert.ReferenceIdeal.sig) = A6) (h7 : V (Cert.ReferenceIdeal.main_arg7 : DevRef Cert.ReferenceIdeal.τ Cert.ReferenceIdeal.sig) = A7)
    (v : Fin 50000) (k : Fin 128) :
    (StableHlo.after (Cert.ReferenceIdeal.RefRun.ops (F := Ideal)) V (Cert.ReferenceIdeal.main_v80 : DevRef Cert.ReferenceIdeal.τ Cert.ReferenceIdeal.sig) : Cert.ReferenceIdeal.S50000x128.Idx → EReal) (ix2 v k)
      = Cert.Gcn.outR (fun u j => A0 (ix2 u j)) (fun j k => A2 (ix2 j k)) (fun j k => A4 (ix2 j k))
          (fun k => A3 (ix1 k)) (fun k => A5 (ix1 k)) (fun k => A6 (ix1 k)) (fun k => A7 (ix1 k))
          (Cert.Gcn.rowOf (Cert.ReferenceIdeal.RefValue.srcCol E)) (Cert.Gcn.rowOf (Cert.ReferenceIdeal.RefValue.dstNCol E))
          (Cert.Gcn.tgtOf (Cert.ReferenceIdeal.RefValue.dstCol E)) v k := by
  subst h0 h1 h2 h3 h4 h5 h6 h7
  exact Cert.ReferenceIdeal.RefValue.ref_value V v k

/-! ## The two results are equal -/

open Cert.KernelIdeal.KValue Cert.KernelIdeal.Stretch in
/-- From memories agreeing on the arguments, under the precondition, the reference's result buffer ends at the
    contents the kernel's result buffer ends at. -/
theorem results_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (V : Valuation Cert.ReferenceIdeal.τ Cert.ReferenceIdeal.sig (Elt Ideal))
    (hpre : Cert.Pre_finite_inputs.fn (F := Ideal) (xA m c) (eiA m c) (w1A m c) (b1A m c) (w2A m c) (b2A m c) (gaA m c) (beA m c) = fun _ => 1#1)
    (h0 : V (Cert.ReferenceIdeal.main_arg0 : DevRef Cert.ReferenceIdeal.τ Cert.ReferenceIdeal.sig) = xA m c) (h1 : V (Cert.ReferenceIdeal.main_arg1 : DevRef Cert.ReferenceIdeal.τ Cert.ReferenceIdeal.sig) = eiA m c)
    (h2 : V (Cert.ReferenceIdeal.main_arg2 : DevRef Cert.ReferenceIdeal.τ Cert.ReferenceIdeal.sig) = w1A m c) (h3 : V (Cert.ReferenceIdeal.main_arg3 : DevRef Cert.ReferenceIdeal.τ Cert.ReferenceIdeal.sig) = b1A m c)
    (h4 : V (Cert.ReferenceIdeal.main_arg4 : DevRef Cert.ReferenceIdeal.τ Cert.ReferenceIdeal.sig) = w2A m c) (h5 : V (Cert.ReferenceIdeal.main_arg5 : DevRef Cert.ReferenceIdeal.τ Cert.ReferenceIdeal.sig) = b2A m c)
    (h6 : V (Cert.ReferenceIdeal.main_arg6 : DevRef Cert.ReferenceIdeal.τ Cert.ReferenceIdeal.sig) = gaA m c) (h7 : V (Cert.ReferenceIdeal.main_arg7 : DevRef Cert.ReferenceIdeal.τ Cert.ReferenceIdeal.sig) = beA m c) :
    (StableHlo.after (Cert.ReferenceIdeal.RefRun.ops (F := Ideal)) V (Cert.ReferenceIdeal.main_v80 : DevRef Cert.ReferenceIdeal.τ Cert.ReferenceIdeal.sig) : Cert.ReferenceIdeal.S50000x128.Idx → EReal)
      = Cert.KernelIdeal.Gen.W8 m ρ c (Proc.devRef .tc Cert.KernelIdeal.main_v46) := by
  funext i
  obtain ⟨v, k, rfl⟩ : ∃ (v : Fin 50000) (k : Fin 128), i = ix2 v k := ⟨i 0, i 1, eq_ix2 i⟩
  obtain ⟨hx, hW1, hb1⟩ := Cert.Gcn.Finite.real_of_pre _ _ _ _ _ _ _ _ hpre
  have hKR := congrFun (congrFun (Cert.Gcn.outK_eq_outR (xF m c) (w1F m c) (w2F m c) (b1F m c) (b2F m c) (gaF m c) (beF m c)
    (sRow m c) (Cert.Gcn.rowOf (wrapCol (dstW (eiA m c)))) (dTgt m c)
    (fun u j => hx (ix2 u j)) (fun j k => hW1 (ix2 j k)) (fun k => hb1 (ix1 k))
    (fun e v => row_of_target (eiA m c) e v) (fun v => self_loop (eiA m c) v)) v) k
  refine (ref_entry V _ _ _ _ _ _ _ _ h0 h1 h2 h3 h4 h5 h6 h7 v k).trans ?_
  refine Eq.trans ?_ (hKR.symm.trans (result_apply m ρ c v k).symm)
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference runs, and its argument arrays end as launched: its run with the result dropped. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _),
      (h c Cert.ReferenceIdeal.main_arg4).trans (Cert.ReferenceIdeal.RefValue.arg4_eq _),
      (h c Cert.ReferenceIdeal.main_arg5).trans (Cert.ReferenceIdeal.RefValue.arg5_eq _),
      (h c Cert.ReferenceIdeal.main_arg6).trans (Cert.ReferenceIdeal.RefValue.arg6_eq _),
      (h c Cert.ReferenceIdeal.main_arg7).trans (Cert.ReferenceIdeal.RefValue.arg7_eq _)⟩)
    (Cert.ReferenceIdeal.RefRun.run_main (F := Ideal) m ρ)

/-- The ideal pass rewrote nothing: the idealized kernel is the kernel's own text read on the extended reals. -/
theorem preserves : Cert.preserves_Kernel_KernelIdeal := trivial

/-- The idealized kernel ends with its result buffer at the last boundary's contents (its run), the idealized
    reference with its result buffer at its operations' fold (its run), and the two are one array (`results_eq`). -/
theorem algebraic : Cert.algebraic_KernelIdeal_ReferenceIdeal := by
  intro m ρ m' ρ' hpre hagree
  refine ⟨fun c => Cert.KernelIdeal.Gen.W8 m ρ c (Proc.devRef .tc Cert.KernelIdeal.main_v46),
    Cert.KernelIdeal.Gen.run_result (F := Ideal) m ρ, ?_⟩
  refine (θ_run Cert.ReferenceIdeal.defs _ _).mono (fun r h c =>
    ⟨(h c Cert.ReferenceIdeal.main_v80).trans (results_eq m ρ c _ (hpre c) (hagree c).1 (hagree c).2.1 (hagree c).2.2.1 (hagree c).2.2.2.1
        (hagree c).2.2.2.2.1 (hagree c).2.2.2.2.2.1 (hagree c).2.2.2.2.2.2.1 (hagree c).2.2.2.2.2.2.2),
      (h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _),
      (h c Cert.ReferenceIdeal.main_arg4).trans (Cert.ReferenceIdeal.RefValue.arg4_eq _),
      (h c Cert.ReferenceIdeal.main_arg5).trans (Cert.ReferenceIdeal.RefValue.arg5_eq _),
      (h c Cert.ReferenceIdeal.main_arg6).trans (Cert.ReferenceIdeal.RefValue.arg6_eq _),
      (h c Cert.ReferenceIdeal.main_arg7).trans (Cert.ReferenceIdeal.RefValue.arg7_eq _)⟩)
    (Cert.ReferenceIdeal.RefRun.run_main (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
